-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v457) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x28x28 : Shape := ⟨4, ![4096, 1, 28, 28]⟩
abbrev S3x4 : Shape := ⟨2, ![3, 4]⟩
abbrev S_ : Shape := ⟨0, ![]⟩

class Facts : Prop where
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  h_S_ : 0 < S_.numel
  bcast_S_S3x4 : S_.BroadcastsInDim S3x4 (![] : Fin 0 → Fin S3x4.rank)
  reducesTo_S3x4_S_d0_1 : S3x4.ReducesTo [0, 1] S_

variable [Facts]

def fn {F : FTy → Type} [FloatOps F] (main_arg0 : FVec F S4096x1x28x28 .f32) (main_arg1 : FVec F S3x4 .f32) : IVec S_ 1 :=
  let main_v0 : FVec F S4096x1x28x28 .f32 := Host.absf main_arg0
  let main_cst : FVec F S_ .f32 := constant S_ .f32 0x7F800000#32
  let main_v1 : FVec F S4096x1x28x28 .f32 := broadcastInDim S4096x1x28x28 ![] bcast_S_S4096x1x28x28 main_cst
  let main_v2 : IVec S4096x1x28x28 1 := cmpf .olt main_v0 main_v1
  let main_c : IVec S_ 1 := constantI S_ 1 1#1
  let main_v3 : IVec S_ 1 := (fun x v => Host.reduce IntOp.andi x v reducesTo_S4096x1x28x28_S_d0_1_2_3 h_S_) main_v2 main_c
  let main_v4 : FVec F S3x4 .f32 := Host.absf main_arg1
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  main_v8
-- ==== Kernel.lean ====
abbrev S4096x1x28x28 : Shape := ⟨4, ![4096, 1, 28, 28]⟩
abbrev S3x4 : Shape := ⟨2, ![3, 4]⟩
abbrev S4096x28x28 : Shape := ⟨3, ![4096, 28, 28]⟩
abbrev S4096x14x2x14x2 : Shape := ⟨5, ![4096, 14, 2, 14, 2]⟩
abbrev S2x2x4096x14x14 : Shape := ⟨5, ![2, 2, 4096, 14, 14]⟩
abbrev S4x802816 : Shape := ⟨2, ![4, 802816]⟩
abbrev S802816x4 : Shape := ⟨2, ![802816, 4]⟩
abbrev S4x57344 : Shape := ⟨2, ![4, 57344]⟩
abbrev S57344x4 : Shape := ⟨2, ![57344, 4]⟩
abbrev S1x57344 : Shape := ⟨2, ![1, 57344]⟩
abbrev S57344 : Shape := ⟨1, ![57344]⟩
abbrev S1x1 : Shape := ⟨2, ![1, 1]⟩
abbrev S4096x784 : Shape := ⟨2, ![4096, 784]⟩

abbrev nBuf : Space → Nat
  | .hbm => 8
  | .vmem => 5
  | .smem => 0
  | _ => 0

abbrev bufTy : (tb : Table) → Fin (tcTables nBuf tb) → BufTy
  | .hbm, ⟨0, _⟩ => ⟨S4096x1x28x28, .f32⟩
  | .hbm, ⟨1, _⟩ => ⟨S3x4, .f32⟩
  | .hbm, ⟨2, _⟩ => ⟨S4096x28x28, .f32⟩
  | .hbm, ⟨3, _⟩ => ⟨S4096x14x2x14x2, .f32⟩
  | .hbm, ⟨4, _⟩ => ⟨S2x2x4096x14x14, .f32⟩
  | .hbm, ⟨5, _⟩ => ⟨S4x802816, .f32⟩
  | .hbm, ⟨6, _⟩ => ⟨S802816x4, .f32⟩
  | .hbm, ⟨7, _⟩ => ⟨S4096x784, .f32⟩
  | .local _ .vmem, ⟨0, _⟩ => ⟨S4x57344, .f32⟩
  | .local _ .vmem, ⟨1, _⟩ => ⟨S4x57344, .f32⟩
  | .local _ .vmem, ⟨2, _⟩ => ⟨S3x4, .f32⟩
  | .local _ .vmem, ⟨3, _⟩ => ⟨S57344x4, .f32⟩
  | .local _ .vmem, ⟨4, _⟩ => ⟨S57344x4, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x57344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S57344x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x1x28x28_S4096x28x28 : S4096x1x28x28.ShapeCasts S4096x28x28
  shapeCasts_S4096x28x28_S4096x14x2x14x2 : S4096x28x28.ShapeCasts S4096x14x2x14x2
  transposes_S4096x14x2x14x2_S2x2x4096x14x14_2_4_0_1_3 : S4096x14x2x14x2.Transposes [2, 4, 0, 1, 3] S2x2x4096x14x14
  shapeCasts_S2x2x4096x14x14_S4x802816 : S2x2x4096x14x14.ShapeCasts S4x802816
  inb_S4x57344_S4x57344_0_0 : ∀ a, (![0, 0] : Fin 2 → Nat) a + S4x57344.size a ≤ S4x57344.size a
  h_S4x57344 : 0 < S4x57344.numel
  shapeCasts_S4x57344_S4x57344 : S4x57344.ShapeCasts S4x57344
  inb_S3x4_S3x4_0_0 : ∀ a, (![0, 0] : Fin 2 → Nat) a + S3x4.size a ≤ S3x4.size a
  h_S3x4 : 0 < S3x4.numel
  slices_S4x57344_o0_0_S1x57344 : S4x57344.Slices ![0, 0] S1x57344
  shapeCasts_S1x57344_S57344 : S1x57344.ShapeCasts S57344
  slices_S4x57344_o1_0_S1x57344 : S4x57344.Slices ![1, 0] S1x57344
  slices_S4x57344_o2_0_S1x57344 : S4x57344.Slices ![2, 0] S1x57344
  slices_S4x57344_o3_0_S1x57344 : S4x57344.Slices ![3, 0] S1x57344
  slices_S3x4_o0_0_S1x1 : S3x4.Slices ![0, 0] S1x1
  inpos_S1x1_p0_0 : ∀ a, (![0, 0] : Fin 2 → Nat) a < S1x1.size a
  slices_S3x4_o0_1_S1x1 : S3x4.Slices ![0, 1] S1x1
  slices_S3x4_o0_2_S1x1 : S3x4.Slices ![0, 2] S1x1
  slices_S3x4_o0_3_S1x1 : S3x4.Slices ![0, 3] S1x1
  slices_S3x4_o1_0_S1x1 : S3x4.Slices ![1, 0] S1x1
  slices_S3x4_o1_1_S1x1 : S3x4.Slices ![1, 1] S1x1
  slices_S3x4_o1_2_S1x1 : S3x4.Slices ![1, 2] S1x1
  slices_S3x4_o1_3_S1x1 : S3x4.Slices ![1, 3] S1x1
  slices_S3x4_o2_0_S1x1 : S3x4.Slices ![2, 0] S1x1
  slices_S3x4_o2_1_S1x1 : S3x4.Slices ![2, 1] S1x1
  slices_S3x4_o2_2_S1x1 : S3x4.Slices ![2, 2] S1x1
  slices_S3x4_o2_3_S1x1 : S3x4.Slices ![2, 3] S1x1
  shapeCasts_S57344_S1x57344 : S57344.ShapeCasts S1x57344
  concatenates_S1x57344_S1x57344_S1x57344_S1x57344_S4x57344_d0 : Shape.Concatenates [S1x57344, S1x57344, S1x57344, S1x57344] S4x57344 0
  transposes_S4x57344_p1_0_S57344x4 : S4x57344.Transposes [1, 0] S57344x4
  inb_S57344x4_S57344x4_0_0 : ∀ a, (![0, 0] : Fin 2 → Nat) a + S57344x4.size a ≤ S57344x4.size a
  h_S57344x4 : 0 < S57344x4.numel
  shapeCasts_S802816x4_S4096x784 : S802816x4.ShapeCasts S4096x784
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x57344.size a ≤ S4x802816.size a
  hwx0_0 : ∀ i : grid0.Coords, EltTy.bits .f32 = 32 ∨ (Rect.block (s := S4x802816) S4x57344.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x4.size a ≤ S3x4.size a
  hwx0_1 : ∀ i : grid0.Coords, EltTy.bits .f32 = 32 ∨ (Rect.block (s := S3x4) S3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S57344x4.size a ≤ S802816x4.size a
  hwx0_2 : ∀ i : grid0.Coords, EltTy.bits .f32 = 32 ∨ (Rect.block (s := S802816x4) S57344x4.size (cc0_transform_2 i) (hinb0_2 i)).WholeWords (EltTy.packing .f32)

variable [Facts₀]

abbrev win0_0 : Pipeline.Window sig grid0 :=
  Pipeline.Window.ofSpec (Memref.whole main_v3) S4x57344.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S57344x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1x28x28 : Shape := ⟨4, ![4096, 1, 28, 28]⟩
abbrev S3x4 : Shape := ⟨2, ![3, 4]⟩
abbrev S4096x28x28 : Shape := ⟨3, ![4096, 28, 28]⟩
abbrev S4096x14x2x14x2 : Shape := ⟨5, ![4096, 14, 2, 14, 2]⟩
abbrev S4096x14x14x2x2 : Shape := ⟨5, ![4096, 14, 14, 2, 2]⟩
abbrev S802816x4 : Shape := ⟨2, ![802816, 4]⟩
abbrev S_ : Shape := ⟨0, ![]⟩
abbrev S802816x2x2x2x2 : Shape := ⟨5, ![802816, 2, 2, 2, 2]⟩
abbrev S1 : Shape := ⟨1, ![1]⟩
abbrev S4 : Shape := ⟨1, ![4]⟩
abbrev S802816 : Shape := ⟨1, ![802816]⟩
abbrev S802816x1 : Shape := ⟨2, ![802816, 1]⟩
abbrev S1x1 : Shape := ⟨2, ![1, 1]⟩
abbrev S802816x1x1x1 : Shape := ⟨4, ![802816, 1, 1, 1]⟩
abbrev S802816x2x2x2x1 : Shape := ⟨5, ![802816, 2, 2, 2, 1]⟩
abbrev S802816x2x2x2 : Shape := ⟨4, ![802816, 2, 2, 2]⟩
abbrev S802816x1x2x2x2 : Shape := ⟨5, ![802816, 1, 2, 2, 2]⟩
abbrev S802816x2x2x1x2 : Shape := ⟨5, ![802816, 2, 2, 1, 2]⟩
abbrev S802816x2x1x2x2 : Shape := ⟨5, ![802816, 2, 1, 2, 2]⟩
abbrev S4096x784 : Shape := ⟨2, ![4096, 784]⟩

abbrev nBuf : Space → Nat
  | .hbm => 482
  | .vmem => 0
  | .smem => 0
  | _ => 0

abbrev hbmTy0_0 (i : Nat) : BufTy := match i % 128 with
  | 0 => ⟨S4096x1x28x28, .f32⟩
  | 1 => ⟨S3x4, .f32⟩
  | 2 => ⟨S4096x28x28, .f32⟩
  | 3 => ⟨S4096x14x2x14x2, .f32⟩
  | 4 => ⟨S4096x14x14x2x2, .f32⟩
  | 5 => ⟨S802816x4, .f32⟩
  | 6 => ⟨S_, .f32⟩
  | 7 => ⟨S802816x2x2x2x2, .f32⟩
  | 8 => ⟨S_, .i32⟩
  | 9 => ⟨S1, .i32⟩
  | 10 => ⟨S_, .i32⟩
  | 11 => ⟨S1, .i32⟩
  | 12 => ⟨S_, .i32⟩
  | 13 => ⟨S1, .i32⟩
  | 14 => ⟨S_, .i32⟩
  | 15 => ⟨S1, .i32⟩
  | 16 => ⟨S4, .i32⟩
  | 17 => ⟨S_, .f32⟩
  | 18 => ⟨S802816, .f32⟩
  | 19 => ⟨S802816x2x2x2x2, .f32⟩
  | 20 => ⟨S802816x1, .f32⟩
  | 21 => ⟨S802816, .f32⟩
  | 22 => ⟨S1x1, .f32⟩
  | 23 => ⟨S_, .f32⟩
  | 24 => ⟨S802816, .f32⟩
  | 25 => ⟨S802816, .f32⟩
  | 26 => ⟨S802816x2x2x2x2, .f32⟩
  | 27 => ⟨S_, .f32⟩
  | 28 => ⟨S802816, .f32⟩
  | 29 => ⟨S802816, .f32⟩
  | 30 => ⟨S802816, .f32⟩
  | 31 => ⟨S802816x1x1x1, .f32⟩
  | 32 => ⟨S802816, .f32⟩
  | 33 => ⟨S802816x1x1x1, .f32⟩
  | 34 => ⟨S802816x2x2x2x1, .f32⟩
  | 35 => ⟨S802816x2x2x2, .f32⟩
  | 36 => ⟨S802816x2x2x2x1, .f32⟩
  | 37 => ⟨S802816x2x2x2, .f32⟩
  | 38 => ⟨S802816x2x2x2, .f32⟩
  | 39 => ⟨S802816x2x2x2, .f32⟩
  | 40 => ⟨S802816x2x2x2, .f32⟩
  | 41 => ⟨S802816x2x2x2, .f32⟩
  | 42 => ⟨S802816x2x2x2, .f32⟩
  | 43 => ⟨S802816x2x2x2, .f32⟩
  | 44 => ⟨S802816x2x2x2, .f32⟩
  | 45 => ⟨S802816x2x2x2, .f32⟩
  | 46 => ⟨S802816x2x2x2, .f32⟩
  | 47 => ⟨S802816x2x2x2, .f32⟩
  | 48 => ⟨S802816x2x2x2x1, .f32⟩
  | 49 => ⟨S802816x2x2x2x1, .f32⟩
  | 50 => ⟨S802816x2x2x2x2, .f32⟩
  | 51 => ⟨S802816x2x2x2x2, .f32⟩
  | 52 => ⟨S802816x1, .f32⟩
  | 53 => ⟨S802816, .f32⟩
  | 54 => ⟨S1x1, .f32⟩
  | 55 => ⟨S_, .f32⟩
  | 56 => ⟨S802816, .f32⟩
  | 57 => ⟨S802816, .f32⟩
  | 58 => ⟨S802816x2x2x2x2, .f32⟩
  | 59 => ⟨S_, .f32⟩
  | 60 => ⟨S802816, .f32⟩
  | 61 => ⟨S802816, .f32⟩
  | 62 => ⟨S802816, .f32⟩
  | 63 => ⟨S802816x1x1x1, .f32⟩
  | 64 => ⟨S802816, .f32⟩
  | 65 => ⟨S802816x1x1x1, .f32⟩
  | 66 => ⟨S802816x2x2x2x1, .f32⟩
  | 67 => ⟨S802816x2x2x2, .f32⟩
  | 68 => ⟨S802816x2x2x2x1, .f32⟩
  | 69 => ⟨S802816x2x2x2, .f32⟩
  | 70 => ⟨S802816x2x2x2, .f32⟩
  | 71 => ⟨S802816x2x2x2, .f32⟩
  | 72 => ⟨S802816x2x2x2, .f32⟩
  | 73 => ⟨S802816x2x2x2, .f32⟩
  | 74 => ⟨S802816x2x2x2, .f32⟩
  | 75 => ⟨S802816x2x2x2, .f32⟩
  | 76 => ⟨S802816x2x2x2, .f32⟩
  | 77 => ⟨S802816x2x2x2, .f32⟩
  | 78 => ⟨S802816x2x2x2, .f32⟩
  | 79 => ⟨S802816x2x2x2, .f32⟩
  | 80 => ⟨S802816x2x2x2x1, .f32⟩
  | 81 => ⟨S802816x2x2x2x1, .f32⟩
  | 82 => ⟨S802816x2x2x2x2, .f32⟩
  | 83 => ⟨S802816x2x2x2x2, .f32⟩
  | 84 => ⟨S802816x1, .f32⟩
  | 85 => ⟨S802816, .f32⟩
  | 86 => ⟨S1x1, .f32⟩
  | 87 => ⟨S_, .f32⟩
  | 88 => ⟨S802816, .f32⟩
  | 89 => ⟨S802816, .f32⟩
  | 90 => ⟨S802816x2x2x2x2, .f32⟩
  | 91 => ⟨S_, .f32⟩
  | 92 => ⟨S802816, .f32⟩
  | 93 => ⟨S802816, .f32⟩
  | 94 => ⟨S802816, .f32⟩
  | 95 => ⟨S802816x1x1x1, .f32⟩
  | 96 => ⟨S802816, .f32⟩
  | 97 => ⟨S802816x1x1x1, .f32⟩
  | 98 => ⟨S802816x2x2x2x1, .f32⟩
  | 99 => ⟨S802816x2x2x2, .f32⟩
  | 100 => ⟨S802816x2x2x2x1, .f32⟩
  | 101 => ⟨S802816x2x2x2, .f32⟩
  | 102 => ⟨S802816x2x2x2, .f32⟩
  | 103 => ⟨S802816x2x2x2, .f32⟩
  | 104 => ⟨S802816x2x2x2, .f32⟩
  | 105 => ⟨S802816x2x2x2, .f32⟩
  | 106 => ⟨S802816x2x2x2, .f32⟩
  | 107 => ⟨S802816x2x2x2, .f32⟩
  | 108 => ⟨S802816x2x2x2, .f32⟩
  | 109 => ⟨S802816x2x2x2, .f32⟩
  | 110 => ⟨S802816x2x2x2, .f32⟩
  | 111 => ⟨S802816x2x2x2, .f32⟩
  | 112 => ⟨S802816x2x2x2x1, .f32⟩
  | 113 => ⟨S802816x2x2x2x1, .f32⟩
  | 114 => ⟨S802816x2x2x2x2, .f32⟩
  | 115 => ⟨S802816x2x2x2x2, .f32⟩
  | 116 => ⟨S802816x1, .f32⟩
  | 117 => ⟨S802816, .f32⟩
  | 118 => ⟨S1x1, .f32⟩
  | 119 => ⟨S_, .f32⟩
  | 120 => ⟨S802816, .f32⟩
  | 121 => ⟨S802816, .f32⟩
  | 122 => ⟨S_, .f32⟩
  | 123 => ⟨S802816, .f32⟩
  | 124 => ⟨S802816, .f32⟩
  | 125 => ⟨S802816, .f32⟩
  | 126 => ⟨S802816x1x1x1, .f32⟩
  | 127 => ⟨S802816, .f32⟩
  | _ => ⟨S4096x1x28x28, .f32⟩

abbrev hbmTy0_1 (i : Nat) : BufTy := match i % 128 with
  | 0 => ⟨S802816x1x1x1, .f32⟩
  | 1 => ⟨S802816x2x2x2x1, .f32⟩
  | 2 => ⟨S802816x2x2x2, .f32⟩
  | 3 => ⟨S802816x2x2x2x1, .f32⟩
  | 4 => ⟨S802816x2x2x2, .f32⟩
  | 5 => ⟨S802816x2x2x2, .f32⟩
  | 6 => ⟨S802816x2x2x2, .f32⟩
  | 7 => ⟨S802816x2x2x2, .f32⟩
  | 8 => ⟨S802816x2x2x2, .f32⟩
  | 9 => ⟨S802816x2x2x2, .f32⟩
  | 10 => ⟨S802816x2x2x2, .f32⟩
  | 11 => ⟨S802816x2x2x2, .f32⟩
  | 12 => ⟨S802816x2x2x2, .f32⟩
  | 13 => ⟨S802816x2x2x2, .f32⟩
  | 14 => ⟨S802816x2x2x2, .f32⟩
  | 15 => ⟨S802816x2x2x2x1, .f32⟩
  | 16 => ⟨S802816x2x2x2x1, .f32⟩
  | 17 => ⟨S802816x2x2x2x2, .f32⟩
  | 18 => ⟨S802816x1x2x2x2, .f32⟩
  | 19 => ⟨S802816x2x2x2, .f32⟩
  | 20 => ⟨S802816x1x2x2x2, .f32⟩
  | 21 => ⟨S802816x1x2x2x2, .f32⟩
  | 22 => ⟨S802816x2x2x2, .f32⟩
  | 23 => ⟨S802816x1x2x2x2, .f32⟩
  | 24 => ⟨S802816x1x2x2x2, .f32⟩
  | 25 => ⟨S802816x2x2x2x2, .f32⟩
  | 26 => ⟨S802816x2x2x1x2, .f32⟩
  | 27 => ⟨S802816x2x2x2, .f32⟩
  | 28 => ⟨S802816x2x2x1x2, .f32⟩
  | 29 => ⟨S802816x2x2x1x2, .f32⟩
  | 30 => ⟨S802816x2x2x2, .f32⟩
  | 31 => ⟨S802816x2x2x1x2, .f32⟩
  | 32 => ⟨S802816x2x2x1x2, .f32⟩
  | 33 => ⟨S802816x2x2x2x2, .f32⟩
  | 34 => ⟨S802816x1, .f32⟩
  | 35 => ⟨S802816, .f32⟩
  | 36 => ⟨S1x1, .f32⟩
  | 37 => ⟨S_, .f32⟩
  | 38 => ⟨S802816, .f32⟩
  | 39 => ⟨S802816, .f32⟩
  | 40 => ⟨S802816x2x2x2x2, .f32⟩
  | 41 => ⟨S_, .f32⟩
  | 42 => ⟨S802816, .f32⟩
  | 43 => ⟨S802816, .f32⟩
  | 44 => ⟨S802816, .f32⟩
  | 45 => ⟨S802816x1x1x1, .f32⟩
  | 46 => ⟨S802816, .f32⟩
  | 47 => ⟨S802816x1x1x1, .f32⟩
  | 48 => ⟨S802816x2x2x2x1, .f32⟩
  | 49 => ⟨S802816x2x2x2, .f32⟩
  | 50 => ⟨S802816x2x2x2x1, .f32⟩
  | 51 => ⟨S802816x2x2x2, .f32⟩
  | 52 => ⟨S802816x2x2x2, .f32⟩
  | 53 => ⟨S802816x2x2x2, .f32⟩
  | 54 => ⟨S802816x2x2x2, .f32⟩
  | 55 => ⟨S802816x2x2x2, .f32⟩
  | 56 => ⟨S802816x2x2x2, .f32⟩
  | 57 => ⟨S802816x2x2x2, .f32⟩
  | 58 => ⟨S802816x2x2x2, .f32⟩
  | 59 => ⟨S802816x2x2x2, .f32⟩
  | 60 => ⟨S802816x2x2x2, .f32⟩
  | 61 => ⟨S802816x2x2x2, .f32⟩
  | 62 => ⟨S802816x2x2x2x1, .f32⟩
  | 63 => ⟨S802816x2x2x2x1, .f32⟩
  | 64 => ⟨S802816x2x2x2x2, .f32⟩
  | 65 => ⟨S802816x2x2x2x2, .f32⟩
  | 66 => ⟨S802816x1, .f32⟩
  | 67 => ⟨S802816, .f32⟩
  | 68 => ⟨S1x1, .f32⟩
  | 69 => ⟨S_, .f32⟩
  | 70 => ⟨S802816, .f32⟩
  | 71 => ⟨S802816, .f32⟩
  | 72 => ⟨S802816x2x2x2x2, .f32⟩
  | 73 => ⟨S_, .f32⟩
  | 74 => ⟨S802816, .f32⟩
  | 75 => ⟨S802816, .f32⟩
  | 76 => ⟨S802816, .f32⟩
  | 77 => ⟨S802816x1x1x1, .f32⟩
  | 78 => ⟨S802816, .f32⟩
  | 79 => ⟨S802816x1x1x1, .f32⟩
  | 80 => ⟨S802816x2x2x2x1, .f32⟩
  | 81 => ⟨S802816x2x2x2, .f32⟩
  | 82 => ⟨S802816x2x2x2x1, .f32⟩
  | 83 => ⟨S802816x2x2x2, .f32⟩
  | 84 => ⟨S802816x2x2x2, .f32⟩
  | 85 => ⟨S802816x2x2x2, .f32⟩
  | 86 => ⟨S802816x2x2x2, .f32⟩
  | 87 => ⟨S802816x2x2x2, .f32⟩
  | 88 => ⟨S802816x2x2x2, .f32⟩
  | 89 => ⟨S802816x2x2x2, .f32⟩
  | 90 => ⟨S802816x2x2x2, .f32⟩
  | 91 => ⟨S802816x2x2x2, .f32⟩
  | 92 => ⟨S802816x2x2x2, .f32⟩
  | 93 => ⟨S802816x2x2x2, .f32⟩
  | 94 => ⟨S802816x2x2x2x1, .f32⟩
  | 95 => ⟨S802816x2x2x2x1, .f32⟩
  | 96 => ⟨S802816x2x2x2x2, .f32⟩
  | 97 => ⟨S802816x2x2x2x2, .f32⟩
  | 98 => ⟨S802816x1, .f32⟩
  | 99 => ⟨S802816, .f32⟩
  | 100 => ⟨S1x1, .f32⟩
  | 101 => ⟨S_, .f32⟩
  | 102 => ⟨S802816, .f32⟩
  | 103 => ⟨S802816, .f32⟩
  | 104 => ⟨S802816x2x2x2x2, .f32⟩
  | 105 => ⟨S_, .f32⟩
  | 106 => ⟨S802816, .f32⟩
  | 107 => ⟨S802816, .f32⟩
  | 108 => ⟨S802816, .f32⟩
  | 109 => ⟨S802816x1x1x1, .f32⟩
  | 110 => ⟨S802816, .f32⟩
  | 111 => ⟨S802816x1x1x1, .f32⟩
  | 112 => ⟨S802816x2x2x2x1, .f32⟩
  | 113 => ⟨S802816x2x2x2, .f32⟩
  | 114 => ⟨S802816x2x2x2x1, .f32⟩
  | 115 => ⟨S802816x2x2x2, .f32⟩
  | 116 => ⟨S802816x2x2x2, .f32⟩
  | 117 => ⟨S802816x2x2x2, .f32⟩
  | 118 => ⟨S802816x2x2x2, .f32⟩
  | 119 => ⟨S802816x2x2x2, .f32⟩
  | 120 => ⟨S802816x2x2x2, .f32⟩
  | 121 => ⟨S802816x2x2x2, .f32⟩
  | 122 => ⟨S802816x2x2x2, .f32⟩
  | 123 => ⟨S802816x2x2x2, .f32⟩
  | 124 => ⟨S802816x2x2x2, .f32⟩
  | 125 => ⟨S802816x2x2x2, .f32⟩
  | 126 => ⟨S802816x2x2x2x1, .f32⟩
  | 127 => ⟨S802816x2x2x2x1, .f32⟩
  | _ => ⟨S4096x1x28x28, .f32⟩

abbrev hbmTy0_2 (i : Nat) : BufTy := match i % 128 with
  | 0 => ⟨S802816x2x2x2x2, .f32⟩
  | 1 => ⟨S802816x2x2x2x2, .f32⟩
  | 2 => ⟨S802816x1, .f32⟩
  | 3 => ⟨S802816, .f32⟩
  | 4 => ⟨S1x1, .f32⟩
  | 5 => ⟨S_, .f32⟩
  | 6 => ⟨S802816, .f32⟩
  | 7 => ⟨S802816, .f32⟩
  | 8 => ⟨S_, .f32⟩
  | 9 => ⟨S802816, .f32⟩
  | 10 => ⟨S802816, .f32⟩
  | 11 => ⟨S802816, .f32⟩
  | 12 => ⟨S802816x1x1x1, .f32⟩
  | 13 => ⟨S802816, .f32⟩
  | 14 => ⟨S802816x1x1x1, .f32⟩
  | 15 => ⟨S802816x2x2x2x1, .f32⟩
  | 16 => ⟨S802816x2x2x2, .f32⟩
  | 17 => ⟨S802816x2x2x2x1, .f32⟩
  | 18 => ⟨S802816x2x2x2, .f32⟩
  | 19 => ⟨S802816x2x2x2, .f32⟩
  | 20 => ⟨S802816x2x2x2, .f32⟩
  | 21 => ⟨S802816x2x2x2, .f32⟩
  | 22 => ⟨S802816x2x2x2, .f32⟩
  | 23 => ⟨S802816x2x2x2, .f32⟩
  | 24 => ⟨S802816x2x2x2, .f32⟩
  | 25 => ⟨S802816x2x2x2, .f32⟩
  | 26 => ⟨S802816x2x2x2, .f32⟩
  | 27 => ⟨S802816x2x2x2, .f32⟩
  | 28 => ⟨S802816x2x2x2, .f32⟩
  | 29 => ⟨S802816x2x2x2x1, .f32⟩
  | 30 => ⟨S802816x2x2x2x1, .f32⟩
  | 31 => ⟨S802816x2x2x2x2, .f32⟩
  | 32 => ⟨S802816x1x2x2x2, .f32⟩
  | 33 => ⟨S802816x2x2x2, .f32⟩
  | 34 => ⟨S802816x1x2x2x2, .f32⟩
  | 35 => ⟨S802816x1x2x2x2, .f32⟩
  | 36 => ⟨S802816x2x2x2, .f32⟩
  | 37 => ⟨S802816x1x2x2x2, .f32⟩
  | 38 => ⟨S802816x1x2x2x2, .f32⟩
  | 39 => ⟨S802816x2x2x2x2, .f32⟩
  | 40 => ⟨S802816x2x2x1x2, .f32⟩
  | 41 => ⟨S802816x2x2x2, .f32⟩
  | 42 => ⟨S802816x2x2x1x2, .f32⟩
  | 43 => ⟨S802816x2x2x1x2, .f32⟩
  | 44 => ⟨S802816x2x2x2, .f32⟩
  | 45 => ⟨S802816x2x2x1x2, .f32⟩
  | 46 => ⟨S802816x2x2x1x2, .f32⟩
  | 47 => ⟨S802816x2x2x2x2, .f32⟩
  | 48 => ⟨S802816x1, .f32⟩
  | 49 => ⟨S802816, .f32⟩
  | 50 => ⟨S1x1, .f32⟩
  | 51 => ⟨S_, .f32⟩
  | 52 => ⟨S802816, .f32⟩
  | 53 => ⟨S802816, .f32⟩
  | 54 => ⟨S802816x2x2x2x2, .f32⟩
  | 55 => ⟨S_, .f32⟩
  | 56 => ⟨S802816, .f32⟩
  | 57 => ⟨S802816, .f32⟩
  | 58 => ⟨S802816, .f32⟩
  | 59 => ⟨S802816x1x1x1, .f32⟩
  | 60 => ⟨S802816, .f32⟩
  | 61 => ⟨S802816x1x1x1, .f32⟩
  | 62 => ⟨S802816x2x2x2x1, .f32⟩
  | 63 => ⟨S802816x2x2x2, .f32⟩
  | 64 => ⟨S802816x2x2x2x1, .f32⟩
  | 65 => ⟨S802816x2x2x2, .f32⟩
  | 66 => ⟨S802816x2x2x2, .f32⟩
  | 67 => ⟨S802816x2x2x2, .f32⟩
  | 68 => ⟨S802816x2x2x2, .f32⟩
  | 69 => ⟨S802816x2x2x2, .f32⟩
  | 70 => ⟨S802816x2x2x2, .f32⟩
  | 71 => ⟨S802816x2x2x2, .f32⟩
  | 72 => ⟨S802816x2x2x2, .f32⟩
  | 73 => ⟨S802816x2x2x2, .f32⟩
  | 74 => ⟨S802816x2x2x2, .f32⟩
  | 75 => ⟨S802816x2x2x2, .f32⟩
  | 76 => ⟨S802816x2x2x2x1, .f32⟩
  | 77 => ⟨S802816x2x2x2x1, .f32⟩
  | 78 => ⟨S802816x2x2x2x2, .f32⟩
  | 79 => ⟨S802816x2x2x2x2, .f32⟩
  | 80 => ⟨S802816x1, .f32⟩
  | 81 => ⟨S802816, .f32⟩
  | 82 => ⟨S1x1, .f32⟩
  | 83 => ⟨S_, .f32⟩
  | 84 => ⟨S802816, .f32⟩
  | 85 => ⟨S802816, .f32⟩
  | 86 => ⟨S802816x2x2x2x2, .f32⟩
  | 87 => ⟨S_, .f32⟩
  | 88 => ⟨S802816, .f32⟩
  | 89 => ⟨S802816, .f32⟩
  | 90 => ⟨S802816, .f32⟩
  | 91 => ⟨S802816x1x1x1, .f32⟩
  | 92 => ⟨S802816, .f32⟩
  | 93 => ⟨S802816x1x1x1, .f32⟩
  | 94 => ⟨S802816x2x2x2x1, .f32⟩
  | 95 => ⟨S802816x2x2x2, .f32⟩
  | 96 => ⟨S802816x2x2x2x1, .f32⟩
  | 97 => ⟨S802816x2x2x2, .f32⟩
  | 98 => ⟨S802816x2x2x2, .f32⟩
  | 99 => ⟨S802816x2x2x2, .f32⟩
  | 100 => ⟨S802816x2x2x2, .f32⟩
  | 101 => ⟨S802816x2x2x2, .f32⟩
  | 102 => ⟨S802816x2x2x2, .f32⟩
  | 103 => ⟨S802816x2x2x2, .f32⟩
  | 104 => ⟨S802816x2x2x2, .f32⟩
  | 105 => ⟨S802816x2x2x2, .f32⟩
  | 106 => ⟨S802816x2x2x2, .f32⟩
  | 107 => ⟨S802816x2x2x2, .f32⟩
  | 108 => ⟨S802816x2x2x2x1, .f32⟩
  | 109 => ⟨S802816x2x2x2x1, .f32⟩
  | 110 => ⟨S802816x2x2x2x2, .f32⟩
  | 111 => ⟨S802816x2x2x2x2, .f32⟩
  | 112 => ⟨S802816x1, .f32⟩
  | 113 => ⟨S802816, .f32⟩
  | 114 => ⟨S1x1, .f32⟩
  | 115 => ⟨S_, .f32⟩
  | 116 => ⟨S802816, .f32⟩
  | 117 => ⟨S802816, .f32⟩
  | 118 => ⟨S802816x2x2x2x2, .f32⟩
  | 119 => ⟨S_, .f32⟩
  | 120 => ⟨S802816, .f32⟩
  | 121 => ⟨S802816, .f32⟩
  | 122 => ⟨S802816, .f32⟩
  | 123 => ⟨S802816x1x1x1, .f32⟩
  | 124 => ⟨S802816, .f32⟩
  | 125 => ⟨S802816x1x1x1, .f32⟩
  | 126 => ⟨S802816x2x2x2x1, .f32⟩
  | 127 => ⟨S802816x2x2x2, .f32⟩
  | _ => ⟨S4096x1x28x28, .f32⟩

abbrev hbmTy0_3 (i : Nat) : BufTy := match i % 128 with
  | 0 => ⟨S802816x2x2x2x1, .f32⟩
  | 1 => ⟨S802816x2x2x2, .f32⟩
  | 2 => ⟨S802816x2x2x2, .f32⟩
  | 3 => ⟨S802816x2x2x2, .f32⟩
  | 4 => ⟨S802816x2x2x2, .f32⟩
  | 5 => ⟨S802816x2x2x2, .f32⟩
  | 6 => ⟨S802816x2x2x2, .f32⟩
  | 7 => ⟨S802816x2x2x2, .f32⟩
  | 8 => ⟨S802816x2x2x2, .f32⟩
  | 9 => ⟨S802816x2x2x2, .f32⟩
  | 10 => ⟨S802816x2x2x2, .f32⟩
  | 11 => ⟨S802816x2x2x2, .f32⟩
  | 12 => ⟨S802816x2x2x2x1, .f32⟩
  | 13 => ⟨S802816x2x2x2x1, .f32⟩
  | 14 => ⟨S802816x2x2x2x2, .f32⟩
  | 15 => ⟨S802816x2x2x2x2, .f32⟩
  | 16 => ⟨S802816x1, .f32⟩
  | 17 => ⟨S802816, .f32⟩
  | 18 => ⟨S1x1, .f32⟩
  | 19 => ⟨S_, .f32⟩
  | 20 => ⟨S802816, .f32⟩
  | 21 => ⟨S802816, .f32⟩
  | 22 => ⟨S_, .f32⟩
  | 23 => ⟨S802816, .f32⟩
  | 24 => ⟨S802816, .f32⟩
  | 25 => ⟨S802816, .f32⟩
  | 26 => ⟨S802816x1x1x1, .f32⟩
  | 27 => ⟨S802816, .f32⟩
  | 28 => ⟨S802816x1x1x1, .f32⟩
  | 29 => ⟨S802816x2x2x2x1, .f32⟩
  | 30 => ⟨S802816x2x2x2, .f32⟩
  | 31 => ⟨S802816x2x2x2x1, .f32⟩
  | 32 => ⟨S802816x2x2x2, .f32⟩
  | 33 => ⟨S802816x2x2x2, .f32⟩
  | 34 => ⟨S802816x2x2x2, .f32⟩
  | 35 => ⟨S802816x2x2x2, .f32⟩
  | 36 => ⟨S802816x2x2x2, .f32⟩
  | 37 => ⟨S802816x2x2x2, .f32⟩
  | 38 => ⟨S802816x2x2x2, .f32⟩
  | 39 => ⟨S802816x2x2x2, .f32⟩
  | 40 => ⟨S802816x2x2x2, .f32⟩
  | 41 => ⟨S802816x2x2x2, .f32⟩
  | 42 => ⟨S802816x2x2x2, .f32⟩
  | 43 => ⟨S802816x2x2x2x1, .f32⟩
  | 44 => ⟨S802816x2x2x2x1, .f32⟩
  | 45 => ⟨S802816x2x2x2x2, .f32⟩
  | 46 => ⟨S802816x1x2x2x2, .f32⟩
  | 47 => ⟨S802816x2x2x2, .f32⟩
  | 48 => ⟨S802816x1x2x2x2, .f32⟩
  | 49 => ⟨S802816x1x2x2x2, .f32⟩
  | 50 => ⟨S802816x2x2x2, .f32⟩
  | 51 => ⟨S802816x1x2x2x2, .f32⟩
  | 52 => ⟨S802816x1x2x2x2, .f32⟩
  | 53 => ⟨S802816x2x2x2x2, .f32⟩
  | 54 => ⟨S802816x2x2x1x2, .f32⟩
  | 55 => ⟨S802816x2x2x2, .f32⟩
  | 56 => ⟨S802816x2x2x1x2, .f32⟩
  | 57 => ⟨S802816x2x2x1x2, .f32⟩
  | 58 => ⟨S802816x2x2x2, .f32⟩
  | 59 => ⟨S802816x2x2x1x2, .f32⟩
  | 60 => ⟨S802816x2x2x1x2, .f32⟩
  | 61 => ⟨S802816x2x2x2x2, .f32⟩
  | 62 => ⟨S802816x2x2x2x2, .f32⟩
  | 63 => ⟨S802816x1x2x2x2, .f32⟩
  | 64 => ⟨S802816x2x2x2, .f32⟩
  | 65 => ⟨S802816x1x2x2x2, .f32⟩
  | 66 => ⟨S802816x2x2x2, .f32⟩
  | 67 => ⟨S802816x2x2x2, .f32⟩
  | 68 => ⟨S_, .f32⟩
  | 69 => ⟨S802816, .f32⟩
  | 70 => ⟨S802816x2x1x2x2, .f32⟩
  | 71 => ⟨S802816x2x2x2, .f32⟩
  | 72 => ⟨S802816x2x1x2x2, .f32⟩
  | 73 => ⟨S802816x2x2x2, .f32⟩
  | 74 => ⟨S802816x2x2x2, .f32⟩
  | 75 => ⟨S_, .f32⟩
  | 76 => ⟨S802816, .f32⟩
  | 77 => ⟨S802816x2x2x1x2, .f32⟩
  | 78 => ⟨S802816x2x2x2, .f32⟩
  | 79 => ⟨S802816x2x2x1x2, .f32⟩
  | 80 => ⟨S802816x2x2x2, .f32⟩
  | 81 => ⟨S802816x2x2x2, .f32⟩
  | 82 => ⟨S_, .f32⟩
  | 83 => ⟨S802816, .f32⟩
  | 84 => ⟨S802816x2x2x2x1, .f32⟩
  | 85 => ⟨S802816x2x2x2, .f32⟩
  | 86 => ⟨S802816x2x2x2x1, .f32⟩
  | 87 => ⟨S802816x2x2x2, .f32⟩
  | 88 => ⟨S802816x2x2x2, .f32⟩
  | 89 => ⟨S_, .f32⟩
  | 90 => ⟨S802816, .f32⟩
  | 91 => ⟨S802816x1, .f32⟩
  | 92 => ⟨S802816x1, .f32⟩
  | 93 => ⟨S802816x1, .f32⟩
  | 94 => ⟨S802816x1, .f32⟩
  | 95 => ⟨S802816x4, .f32⟩
  | 96 => ⟨S802816x4, .f32⟩
  | 97 => ⟨S4096x784, .f32⟩
  | _ => ⟨S4096x1x28x28, .f32⟩

abbrev hbmTy (i : Nat) : BufTy := match i / 128 with
  | 0 => hbmTy0_0 i
  | 1 => hbmTy0_1 i
  | 2 => hbmTy0_2 i
  | 3 => hbmTy0_3 i
  | _ => ⟨S4096x1x28x28, .f32⟩

abbrev bufTy : (tb : Table) → Fin (tcTables nBuf tb) → BufTy
  | .hbm, ⟨i, _⟩ => hbmTy i
  | _, _ => ⟨S4096x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_cst_7 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_cst_8 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_cst_9 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_cst_10 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_cst_11 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_v285 : Ref sig .tc := ⟨.hbm, 301, rfl⟩
abbrev main_v286 : Ref sig .tc := ⟨.hbm, 302, rfl⟩
abbrev main_v287 : Ref sig .tc := ⟨.hbm, 303, rfl⟩
abbrev main_v288 : Ref sig .tc := ⟨.hbm, 304, rfl⟩
abbrev main_v289 : Ref sig .tc := ⟨.hbm, 305, rfl⟩
abbrev main_v290 : Ref sig .tc := ⟨.hbm, 306, rfl⟩
abbrev main_v291 : Ref sig .tc := ⟨.hbm, 307, rfl⟩
abbrev main_v292 : Ref sig .tc := ⟨.hbm, 308, rfl⟩
abbrev main_v293 : Ref sig .tc := ⟨.hbm, 309, rfl⟩
abbrev main_v294 : Ref sig .tc := ⟨.hbm, 310, rfl⟩
abbrev main_cst_12 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_v298 : Ref sig .tc := ⟨.hbm, 315, rfl⟩
abbrev main_v299 : Ref sig .tc := ⟨.hbm, 316, rfl⟩
abbrev main_v300 : Ref sig .tc := ⟨.hbm, 317, rfl⟩
abbrev main_v301 : Ref sig .tc := ⟨.hbm, 318, rfl⟩
abbrev main_v302 : Ref sig .tc := ⟨.hbm, 319, rfl⟩
abbrev main_v303 : Ref sig .tc := ⟨.hbm, 320, rfl⟩
abbrev main_v304 : Ref sig .tc := ⟨.hbm, 321, rfl⟩
abbrev main_v305 : Ref sig .tc := ⟨.hbm, 322, rfl⟩
abbrev main_v306 : Ref sig .tc := ⟨.hbm, 323, rfl⟩
abbrev main_v307 : Ref sig .tc := ⟨.hbm, 324, rfl⟩
abbrev main_v308 : Ref sig .tc := ⟨.hbm, 325, rfl⟩
abbrev main_v309 : Ref sig .tc := ⟨.hbm, 326, rfl⟩
abbrev main_v310 : Ref sig .tc := ⟨.hbm, 327, rfl⟩
abbrev main_v311 : Ref sig .tc := ⟨.hbm, 328, rfl⟩
abbrev main_v312 : Ref sig .tc := ⟨.hbm, 329, rfl⟩
abbrev main_v313 : Ref sig .tc := ⟨.hbm, 330, rfl⟩
abbrev main_v314 : Ref sig .tc := ⟨.hbm, 331, rfl⟩
abbrev main_v315 : Ref sig .tc := ⟨.hbm, 332, rfl⟩
abbrev main_v316 : Ref sig .tc := ⟨.hbm, 333, rfl⟩
abbrev main_v317 : Ref sig .tc := ⟨.hbm, 334, rfl⟩
abbrev main_v318 : Ref sig .tc := ⟨.hbm, 335, rfl⟩
abbrev main_v319 : Ref sig .tc := ⟨.hbm, 336, rfl⟩
abbrev main_v320 : Ref sig .tc := ⟨.hbm, 337, rfl⟩
abbrev main_v321 : Ref sig .tc := ⟨.hbm, 338, rfl⟩
abbrev main_v322 : Ref sig .tc := ⟨.hbm, 339, rfl⟩
abbrev main_v323 : Ref sig .tc := ⟨.hbm, 340, rfl⟩
abbrev main_v324 : Ref sig .tc := ⟨.hbm, 341, rfl⟩
abbrev main_v325 : Ref sig .tc := ⟨.hbm, 342, rfl⟩
abbrev main_cst_13 : Ref sig .tc := ⟨.hbm, 343, rfl⟩
abbrev main_v326 : Ref sig .tc := ⟨.hbm, 344, rfl⟩
abbrev main_v327 : Ref sig .tc := ⟨.hbm, 345, rfl⟩
abbrev main_v328 : Ref sig .tc := ⟨.hbm, 346, rfl⟩
abbrev main_v329 : Ref sig .tc := ⟨.hbm, 347, rfl⟩
abbrev main_v330 : Ref sig .tc := ⟨.hbm, 348, rfl⟩
abbrev main_v331 : Ref sig .tc := ⟨.hbm, 349, rfl⟩
abbrev main_v332 : Ref sig .tc := ⟨.hbm, 350, rfl⟩
abbrev main_v333 : Ref sig .tc := ⟨.hbm, 351, rfl⟩
abbrev main_v334 : Ref sig .tc := ⟨.hbm, 352, rfl⟩
abbrev main_v335 : Ref sig .tc := ⟨.hbm, 353, rfl⟩
abbrev main_v336 : Ref sig .tc := ⟨.hbm, 354, rfl⟩
abbrev main_v337 : Ref sig .tc := ⟨.hbm, 355, rfl⟩
abbrev main_v338 : Ref sig .tc := ⟨.hbm, 356, rfl⟩
abbrev main_v339 : Ref sig .tc := ⟨.hbm, 357, rfl⟩
abbrev main_v340 : Ref sig .tc := ⟨.hbm, 358, rfl⟩
abbrev main_v341 : Ref sig .tc := ⟨.hbm, 359, rfl⟩
abbrev main_v342 : Ref sig .tc := ⟨.hbm, 360, rfl⟩
abbrev main_v343 : Ref sig .tc := ⟨.hbm, 361, rfl⟩
abbrev main_v344 : Ref sig .tc := ⟨.hbm, 362, rfl⟩
abbrev main_v345 : Ref sig .tc := ⟨.hbm, 363, rfl⟩
abbrev main_v346 : Ref sig .tc := ⟨.hbm, 364, rfl⟩
abbrev main_v347 : Ref sig .tc := ⟨.hbm, 365, rfl⟩
abbrev main_v348 : Ref sig .tc := ⟨.hbm, 366, rfl⟩
abbrev main_v349 : Ref sig .tc := ⟨.hbm, 367, rfl⟩
abbrev main_v350 : Ref sig .tc := ⟨.hbm, 368, rfl⟩
abbrev main_v351 : Ref sig .tc := ⟨.hbm, 369, rfl⟩
abbrev main_v352 : Ref sig .tc := ⟨.hbm, 370, rfl⟩
abbrev main_v353 : Ref sig .tc := ⟨.hbm, 371, rfl⟩
abbrev main_v354 : Ref sig .tc := ⟨.hbm, 372, rfl⟩
abbrev main_v355 : Ref sig .tc := ⟨.hbm, 373, rfl⟩
abbrev main_v356 : Ref sig .tc := ⟨.hbm, 374, rfl⟩
abbrev main_cst_14 : Ref sig .tc := ⟨.hbm, 375, rfl⟩
abbrev main_v357 : Ref sig .tc := ⟨.hbm, 376, rfl⟩
abbrev main_v358 : Ref sig .tc := ⟨.hbm, 377, rfl⟩
abbrev main_v359 : Ref sig .tc := ⟨.hbm, 378, rfl⟩
abbrev main_v360 : Ref sig .tc := ⟨.hbm, 379, rfl⟩
abbrev main_v361 : Ref sig .tc := ⟨.hbm, 380, rfl⟩
abbrev main_v362 : Ref sig .tc := ⟨.hbm, 381, rfl⟩
abbrev main_v363 : Ref sig .tc := ⟨.hbm, 382, rfl⟩
abbrev main_v364 : Ref sig .tc := ⟨.hbm, 383, rfl⟩
abbrev main_v365 : Ref sig .tc := ⟨.hbm, 384, rfl⟩
abbrev main_v366 : Ref sig .tc := ⟨.hbm, 385, rfl⟩
abbrev main_v367 : Ref sig .tc := ⟨.hbm, 386, rfl⟩
abbrev main_v368 : Ref sig .tc := ⟨.hbm, 387, rfl⟩
abbrev main_v369 : Ref sig .tc := ⟨.hbm, 388, rfl⟩
abbrev main_v370 : Ref sig .tc := ⟨.hbm, 389, rfl⟩
abbrev main_v371 : Ref sig .tc := ⟨.hbm, 390, rfl⟩
abbrev main_v372 : Ref sig .tc := ⟨.hbm, 391, rfl⟩
abbrev main_v373 : Ref sig .tc := ⟨.hbm, 392, rfl⟩
abbrev main_v374 : Ref sig .tc := ⟨.hbm, 393, rfl⟩
abbrev main_v375 : Ref sig .tc := ⟨.hbm, 394, rfl⟩
abbrev main_v376 : Ref sig .tc := ⟨.hbm, 395, rfl⟩
abbrev main_v377 : Ref sig .tc := ⟨.hbm, 396, rfl⟩
abbrev main_v378 : Ref sig .tc := ⟨.hbm, 397, rfl⟩
abbrev main_v379 : Ref sig .tc := ⟨.hbm, 398, rfl⟩
abbrev main_v380 : Ref sig .tc := ⟨.hbm, 399, rfl⟩
abbrev main_v381 : Ref sig .tc := ⟨.hbm, 400, rfl⟩
abbrev main_v382 : Ref sig .tc := ⟨.hbm, 401, rfl⟩
abbrev main_v383 : Ref sig .tc := ⟨.hbm, 402, rfl⟩
abbrev main_v384 : Ref sig .tc := ⟨.hbm, 403, rfl⟩
abbrev main_v385 : Ref sig .tc := ⟨.hbm, 404, rfl⟩
abbrev main_v386 : Ref sig .tc := ⟨.hbm, 405, rfl⟩
abbrev main_cst_15 : Ref sig .tc := ⟨.hbm, 406, rfl⟩
abbrev main_v387 : Ref sig .tc := ⟨.hbm, 407, rfl⟩
abbrev main_v388 : Ref sig .tc := ⟨.hbm, 408, rfl⟩
abbrev main_v389 : Ref sig .tc := ⟨.hbm, 409, rfl⟩
abbrev main_v390 : Ref sig .tc := ⟨.hbm, 410, rfl⟩
abbrev main_v391 : Ref sig .tc := ⟨.hbm, 411, rfl⟩
abbrev main_v392 : Ref sig .tc := ⟨.hbm, 412, rfl⟩
abbrev main_v393 : Ref sig .tc := ⟨.hbm, 413, rfl⟩
abbrev main_v394 : Ref sig .tc := ⟨.hbm, 414, rfl⟩
abbrev main_v395 : Ref sig .tc := ⟨.hbm, 415, rfl⟩
abbrev main_v396 : Ref sig .tc := ⟨.hbm, 416, rfl⟩
abbrev main_v397 : Ref sig .tc := ⟨.hbm, 417, rfl⟩
abbrev main_v398 : Ref sig .tc := ⟨.hbm, 418, rfl⟩
abbrev main_v399 : Ref sig .tc := ⟨.hbm, 419, rfl⟩
abbrev main_v400 : Ref sig .tc := ⟨.hbm, 420, rfl⟩
abbrev main_v401 : Ref sig .tc := ⟨.hbm, 421, rfl⟩
abbrev main_v402 : Ref sig .tc := ⟨.hbm, 422, rfl⟩
abbrev main_v403 : Ref sig .tc := ⟨.hbm, 423, rfl⟩
abbrev main_v404 : Ref sig .tc := ⟨.hbm, 424, rfl⟩
abbrev main_v405 : Ref sig .tc := ⟨.hbm, 425, rfl⟩
abbrev main_v406 : Ref sig .tc := ⟨.hbm, 426, rfl⟩
abbrev main_v407 : Ref sig .tc := ⟨.hbm, 427, rfl⟩
abbrev main_v408 : Ref sig .tc := ⟨.hbm, 428, rfl⟩
abbrev main_v409 : Ref sig .tc := ⟨.hbm, 429, rfl⟩
abbrev main_v410 : Ref sig .tc := ⟨.hbm, 430, rfl⟩
abbrev main_v411 : Ref sig .tc := ⟨.hbm, 431, rfl⟩
abbrev main_v412 : Ref sig .tc := ⟨.hbm, 432, rfl⟩
abbrev main_v413 : Ref sig .tc := ⟨.hbm, 433, rfl⟩
abbrev main_v414 : Ref sig .tc := ⟨.hbm, 434, rfl⟩
abbrev main_v415 : Ref sig .tc := ⟨.hbm, 435, rfl⟩
abbrev main_v416 : Ref sig .tc := ⟨.hbm, 436, rfl⟩
abbrev main_v417 : Ref sig .tc := ⟨.hbm, 437, rfl⟩
abbrev main_v418 : Ref sig .tc := ⟨.hbm, 438, rfl⟩
abbrev main_v419 : Ref sig .tc := ⟨.hbm, 439, rfl⟩
abbrev main_v420 : Ref sig .tc := ⟨.hbm, 440, rfl⟩
abbrev main_v421 : Ref sig .tc := ⟨.hbm, 441, rfl⟩
abbrev main_v422 : Ref sig .tc := ⟨.hbm, 442, rfl⟩
abbrev main_v423 : Ref sig .tc := ⟨.hbm, 443, rfl⟩
abbrev main_v424 : Ref sig .tc := ⟨.hbm, 444, rfl⟩
abbrev main_v425 : Ref sig .tc := ⟨.hbm, 445, rfl⟩
abbrev main_v426 : Ref sig .tc := ⟨.hbm, 446, rfl⟩
abbrev main_v427 : Ref sig .tc := ⟨.hbm, 447, rfl⟩
abbrev main_v428 : Ref sig .tc := ⟨.hbm, 448, rfl⟩
abbrev main_v429 : Ref sig .tc := ⟨.hbm, 449, rfl⟩
abbrev main_v430 : Ref sig .tc := ⟨.hbm, 450, rfl⟩
abbrev main_v431 : Ref sig .tc := ⟨.hbm, 451, rfl⟩
abbrev main_cst_16 : Ref sig .tc := ⟨.hbm, 452, rfl⟩
abbrev main_v432 : Ref sig .tc := ⟨.hbm, 453, rfl⟩
abbrev main_v433 : Ref sig .tc := ⟨.hbm, 454, rfl⟩
abbrev main_v434 : Ref sig .tc := ⟨.hbm, 455, rfl⟩
abbrev main_v435 : Ref sig .tc := ⟨.hbm, 456, rfl⟩
abbrev main_v436 : Ref sig .tc := ⟨.hbm, 457, rfl⟩
abbrev main_v437 : Ref sig .tc := ⟨.hbm, 458, rfl⟩
abbrev main_cst_17 : Ref sig .tc := ⟨.hbm, 459, rfl⟩
abbrev main_v438 : Ref sig .tc := ⟨.hbm, 460, rfl⟩
abbrev main_v439 : Ref sig .tc := ⟨.hbm, 461, rfl⟩
abbrev main_v440 : Ref sig .tc := ⟨.hbm, 462, rfl⟩
abbrev main_v441 : Ref sig .tc := ⟨.hbm, 463, rfl⟩
abbrev main_v442 : Ref sig .tc := ⟨.hbm, 464, rfl⟩
abbrev main_v443 : Ref sig .tc := ⟨.hbm, 465, rfl⟩
abbrev main_cst_18 : Ref sig .tc := ⟨.hbm, 466, rfl⟩
abbrev main_v444 : Ref sig .tc := ⟨.hbm, 467, rfl⟩
abbrev main_v445 : Ref sig .tc := ⟨.hbm, 468, rfl⟩
abbrev main_v446 : Ref sig .tc := ⟨.hbm, 469, rfl⟩
abbrev main_v447 : Ref sig .tc := ⟨.hbm, 470, rfl⟩
abbrev main_v448 : Ref sig .tc := ⟨.hbm, 471, rfl⟩
abbrev main_v449 : Ref sig .tc := ⟨.hbm, 472, rfl⟩
abbrev main_cst_19 : Ref sig .tc := ⟨.hbm, 473, rfl⟩
abbrev main_v450 : Ref sig .tc := ⟨.hbm, 474, rfl⟩
abbrev main_v451 : Ref sig .tc := ⟨.hbm, 475, rfl⟩
abbrev main_v452 : Ref sig .tc := ⟨.hbm, 476, rfl⟩
abbrev main_v453 : Ref sig .tc := ⟨.hbm, 477, rfl⟩
abbrev main_v454 : Ref sig .tc := ⟨.hbm, 478, rfl⟩
abbrev main_v455 : Ref sig .tc := ⟨.hbm, 479, rfl⟩
abbrev main_v456 : Ref sig .tc := ⟨.hbm, 480, rfl⟩
abbrev main_v457 : Ref sig .tc := ⟨.hbm, 481, rfl⟩

abbrev nD : Nat := 1
abbrev τ : Topo := Topo.v7x

variable {F : FTy → Type} [FloatOps F]

class Facts₀ : Prop where
  shapeCasts_S4096x1x28x28_S4096x28x28 : S4096x1x28x28.ShapeCasts S4096x28x28
  shapeCasts_S4096x28x28_S4096x14x2x14x2 : S4096x28x28.ShapeCasts S4096x14x2x14x2
  transposes_S4096x14x2x14x2_S4096x14x14x2x2_0_1_3_2_4 : S4096x14x2x14x2.Transposes [0, 1, 3, 2, 4] S4096x14x14x2x2
  shapeCasts_S4096x14x14x2x2_S802816x4 : S4096x14x14x2x2.ShapeCasts S802816x4
  bcast_S_S802816x2x2x2x2 : S_.BroadcastsInDim S802816x2x2x2x2 (![] : Fin 0 → Fin S802816x2x2x2x2.rank)
  bcast_S_S1 : S_.BroadcastsInDim S1 (![] : Fin 0 → Fin S1.rank)
  concatenates_S1_S1_S1_S1_S4_d0 : Shape.Concatenates [S1, S1, S1, S1] S4 0
  bcast_S_S802816 : S_.BroadcastsInDim S802816 (![] : Fin 0 → Fin S802816.rank)
  slices_S802816x4_S802816x1_0_0 : S802816x4.Slices ![0, 0] S802816x1
  shapeCasts_S802816x1_S802816 : S802816x1.ShapeCasts S802816
  slices_S3x4_S1x1_0_0 : S3x4.Slices ![0, 0] S1x1
  shapeCasts_S1x1_S_ : S1x1.ShapeCasts S_
  transposes_S802816x2x2x2x2_S802816x2x2x2x2_0_2_3_4_1 : S802816x2x2x2x2.Transposes [0, 2, 3, 4, 1] S802816x2x2x2x2
  bcast_S802816_S802816x1x1x1_0 : S802816.BroadcastsInDim S802816x1x1x1 (![0] : Fin 1 → Fin S802816x1x1x1.rank)
  slices_S802816x2x2x2x2_S802816x2x2x2x1_0_0_0_0_0 : S802816x2x2x2x2.Slices ![0, 0, 0, 0, 0] S802816x2x2x2x1
  shapeCasts_S802816x2x2x2x1_S802816x2x2x2 : S802816x2x2x2x1.ShapeCasts S802816x2x2x2
  slices_S802816x2x2x2x2_S802816x2x2x2x1_0_0_0_0_1 : S802816x2x2x2x2.Slices ![0, 0, 0, 0, 1] S802816x2x2x2x1
  bcast_S802816x1x1x1_S802816x2x2x2_0_1_2_3 : S802816x1x1x1.BroadcastsInDim S802816x2x2x2 (![0, 1, 2, 3] : Fin 4 → Fin S802816x2x2x2.rank)
  bcast_S802816x2x2x2_S802816x2x2x2x1_0_1_2_3 : S802816x2x2x2.BroadcastsInDim S802816x2x2x2x1 (![0, 1, 2, 3] : Fin 4 → Fin S802816x2x2x2x1.rank)
  concatenates_S802816x2x2x2x1_S802816x2x2x2x1_S802816x2x2x2x2_d4 : Shape.Concatenates [S802816x2x2x2x1, S802816x2x2x2x1] S802816x2x2x2x2 4
  transposes_S802816x2x2x2x2_S802816x2x2x2x2_0_4_1_2_3 : S802816x2x2x2x2.Transposes [0, 4, 1, 2, 3] S802816x2x2x2x2
  slices_S802816x4_S802816x1_0_1 : S802816x4.Slices ![0, 1] S802816x1
  slices_S3x4_S1x1_0_1 : S3x4.Slices ![0, 1] S1x1
  transposes_S802816x2x2x2x2_S802816x2x2x2x2_0_1_3_4_2 : S802816x2x2x2x2.Transposes [0, 1, 3, 4, 2] S802816x2x2x2x2
  transposes_S802816x2x2x2x2_S802816x2x2x2x2_0_1_4_2_3 : S802816x2x2x2x2.Transposes [0, 1, 4, 2, 3] S802816x2x2x2x2
  slices_S802816x4_S802816x1_0_2 : S802816x4.Slices ![0, 2] S802816x1
  slices_S3x4_S1x1_0_2 : S3x4.Slices ![0, 2] S1x1
  transposes_S802816x2x2x2x2_S802816x2x2x2x2_0_1_2_4_3 : S802816x2x2x2x2.Transposes [0, 1, 2, 4, 3] S802816x2x2x2x2
  slices_S802816x4_S802816x1_0_3 : S802816x4.Slices ![0, 3] S802816x1
  slices_S3x4_S1x1_0_3 : S3x4.Slices ![0, 3] S1x1
  slices_S802816x2x2x2x2_S802816x1x2x2x2_0_0_0_0_0 : S802816x2x2x2x2.Slices ![0, 0, 0, 0, 0] S802816x1x2x2x2
  shapeCasts_S802816x1x2x2x2_S802816x2x2x2 : S802816x1x2x2x2.ShapeCasts S802816x2x2x2
  slices_S802816x2x2x2x2_S802816x1x2x2x2_0_1_0_0_0 : S802816x2x2x2x2.Slices ![0, 1, 0, 0, 0] S802816x1x2x2x2
  bcast_S802816x2x2x2_S802816x1x2x2x2_0_2_3_4 : S802816x2x2x2.BroadcastsInDim S802816x1x2x2x2 (![0, 2, 3, 4] : Fin 4 → Fin S802816x1x2x2x2.rank)
  concatenates_S802816x1x2x2x2_S802816x1x2x2x2_S802816x2x2x2x2_d1 : Shape.Concatenates [S802816x1x2x2x2, S802816x1x2x2x2] S802816x2x2x2x2 1
  slices_S802816x2x2x2x2_S802816x2x2x1x2_0_0_0_0_0 : S802816x2x2x2x2.Slices ![0, 0, 0, 0, 0] S802816x2x2x1x2
  shapeCasts_S802816x2x2x1x2_S802816x2x2x2 : S802816x2x2x1x2.ShapeCasts S802816x2x2x2
  slices_S802816x2x2x2x2_S802816x2x2x1x2_0_0_0_1_0 : S802816x2x2x2x2.Slices ![0, 0, 0, 1, 0] S802816x2x2x1x2
  bcast_S802816x2x2x2_S802816x2x2x1x2_0_1_2_4 : S802816x2x2x2.BroadcastsInDim S802816x2x2x1x2 (![0, 1, 2, 4] : Fin 4 → Fin S802816x2x2x1x2.rank)
  concatenates_S802816x2x2x1x2_S802816x2x2x1x2_S802816x2x2x2x2_d3 : Shape.Concatenates [S802816x2x2x1x2, S802816x2x2x1x2] S802816x2x2x2x2 3
  slices_S3x4_S1x1_1_0 : S3x4.Slices ![1, 0] S1x1
  slices_S3x4_S1x1_1_1 : S3x4.Slices ![1, 1] S1x1
  slices_S3x4_S1x1_1_2 : S3x4.Slices ![1, 2] S1x1
  slices_S3x4_S1x1_1_3 : S3x4.Slices ![1, 3] S1x1
  slices_S3x4_S1x1_2_0 : S3x4.Slices ![2, 0] S1x1
  slices_S3x4_S1x1_2_1 : S3x4.Slices ![2, 1] S1x1
  slices_S3x4_S1x1_2_2 : S3x4.Slices ![2, 2] S1x1
  slices_S3x4_S1x1_2_3 : S3x4.Slices ![2, 3] S1x1
  reducesTo_S802816x2x2x2_S802816_d1_2_3 : S802816x2x2x2.ReducesTo [1, 2, 3] S802816
  h_S_ : 0 < S_.numel
  slices_S802816x2x2x2x2_S802816x2x1x2x2_0_0_0_0_0 : S802816x2x2x2x2.Slices ![0, 0, 0, 0, 0] S802816x2x1x2x2
  shapeCasts_S802816x2x1x2x2_S802816x2x2x2 : S802816x2x1x2x2.ShapeCasts S802816x2x2x2
  slices_S802816x2x2x2x2_S802816x2x1x2x2_0_0_1_0_0 : S802816x2x2x2x2.Slices ![0, 0, 1, 0, 0] S802816x2x1x2x2
  bcast_S802816_S802816x1_0 : S802816.BroadcastsInDim S802816x1 (![0] : Fin 1 → Fin S802816x1.rank)
  concatenates_S802816x1_S802816x1_S802816x1_S802816x1_S802816x4_d1 : Shape.Concatenates [S802816x1, S802816x1, S802816x1, S802816x1] S802816x4 1
  shapeCasts_S802816x4_S4096x784 : S802816x4.ShapeCasts S4096x784
  scatter_S802816x2x2x2x2_S4_S802816_0_1234_1234_0_wf : ScatterDims.WF S802816x2x2x2x2 S4 S802816 [0] [1, 2, 3, 4] [1, 2, 3, 4] 0

variable [Facts₀]

def scatter_S802816x2x2x2x2_S4_S802816_0_1234_1234_0 : ScatterDims S802816x2x2x2x2 S4 S802816 where
  updateWindowDims := [0]
  insertedWindowDims := [1, 2, 3, 4]
  scatterDimsToOperandDims := [1, 2, 3, 4]
  indexVectorDim := 0
  wf := scatter_S802816x2x2x2x2_S4_S802816_0_1234_1234_0_wf

class Facts : Prop extends Facts₀ where

variable [Facts]
-- ==== Proof.Circuit.lean ====
/-
  The four-qubit circuit both programs simulate, written once over an abstract carrier.

  A state is sixteen amplitudes indexed by four bits (wire 0 first).  A rotation about Y on one wire
  mixes the two amplitudes that differ in that wire's bit:  (x0, x1) ↦ (c·x0 − s·x1, s·x0 + c·x1);
  a controlled NOT permutes amplitudes.  One layer is the four rotations (wire 0 to wire 3) followed
  by CNOT(0→1) and CNOT(2→3).  The observable on wire w is the sum of the squared amplitudes whose
  bit w is clear minus the sum of those whose bit w is set.

  The carrier's operations are parameters, so that the same text is read on vectors (one entry per
  sample) and on extended reals (one sample), and reading a vector state at a sample commutes with
  every step.
-/
import Mathlib.Data.EReal.Basic
import Mathlib.Algebra.BigOperators.Fin
import Mathlib.Tactic

noncomputable section

namespace Cert.Circuit

/-- The three binary operations a rotation uses. -/
structure Ops (α : Type) where
  mul : α → α → α
  sub : α → α → α
  add : α → α → α

/-- Sixteen amplitudes, indexed by the bits of wires 0, 1, 2, 3. -/
abbrev Amp (α : Type) := Bool → Bool → Bool → Bool → α

variable {α β : Type}

/-- The two components of a plane rotation of the pair (x0, x1). -/
def rot (o : Ops α) (c s x0 x1 : α) : Bool → α
  | false => o.sub (o.mul c x0) (o.mul s x1)
  | true => o.add (o.mul s x0) (o.mul c x1)

def ry0 (o : Ops α) (c s : α) (A : Amp α) : Amp α := fun a b d e => rot o c s (A false b d e) (A true b d e) a
def ry1 (o : Ops α) (c s : α) (A : Amp α) : Amp α := fun a b d e => rot o c s (A a false d e) (A a true d e) b
def ry2 (o : Ops α) (c s : α) (A : Amp α) : Amp α := fun a b d e => rot o c s (A a b false e) (A a b true e) d
def ry3 (o : Ops α) (c s : α) (A : Amp α) : Amp α := fun a b d e => rot o c s (A a b d false) (A a b d true) e

/-- CNOT with control wire 0 and target wire 1: where bit 0 is set, bit 1 is flipped. -/
def cnot01 (A : Amp α) : Amp α := fun a b d e => A a (xor a b) d e
/-- CNOT with control wire 2 and target wire 3. -/
def cnot23 (A : Amp α) : Amp α := fun a b d e => A a b d (xor d e)

/-- One layer: the four rotations, then the two controlled NOTs. -/
def layer (o : Ops α) (c0 s0 c1 s1 c2 s2 c3 s3 : α) (A : Amp α) : Amp α :=
  cnot23 (cnot01 (ry3 o c3 s3 (ry2 o c2 s2 (ry1 o c1 s1 (ry0 o c0 s0 A)))))

/-- The state |0000⟩. -/
def init (zero one : α) : Amp α := fun a b d e => cond (a || b || d || e) zero one

/-- Eight terms added left to right, in lexicographic order of three bits. -/
def sum8 (o : Ops α) (f : Bool → Bool → Bool → α) : α :=
  o.add (o.add (o.add (o.add (o.add (o.add (o.add (f false false false) (f false false true)) (f false true false))
    (f false true true)) (f true false false)) (f true false true)) (f true true false)) (f true true true)

def sq (o : Ops α) (x : α) : α := o.mul x x

/-- The observable on each wire: squares with the wire's bit clear, summed, minus those with it set, summed. -/
def z0 (o : Ops α) (A : Amp α) : α := o.sub (sum8 o fun b d e => sq o (A false b d e)) (sum8 o fun b d e => sq o (A true b d e))
def z1 (o : Ops α) (A : Amp α) : α := o.sub (sum8 o fun a d e => sq o (A a false d e)) (sum8 o fun a d e => sq o (A a true d e))
def z2 (o : Ops α) (A : Amp α) : α := o.sub (sum8 o fun a b e => sq o (A a b false e)) (sum8 o fun a b e => sq o (A a b true e))
def z3 (o : Ops α) (A : Amp α) : α := o.sub (sum8 o fun a b d => sq o (A a b d false)) (sum8 o fun a b d => sq o (A a b d true))

/-! ## Reading a state of vectors at one sample -/

/-- A map between carriers that commutes with the three operations. -/
structure Hom (o : Ops α) (o' : Ops β) (ev : α → β) : Prop where
  mul : ∀ x y, ev (o.mul x y) = o'.mul (ev x) (ev y)
  sub : ∀ x y, ev (o.sub x y) = o'.sub (ev x) (ev y)
  add : ∀ x y, ev (o.add x y) = o'.add (ev x) (ev y)

/-- The state read through `ev`, amplitude by amplitude. -/
def mapAmp (ev : α → β) (A : Amp α) : Amp β := fun a b d e => ev (A a b d e)

variable {o : Ops α} {o' : Ops β} {ev : α → β}

theorem Hom.rot (h : Hom o o' ev) (c s x0 x1 : α) (k : Bool) :
    ev (rot o c s x0 x1 k) = rot o' (ev c) (ev s) (ev x0) (ev x1) k := by
  cases k <;> simp only [Circuit.rot, h.mul, h.sub, h.add]

theorem Hom.ry0 (h : Hom o o' ev) (c s : α) (A : Amp α) : mapAmp ev (ry0 o c s A) = ry0 o' (ev c) (ev s) (mapAmp ev A) := by
  funext a b d e; exact h.rot _ _ _ _ _
theorem Hom.ry1 (h : Hom o o' ev) (c s : α) (A : Amp α) : mapAmp ev (ry1 o c s A) = ry1 o' (ev c) (ev s) (mapAmp ev A) := by
  funext a b d e; exact h.rot _ _ _ _ _
theorem Hom.ry2 (h : Hom o o' ev) (c s : α) (A : Amp α) : mapAmp ev (ry2 o c s A) = ry2 o' (ev c) (ev s) (mapAmp ev A) := by
  funext a b d e; exact h.rot _ _ _ _ _
theorem Hom.ry3 (h : Hom o o' ev) (c s : α) (A : Amp α) : mapAmp ev (ry3 o c s A) = ry3 o' (ev c) (ev s) (mapAmp ev A) := by
  funext a b d e; exact h.rot _ _ _ _ _

theorem mapAmp_cnot01 (A : Amp α) : mapAmp ev (cnot01 A) = cnot01 (mapAmp ev A) := rfl
theorem mapAmp_cnot23 (A : Amp α) : mapAmp ev (cnot23 A) = cnot23 (mapAmp ev A) := rfl

theorem Hom.layer (h : Hom o o' ev) (c0 s0 c1 s1 c2 s2 c3 s3 : α) (A : Amp α) :
    mapAmp ev (layer o c0 s0 c1 s1 c2 s2 c3 s3 A)
      = layer o' (ev c0) (ev s0) (ev c1) (ev s1) (ev c2) (ev s2) (ev c3) (ev s3) (mapAmp ev A) := by
  unfold Circuit.layer
  rw [mapAmp_cnot23, mapAmp_cnot01, h.ry3, h.ry2, h.ry1, h.ry0]

theorem mapAmp_init (zero one : α) : mapAmp ev (init zero one) = init (ev zero) (ev one) := by
  funext a b d e; cases a <;> cases b <;> cases d <;> cases e <;> rfl

theorem Hom.sum8 (h : Hom o o' ev) (f : Bool → Bool → Bool → α) : ev (sum8 o f) = sum8 o' fun a b d => ev (f a b d) := by
  simp only [Circuit.sum8, h.add]

theorem Hom.sq (h : Hom o o' ev) (x : α) : ev (sq o x) = sq o' (ev x) := h.mul x x

theorem Hom.z0 (h : Hom o o' ev) (A : Amp α) : ev (z0 o A) = z0 o' (mapAmp ev A) := by
  simp only [Circuit.z0, h.sub, h.sum8, h.sq, mapAmp]
theorem Hom.z1 (h : Hom o o' ev) (A : Amp α) : ev (z1 o A) = z1 o' (mapAmp ev A) := by
  simp only [Circuit.z1, h.sub, h.sum8, h.sq, mapAmp]
theorem Hom.z2 (h : Hom o o' ev) (A : Amp α) : ev (z2 o A) = z2 o' (mapAmp ev A) := by
  simp only [Circuit.z2, h.sub, h.sum8, h.sq, mapAmp]
theorem Hom.z3 (h : Hom o o' ev) (A : Amp α) : ev (z3 o A) = z3 o' (mapAmp ev A) := by
  simp only [Circuit.z3, h.sub, h.sum8, h.sq, mapAmp]

/-! ## On the extended reals -/

/-- The extended reals' own operations. -/
def eOps : Ops EReal := ⟨(· * ·), (· - ·), (· + ·)⟩

/-- A square of an extended real is never negative (an infinity squares to +∞). -/
theorem sq_nonneg' (x : EReal) : 0 ≤ x * x := by
  induction x using EReal.rec with
  | bot => simp [EReal.bot_mul_bot]
  | top => simp [EReal.top_mul_top]
  | coe r => rw [← EReal.coe_mul]; exact_mod_cast mul_self_nonneg r

/-- Negation distributes over a sum of two terms neither of which is −∞. -/
theorem neg_add_of_nonneg {x y : EReal} (hx : 0 ≤ x) (hy : 0 ≤ y) : -(x + y) = -x + -y := by
  have hx' : x ≠ ⊥ := ne_of_gt (lt_of_lt_of_le EReal.bot_lt_zero hx)
  have hy' : y ≠ ⊥ := ne_of_gt (lt_of_lt_of_le EReal.bot_lt_zero hy)
  rw [EReal.neg_add (Or.inl hx') (Or.inr hy'), sub_eq_add_neg]

/-- Subtracting a sum of eight non-negative terms from a sum of eight terms, term by term: the difference
    of the sums is the sum of the differences (addition of extended reals is commutative and associative;
    negation distributes because no subtracted term is −∞). -/
theorem sub_sum8 (f g : Bool → Bool → Bool → EReal) (hg : ∀ a b d, 0 ≤ g a b d) :
    sum8 eOps f - sum8 eOps g
      = (f false false false - g false false false) + (f false false true - g false false true)
        + (f false true false - g false true false) + (f false true true - g false true true)
        + (f true false false - g true false false) + (f true false true - g true false true)
        + (f true true false - g true true false) + (f true true true - g true true true) := by
  simp only [sum8, eOps, sub_eq_add_neg]
  have h1 := hg false false false; have h2 := hg false false true; have h3 := hg false true false
  have h4 := hg false true true; have h5 := hg true false false; have h6 := hg true false true
  have h7 := hg true true false; have h8 := hg true true true
  rw [neg_add_of_nonneg (by positivity) h8, neg_add_of_nonneg (by positivity) h7, neg_add_of_nonneg (by positivity) h6,
    neg_add_of_nonneg (by positivity) h5, neg_add_of_nonneg (by positivity) h4, neg_add_of_nonneg (by positivity) h3,
    neg_add_of_nonneg h1 h2]
  ac_rfl

end Cert.Circuit

end
-- ==== Proof.Circuit16.lean ====
/-
  The sixteen amplitudes as a record of sixteen fields (field i = 8·bit0 + 4·bit1 + 2·bit2 + bit3), with the
  circuit's steps written field by field.  It is the circuit of Circuit.lean in a form whose every amplitude
  is a field of a named record: `toAmp` reads a record as the function of four bits, and each step commutes with it.
-/
import proofs.«106929_j65481071405125_1_alg».proof.Proof.Circuit

noncomputable section

namespace Cert.Circuit

variable {α : Type}

/-- Sixteen amplitudes. -/
structure St (α : Type) where
  s0 : α
  s1 : α
  s2 : α
  s3 : α
  s4 : α
  s5 : α
  s6 : α
  s7 : α
  s8 : α
  s9 : α
  s10 : α
  s11 : α
  s12 : α
  s13 : α
  s14 : α
  s15 : α

/-- The first and second components of a plane rotation. -/
def rotm (o : Ops α) (c s x0 x1 : α) : α := o.sub (o.mul c x0) (o.mul s x1)
def rotp (o : Ops α) (c s x0 x1 : α) : α := o.add (o.mul s x0) (o.mul c x1)

def ry0S (o : Ops α) (c s : α) (S : St α) : St α :=
  ⟨rotm o c s S.s0 S.s8,
   rotm o c s S.s1 S.s9,
   rotm o c s S.s2 S.s10,
   rotm o c s S.s3 S.s11,
   rotm o c s S.s4 S.s12,
   rotm o c s S.s5 S.s13,
   rotm o c s S.s6 S.s14,
   rotm o c s S.s7 S.s15,
   rotp o c s S.s0 S.s8,
   rotp o c s S.s1 S.s9,
   rotp o c s S.s2 S.s10,
   rotp o c s S.s3 S.s11,
   rotp o c s S.s4 S.s12,
   rotp o c s S.s5 S.s13,
   rotp o c s S.s6 S.s14,
   rotp o c s S.s7 S.s15⟩

def ry1S (o : Ops α) (c s : α) (S : St α) : St α :=
  ⟨rotm o c s S.s0 S.s4,
   rotm o c s S.s1 S.s5,
   rotm o c s S.s2 S.s6,
   rotm o c s S.s3 S.s7,
   rotp o c s S.s0 S.s4,
   rotp o c s S.s1 S.s5,
   rotp o c s S.s2 S.s6,
   rotp o c s S.s3 S.s7,
   rotm o c s S.s8 S.s12,
   rotm o c s S.s9 S.s13,
   rotm o c s S.s10 S.s14,
   rotm o c s S.s11 S.s15,
   rotp o c s S.s8 S.s12,
   rotp o c s S.s9 S.s13,
   rotp o c s S.s10 S.s14,
   rotp o c s S.s11 S.s15⟩

def ry2S (o : Ops α) (c s : α) (S : St α) : St α :=
  ⟨rotm o c s S.s0 S.s2,
   rotm o c s S.s1 S.s3,
   rotp o c s S.s0 S.s2,
   rotp o c s S.s1 S.s3,
   rotm o c s S.s4 S.s6,
   rotm o c s S.s5 S.s7,
   rotp o c s S.s4 S.s6,
   rotp o c s S.s5 S.s7,
   rotm o c s S.s8 S.s10,
   rotm o c s S.s9 S.s11,
   rotp o c s S.s8 S.s10,
   rotp o c s S.s9 S.s11,
   rotm o c s S.s12 S.s14,
   rotm o c s S.s13 S.s15,
   rotp o c s S.s12 S.s14,
   rotp o c s S.s13 S.s15⟩

def ry3S (o : Ops α) (c s : α) (S : St α) : St α :=
  ⟨rotm o c s S.s0 S.s1,
   rotp o c s S.s0 S.s1,
   rotm o c s S.s2 S.s3,
   rotp o c s S.s2 S.s3,
   rotm o c s S.s4 S.s5,
   rotp o c s S.s4 S.s5,
   rotm o c s S.s6 S.s7,
   rotp o c s S.s6 S.s7,
   rotm o c s S.s8 S.s9,
   rotp o c s S.s8 S.s9,
   rotm o c s S.s10 S.s11,
   rotp o c s S.s10 S.s11,
   rotm o c s S.s12 S.s13,
   rotp o c s S.s12 S.s13,
   rotm o c s S.s14 S.s15,
   rotp o c s S.s14 S.s15⟩

def cnot01S (S : St α) : St α :=
  ⟨S.s0, S.s1, S.s2, S.s3, S.s4, S.s5, S.s6, S.s7, S.s12, S.s13, S.s14, S.s15, S.s8, S.s9, S.s10, S.s11⟩

def cnot23S (S : St α) : St α :=
  ⟨S.s0, S.s1, S.s3, S.s2, S.s4, S.s5, S.s7, S.s6, S.s8, S.s9, S.s11, S.s10, S.s12, S.s13, S.s15, S.s14⟩

/-- The state |0000⟩. -/
def initS (zero one : α) : St α := ⟨one, zero, zero, zero, zero, zero, zero, zero, zero, zero, zero, zero, zero, zero, zero, zero⟩

def z0S (o : Ops α) (S : St α) : α :=
  o.sub (o.add (o.add (o.add (o.add (o.add (o.add (o.add (sq o S.s0) (sq o S.s1)) (sq o S.s2)) (sq o S.s3)) (sq o S.s4)) (sq o S.s5)) (sq o S.s6)) (sq o S.s7))
    (o.add (o.add (o.add (o.add (o.add (o.add (o.add (sq o S.s8) (sq o S.s9)) (sq o S.s10)) (sq o S.s11)) (sq o S.s12)) (sq o S.s13)) (sq o S.s14)) (sq o S.s15))

def z1S (o : Ops α) (S : St α) : α :=
  o.sub (o.add (o.add (o.add (o.add (o.add (o.add (o.add (sq o S.s0) (sq o S.s1)) (sq o S.s2)) (sq o S.s3)) (sq o S.s8)) (sq o S.s9)) (sq o S.s10)) (sq o S.s11))
    (o.add (o.add (o.add (o.add (o.add (o.add (o.add (sq o S.s4) (sq o S.s5)) (sq o S.s6)) (sq o S.s7)) (sq o S.s12)) (sq o S.s13)) (sq o S.s14)) (sq o S.s15))

def z2S (o : Ops α) (S : St α) : α :=
  o.sub (o.add (o.add (o.add (o.add (o.add (o.add (o.add (sq o S.s0) (sq o S.s1)) (sq o S.s4)) (sq o S.s5)) (sq o S.s8)) (sq o S.s9)) (sq o S.s12)) (sq o S.s13))
    (o.add (o.add (o.add (o.add (o.add (o.add (o.add (sq o S.s2) (sq o S.s3)) (sq o S.s6)) (sq o S.s7)) (sq o S.s10)) (sq o S.s11)) (sq o S.s14)) (sq o S.s15))

def z3S (o : Ops α) (S : St α) : α :=
  o.sub (o.add (o.add (o.add (o.add (o.add (o.add (o.add (sq o S.s0) (sq o S.s2)) (sq o S.s4)) (sq o S.s6)) (sq o S.s8)) (sq o S.s10)) (sq o S.s12)) (sq o S.s14))
    (o.add (o.add (o.add (o.add (o.add (o.add (o.add (sq o S.s1) (sq o S.s3)) (sq o S.s5)) (sq o S.s7)) (sq o S.s9)) (sq o S.s11)) (sq o S.s13)) (sq o S.s15))

/-- A record as the function of the four bits. -/
def toAmp (S : St α) : Amp α := fun a b d e => (cond a (cond b (cond d (cond e S.s15 S.s14) (cond e S.s13 S.s12)) (cond d (cond e S.s11 S.s10) (cond e S.s9 S.s8))) (cond b (cond d (cond e S.s7 S.s6) (cond e S.s5 S.s4)) (cond d (cond e S.s3 S.s2) (cond e S.s1 S.s0))))

theorem toAmp_ry0S (o : Ops α) (c s : α) (S : St α) : toAmp (ry0S o c s S) = ry0 o c s (toAmp S) := by
  funext a b d e; cases a <;> cases b <;> cases d <;> cases e <;> rfl
theorem toAmp_ry1S (o : Ops α) (c s : α) (S : St α) : toAmp (ry1S o c s S) = ry1 o c s (toAmp S) := by
  funext a b d e; cases a <;> cases b <;> cases d <;> cases e <;> rfl
theorem toAmp_ry2S (o : Ops α) (c s : α) (S : St α) : toAmp (ry2S o c s S) = ry2 o c s (toAmp S) := by
  funext a b d e; cases a <;> cases b <;> cases d <;> cases e <;> rfl
theorem toAmp_ry3S (o : Ops α) (c s : α) (S : St α) : toAmp (ry3S o c s S) = ry3 o c s (toAmp S) := by
  funext a b d e; cases a <;> cases b <;> cases d <;> cases e <;> rfl
theorem toAmp_cnot01S (S : St α) : toAmp (cnot01S S) = cnot01 (toAmp S) := by
  funext a b d e; cases a <;> cases b <;> cases d <;> cases e <;> rfl
theorem toAmp_cnot23S (S : St α) : toAmp (cnot23S S) = cnot23 (toAmp S) := by
  funext a b d e; cases a <;> cases b <;> cases d <;> cases e <;> rfl
theorem toAmp_initS (zero one : α) : toAmp (initS zero one) = init zero one := by
  funext a b d e; cases a <;> cases b <;> cases d <;> cases e <;> rfl

theorem z0S_eq (o : Ops α) (S : St α) : z0S o S = z0 o (toAmp S) := rfl
theorem z1S_eq (o : Ops α) (S : St α) : z1S o S = z1 o (toAmp S) := rfl
theorem z2S_eq (o : Ops α) (S : St α) : z2S o S = z2 o (toAmp S) := rfl
theorem z3S_eq (o : Ops α) (S : St α) : z3S o S = z3 o (toAmp S) := rfl

/-- One layer on records. -/
def layerS (o : Ops α) (c0 s0 c1 s1 c2 s2 c3 s3 : α) (S : St α) : St α :=
  cnot23S (cnot01S (ry3S o c3 s3 (ry2S o c2 s2 (ry1S o c1 s1 (ry0S o c0 s0 S)))))

theorem toAmp_layerS (o : Ops α) (c0 s0 c1 s1 c2 s2 c3 s3 : α) (S : St α) :
    toAmp (layerS o c0 s0 c1 s1 c2 s2 c3 s3 S) = layer o c0 s0 c1 s1 c2 s2 c3 s3 (toAmp S) := by
  unfold layerS layer
  rw [toAmp_cnot23S, toAmp_cnot01S, toAmp_ry3S, toAmp_ry2S, toAmp_ry1S, toAmp_ry0S]

end Cert.Circuit

end
-- ==== Proof.KernelCircuitI.lean ====
/-
  The kernel body as the circuit on vectors.

  The body works on one block of 57344 samples at a time: row w of the input block holds feature w of every
  sample, and every operation of the body is a vector operation over the samples.  So the body is the circuit
  of Circuit.lean read on vectors: sixteen amplitude vectors, rotated and permuted layer by layer, squared and
  summed into the four observables, which are stacked, added to the input block and transposed.
-/
import proofs.«106929_j65481071405125_1_alg».proof.Proof.Gen.KernelIdeal.Skeleton
import proofs.«106929_j65481071405125_1_alg».proof.Proof.Circuit16

set_option maxRecDepth 16384

noncomputable section

namespace Cert.KernelIdeal.Body

open Cert.KernelIdeal Cert.KernelIdeal.Gen Idealize.ShloMosaic Cert.Circuit

variable {F : FTy → Type} [FloatOps F]

/-- The vector unit's three operations on vectors over the block's samples. -/
def vOps : Ops (FVec F S57344 .f32) := ⟨mulf, subf, addf⟩

/-- Half the product of a feature row and weight (l, k), sample by sample. -/
def thetaV (row : FVec F S57344 .f32) (W : Vec F S3x4 .f32) (l k : Nat) (hW : S3x4.Slices ![l, k] S1x1) : FVec F S57344 .f32 :=
  mulf (broadcast S57344 (Scalar.ofBits .f32 0x3F000000#32))
    (mulf row (broadcast S57344 (extractAt ![0, 0] (extractStridedSlice S1x1 ![l, k] W hW) inpos_S1x1_p0_0)))

/-- Layer `l` on the sixteen amplitude vectors. -/
def layerV (W : Vec F S3x4 .f32) (l : Nat) (h0 : S3x4.Slices ![l, 0] S1x1) (h1 : S3x4.Slices ![l, 1] S1x1)
    (h2 : S3x4.Slices ![l, 2] S1x1) (h3 : S3x4.Slices ![l, 3] S1x1) (r0 r1 r2 r3 : FVec F S57344 .f32)
    (A : Amp (FVec F S57344 .f32)) : Amp (FVec F S57344 .f32) :=
  layer vOps (cos (thetaV r0 W l 0 h0)) (sin (thetaV r0 W l 0 h0)) (cos (thetaV r1 W l 1 h1)) (sin (thetaV r1 W l 1 h1))
    (cos (thetaV r2 W l 2 h2)) (sin (thetaV r2 W l 2 h2)) (cos (thetaV r3 W l 3 h3)) (sin (thetaV r3 W l 3 h3)) A

/-- The amplitude vectors after the three layers, from the input block and the weights. -/
def stateV (L0 : Vec F S4x57344 .f32) (W : Vec F S3x4 .f32) : Amp (FVec F S57344 .f32) :=
  layerV W 2 slices_S3x4_o2_0_S1x1 slices_S3x4_o2_1_S1x1 slices_S3x4_o2_2_S1x1 slices_S3x4_o2_3_S1x1 (k0_pay3 L0) (k0_pay4 L0) (k0_pay5 L0) (k0_pay6 L0)
    (layerV W 1 slices_S3x4_o1_0_S1x1 slices_S3x4_o1_1_S1x1 slices_S3x4_o1_2_S1x1 slices_S3x4_o1_3_S1x1 (k0_pay3 L0) (k0_pay4 L0) (k0_pay5 L0) (k0_pay6 L0)
      (layerV W 0 slices_S3x4_o0_0_S1x1 slices_S3x4_o0_1_S1x1 slices_S3x4_o0_2_S1x1 slices_S3x4_o0_3_S1x1 (k0_pay3 L0) (k0_pay4 L0) (k0_pay5 L0) (k0_pay6 L0)
        (init (broadcast S57344 (Scalar.ofBits .f32 0x00000000#32)) (broadcast S57344 (Scalar.ofBits .f32 0x3F800000#32)))))

/-- What the body stores: the four observables stacked, plus the input block, transposed. -/
def finalV (L0 : Vec F S4x57344 .f32) (W : Vec F S3x4 .f32) : FVec F S57344x4 .f32 :=
  k0_pay1 (k0_pay2 L0) (z0 vOps (stateV L0 W)) (z1 vOps (stateV L0 W)) (z2 vOps (stateV L0 W)) (z3 vOps (stateV L0 W))

/-! ## The same, every intermediate state a named record

Each state of the circuit on vectors is named, so that an amplitude vector is a field of a named record. -/

def S00 (L0 : Vec F S4x57344 .f32) (W : Vec F S3x4 .f32) : St (FVec F S57344 .f32) :=
  initS (broadcast S57344 (Scalar.ofBits .f32 0x00000000#32)) (broadcast S57344 (Scalar.ofBits .f32 0x3F800000#32))

def Sa1 (L0 : Vec F S4x57344 .f32) (W : Vec F S3x4 .f32) : St (FVec F S57344 .f32) := ry0S vOps (cos (thetaV (k0_pay3 L0) W 0 0 slices_S3x4_o0_0_S1x1)) (sin (thetaV (k0_pay3 L0) W 0 0 slices_S3x4_o0_0_S1x1)) (S00 L0 W)
def Sa2 (L0 : Vec F S4x57344 .f32) (W : Vec F S3x4 .f32) : St (FVec F S57344 .f32) := ry1S vOps (cos (thetaV (k0_pay4 L0) W 0 1 slices_S3x4_o0_1_S1x1)) (sin (thetaV (k0_pay4 L0) W 0 1 slices_S3x4_o0_1_S1x1)) (Sa1 L0 W)
def Sa3 (L0 : Vec F S4x57344 .f32) (W : Vec F S3x4 .f32) : St (FVec F S57344 .f32) := ry2S vOps (cos (thetaV (k0_pay5 L0) W 0 2 slices_S3x4_o0_2_S1x1)) (sin (thetaV (k0_pay5 L0) W 0 2 slices_S3x4_o0_2_S1x1)) (Sa2 L0 W)
def Sa4 (L0 : Vec F S4x57344 .f32) (W : Vec F S3x4 .f32) : St (FVec F S57344 .f32) := ry3S vOps (cos (thetaV (k0_pay6 L0) W 0 3 slices_S3x4_o0_3_S1x1)) (sin (thetaV (k0_pay6 L0) W 0 3 slices_S3x4_o0_3_S1x1)) (Sa3 L0 W)
def Sa5 (L0 : Vec F S4x57344 .f32) (W : Vec F S3x4 .f32) : St (FVec F S57344 .f32) := cnot01S (Sa4 L0 W)
def Sa6 (L0 : Vec F S4x57344 .f32) (W : Vec F S3x4 .f32) : St (FVec F S57344 .f32) := cnot23S (Sa5 L0 W)
theorem toAmp_Sa6 (L0 : Vec F S4x57344 .f32) (W : Vec F S3x4 .f32) :
    toAmp (Sa6 L0 W) = layerV W 0 slices_S3x4_o0_0_S1x1 slices_S3x4_o0_1_S1x1 slices_S3x4_o0_2_S1x1 slices_S3x4_o0_3_S1x1 (k0_pay3 L0) (k0_pay4 L0) (k0_pay5 L0) (k0_pay6 L0) (toAmp (S00 L0 W)) := by
  unfold Sa6 Sa5 Sa4 Sa3 Sa2 Sa1 layerV layer
  rw [toAmp_cnot23S, toAmp_cnot01S, toAmp_ry3S, toAmp_ry2S, toAmp_ry1S, toAmp_ry0S]

def Sb1 (L0 : Vec F S4x57344 .f32) (W : Vec F S3x4 .f32) : St (FVec F S57344 .f32) := ry0S vOps (cos (thetaV (k0_pay3 L0) W 1 0 slices_S3x4_o1_0_S1x1)) (sin (thetaV (k0_pay3 L0) W 1 0 slices_S3x4_o1_0_S1x1)) (Sa6 L0 W)
def Sb2 (L0 : Vec F S4x57344 .f32) (W : Vec F S3x4 .f32) : St (FVec F S57344 .f32) := ry1S vOps (cos (thetaV (k0_pay4 L0) W 1 1 slices_S3x4_o1_1_S1x1)) (sin (thetaV (k0_pay4 L0) W 1 1 slices_S3x4_o1_1_S1x1)) (Sb1 L0 W)
def Sb3 (L0 : Vec F S4x57344 .f32) (W : Vec F S3x4 .f32) : St (FVec F S57344 .f32) := ry2S vOps (cos (thetaV (k0_pay5 L0) W 1 2 slices_S3x4_o1_2_S1x1)) (sin (thetaV (k0_pay5 L0) W 1 2 slices_S3x4_o1_2_S1x1)) (Sb2 L0 W)
def Sb4 (L0 : Vec F S4x57344 .f32) (W : Vec F S3x4 .f32) : St (FVec F S57344 .f32) := ry3S vOps (cos (thetaV (k0_pay6 L0) W 1 3 slices_S3x4_o1_3_S1x1)) (sin (thetaV (k0_pay6 L0) W 1 3 slices_S3x4_o1_3_S1x1)) (Sb3 L0 W)
def Sb5 (L0 : Vec F S4x57344 .f32) (W : Vec F S3x4 .f32) : St (FVec F S57344 .f32) := cnot01S (Sb4 L0 W)
def Sb6 (L0 : Vec F S4x57344 .f32) (W : Vec F S3x4 .f32) : St (FVec F S57344 .f32) := cnot23S (Sb5 L0 W)
theorem toAmp_Sb6 (L0 : Vec F S4x57344 .f32) (W : Vec F S3x4 .f32) :
    toAmp (Sb6 L0 W) = layerV W 1 slices_S3x4_o1_0_S1x1 slices_S3x4_o1_1_S1x1 slices_S3x4_o1_2_S1x1 slices_S3x4_o1_3_S1x1 (k0_pay3 L0) (k0_pay4 L0) (k0_pay5 L0) (k0_pay6 L0) (toAmp (Sa6 L0 W)) := by
  unfold Sb6 Sb5 Sb4 Sb3 Sb2 Sb1 layerV layer
  rw [toAmp_cnot23S, toAmp_cnot01S, toAmp_ry3S, toAmp_ry2S, toAmp_ry1S, toAmp_ry0S]

def Sc1 (L0 : Vec F S4x57344 .f32) (W : Vec F S3x4 .f32) : St (FVec F S57344 .f32) := ry0S vOps (cos (thetaV (k0_pay3 L0) W 2 0 slices_S3x4_o2_0_S1x1)) (sin (thetaV (k0_pay3 L0) W 2 0 slices_S3x4_o2_0_S1x1)) (Sb6 L0 W)
def Sc2 (L0 : Vec F S4x57344 .f32) (W : Vec F S3x4 .f32) : St (FVec F S57344 .f32) := ry1S vOps (cos (thetaV (k0_pay4 L0) W 2 1 slices_S3x4_o2_1_S1x1)) (sin (thetaV (k0_pay4 L0) W 2 1 slices_S3x4_o2_1_S1x1)) (Sc1 L0 W)
def Sc3 (L0 : Vec F S4x57344 .f32) (W : Vec F S3x4 .f32) : St (FVec F S57344 .f32) := ry2S vOps (cos (thetaV (k0_pay5 L0) W 2 2 slices_S3x4_o2_2_S1x1)) (sin (thetaV (k0_pay5 L0) W 2 2 slices_S3x4_o2_2_S1x1)) (Sc2 L0 W)
def Sc4 (L0 : Vec F S4x57344 .f32) (W : Vec F S3x4 .f32) : St (FVec F S57344 .f32) := ry3S vOps (cos (thetaV (k0_pay6 L0) W 2 3 slices_S3x4_o2_3_S1x1)) (sin (thetaV (k0_pay6 L0) W 2 3 slices_S3x4_o2_3_S1x1)) (Sc3 L0 W)
def Sc5 (L0 : Vec F S4x57344 .f32) (W : Vec F S3x4 .f32) : St (FVec F S57344 .f32) := cnot01S (Sc4 L0 W)
def Sc6 (L0 : Vec F S4x57344 .f32) (W : Vec F S3x4 .f32) : St (FVec F S57344 .f32) := cnot23S (Sc5 L0 W)
theorem toAmp_Sc6 (L0 : Vec F S4x57344 .f32) (W : Vec F S3x4 .f32) :
    toAmp (Sc6 L0 W) = layerV W 2 slices_S3x4_o2_0_S1x1 slices_S3x4_o2_1_S1x1 slices_S3x4_o2_2_S1x1 slices_S3x4_o2_3_S1x1 (k0_pay3 L0) (k0_pay4 L0) (k0_pay5 L0) (k0_pay6 L0) (toAmp (Sb6 L0 W)) := by
  unfold Sc6 Sc5 Sc4 Sc3 Sc2 Sc1 layerV layer
  rw [toAmp_cnot23S, toAmp_cnot01S, toAmp_ry3S, toAmp_ry2S, toAmp_ry1S, toAmp_ry0S]

/-- What the body stores, over the named states. -/
def finalS (L0 : Vec F S4x57344 .f32) (W : Vec F S3x4 .f32) : FVec F S57344x4 .f32 :=
  k0_pay1 (k0_pay2 L0) (z0S vOps (Sc6 L0 W)) (z1S vOps (Sc6 L0 W)) (z2S vOps (Sc6 L0 W)) (z3S vOps (Sc6 L0 W))

/-- The named states are the circuit's. -/
theorem toAmp_Sc6_eq (L0 : Vec F S4x57344 .f32) (W : Vec F S3x4 .f32) : toAmp (Sc6 L0 W) = stateV L0 W := by
  rw [toAmp_Sc6, toAmp_Sb6, toAmp_Sa6]
  unfold S00 stateV
  rw [toAmp_initS]

theorem finalS_eq (L0 : Vec F S4x57344 .f32) (W : Vec F S3x4 .f32) : finalS L0 W = finalV L0 W := by
  unfold finalS finalV
  rw [z0S_eq, z1S_eq, z2S_eq, z3S_eq, toAmp_Sc6_eq]

end Cert.KernelIdeal.Body

end
-- ==== Proof.KernelChain.lean ====
/-
  The body's stored value with every repeated subterm named once, as a function of the two loaded blocks, and the
  statement that it is the circuit on vectors over named states: each payload of the printed body unfolds to the
  rotation component, the square or the sum it is.
-/
import proofs.«106929_j65481071405125_1_alg».proof.Proof.KernelCircuitI

set_option maxRecDepth 1000000

noncomputable section

namespace Cert.KernelIdeal.Body

open Cert.KernelIdeal Cert.KernelIdeal.Gen Idealize.ShloMosaic Cert.Circuit

variable {F : FTy → Type} [FloatOps F]

/-- The stored value from the loaded input block `e0` and the loaded weights `e2`. -/
def outChain (e0 : Vec F S4x57344 .f32) (e2 : Vec F S3x4 .f32) : FVec F S57344x4 .f32 :=
  let e1 := k0_pay2 e0
  let e3 := k0_pay6 e0
  let e4 := k0_pay5 e0
  let e5 := k0_pay4 e0
  let e6 := k0_pay3 e0
  let e7 := k0_pay12 e0 e2
  let e8 := k0_pay20 e0 e2
  let e9 := k0_pay32 e2 e5 e7 e8
  let e10 := k0_pay7 (F := F)
  let e11 := k0_pay10 e0 e2
  let e12 := k0_pay11 e0 e2
  let e13 := k0_pay16 e0 e2
  let e14 := k0_pay36 e2 e5 e10 e11 e12 e13
  let e15 := k0_pay52 e2 e4 e9 e14
  let e16 := k0_pay14 e0 e2
  let e17 := k0_pay22 e0 e2
  let e18 := k0_pay34 e2 e5 e10 e12 e16 e17
  let e19 := k0_pay18 e0 e2
  let e20 := k0_pay38 e2 e5 e10 e11 e12 e19
  let e21 := k0_pay54 e2 e4 e18 e20
  let e22 := k0_pay72 e2 e3 e15 e21
  let e23 := k0_pay24 e10 e11 e12
  let e24 := k0_pay30 e2 e5
  let e25 := k0_pay15 e0 e2
  let e26 := k0_pay43 e2 e5 e25
  let e27 := k0_pay44 e23 e24 e26
  let e28 := k0_pay17 e0 e2
  let e29 := k0_pay26 e10 e11 e12
  let e30 := k0_pay31 e2 e5
  let e31 := k0_pay46 e28 e29 e24 e30
  let e32 := k0_pay19 e0 e2
  let e33 := k0_pay28 e10 e11 e12
  let e34 := k0_pay48 e32 e33 e24 e30
  let e35 := k0_pay50 e2 e4
  let e36 := k0_pay51 e2 e4
  let e37 := k0_pay13 e0 e2
  let e38 := k0_pay21 e0 e2
  let e39 := k0_pay41 e2 e5 e37 e38
  let e40 := k0_pay64 e2 e4 e39
  let e41 := k0_pay84 e2 e3 e27 e31 e34 e35 e36 e40
  let e42 := k0_pay92 e2 e6 e22 e41
  let e43 := k0_pay33 e2 e5 e7 e8
  let e44 := k0_pay37 e2 e5 e10 e11 e12 e13
  let e45 := k0_pay56 e2 e4 e43 e44
  let e46 := k0_pay35 e2 e5 e10 e12 e16 e17
  let e47 := k0_pay39 e2 e5 e10 e11 e12 e19
  let e48 := k0_pay58 e2 e4 e46 e47
  let e49 := k0_pay76 e2 e3 e45 e48
  let e50 := k0_pay40 e2 e5 e37 e38
  let e51 := k0_pay60 e2 e4 e28 e29 e24 e30 e50
  let e52 := k0_pay42 e2 e5 e10 e11 e12 e25
  let e53 := k0_pay62 e2 e4 e32 e33 e24 e30 e52
  let e54 := k0_pay80 e2 e3 e51 e53
  let e55 := k0_pay100 e2 e6 e49 e54
  let e56 := k0_pay112 e2 e5 e42 e55
  let e57 := k0_pay66 e39 e31 e35 e36
  let e58 := k0_pay68 e27 e34 e35 e36
  let e59 := k0_pay70 e2 e3
  let e60 := k0_pay71 e2 e3
  let e61 := k0_pay53 e2 e4 e9 e14
  let e62 := k0_pay55 e2 e4 e18 e20
  let e63 := k0_pay75 e2 e3 e61 e62
  let e64 := k0_pay96 e2 e6 e57 e58 e59 e60 e63
  let e65 := k0_pay57 e2 e4 e43 e44
  let e66 := k0_pay59 e2 e4 e46 e47
  let e67 := k0_pay79 e2 e3 e65 e66
  let e68 := k0_pay61 e2 e4 e28 e29 e24 e30 e50
  let e69 := k0_pay63 e2 e4 e32 e33 e24 e30 e52
  let e70 := k0_pay83 e2 e3 e68 e69
  let e71 := k0_pay104 e2 e6 e67 e70
  let e72 := k0_pay116 e2 e5 e64 e71
  let e73 := k0_pay132 e2 e4 e56 e72
  let e74 := k0_pay67 e27 e34 e35 e36
  let e75 := k0_pay73 e2 e3 e15 e21
  let e76 := k0_pay85 e2 e3 e31 e36 e40
  let e77 := k0_pay94 e2 e6 e74 e59 e75 e76
  let e78 := k0_pay77 e2 e3 e45 e48
  let e79 := k0_pay81 e2 e3 e51 e53
  let e80 := k0_pay102 e2 e6 e78 e79
  let e81 := k0_pay114 e2 e5 e77 e80
  let e82 := k0_pay82 e2 e3 e68 e69
  let e83 := k0_pay91 e2 e6
  let e84 := k0_pay74 e2 e3 e61 e62
  let e85 := k0_pay98 e2 e6 e57 e58 e59 e60 e84
  let e86 := k0_pay78 e2 e3 e65 e66
  let e87 := k0_pay106 e2 e6 e86
  let e88 := k0_pay118 e2 e5 e82 e83 e85 e87
  let e89 := k0_pay134 e2 e4 e81 e88
  let e90 := k0_pay148 e2
  let e91 := k0_pay153 e3 e73 e89 e90
  let e92 := k0_pay93 e2 e6 e22 e41
  let e93 := k0_pay101 e2 e6 e49 e54
  let e94 := k0_pay121 e2 e5 e92 e93
  let e95 := k0_pay97 e2 e6 e57 e58 e59 e60 e63
  let e96 := k0_pay105 e2 e6 e67 e70
  let e97 := k0_pay125 e2 e5 e95 e96
  let e98 := k0_pay144 e2 e4 e94 e97
  let e99 := k0_pay90 e2 e6
  let e100 := k0_pay108 e86 e82 e99 e83
  let e101 := k0_pay110 e2 e5
  let e102 := k0_pay95 e2 e6 e74 e59 e75 e76
  let e103 := k0_pay103 e2 e6 e78 e79
  let e104 := k0_pay123 e2 e5 e102 e103
  let e105 := k0_pay99 e2 e6 e57 e58 e59 e60 e84
  let e106 := k0_pay127 e2 e5 e105
  let e107 := k0_pay146 e2 e4 e100 e101 e104 e106
  let e108 := k0_pay165 e3 e98 e107 e90
  let e109 := k0_pay168 e2 e6
  let e110 := k0_pay174 e91 e108 e109
  let e111 := k0_pay113 e2 e5 e42 e55
  let e112 := k0_pay117 e2 e5 e64 e71
  let e113 := k0_pay136 e2 e4 e111 e112
  let e114 := k0_pay115 e2 e5 e77 e80
  let e115 := k0_pay119 e2 e5 e82 e83 e85 e87
  let e116 := k0_pay138 e2 e4 e114 e115
  let e117 := k0_pay157 e3 e113 e116 e90
  let e118 := k0_pay120 e2 e5 e92 e93
  let e119 := k0_pay124 e2 e5 e95 e96
  let e120 := k0_pay140 e2 e4 e118 e119
  let e121 := k0_pay122 e2 e5 e102 e103
  let e122 := k0_pay126 e2 e5 e86 e82 e99 e83 e105
  let e123 := k0_pay142 e2 e4 e121 e122
  let e124 := k0_pay161 e3 e120 e123 e90
  let e125 := k0_pay182 e117 e124 e109
  let e126 := k0_pay188 e2 e5
  let e127 := k0_pay193 e110 e125 e126
  let e128 := k0_pay133 e2 e4 e56 e72
  let e129 := k0_pay135 e2 e4 e81 e88
  let e130 := k0_pay155 e3 e128 e129 e90
  let e131 := k0_pay145 e2 e4 e94 e97
  let e132 := k0_pay147 e2 e4 e100 e101 e104 e106
  let e133 := k0_pay167 e3 e131 e132 e90
  let e134 := k0_pay176 e130 e133 e109
  let e135 := k0_pay137 e2 e4 e111 e112
  let e136 := k0_pay139 e2 e4 e114 e115
  let e137 := k0_pay159 e3 e135 e136 e90
  let e138 := k0_pay141 e2 e4 e118 e119
  let e139 := k0_pay143 e2 e4 e121 e122
  let e140 := k0_pay163 e3 e138 e139 e90
  let e141 := k0_pay184 e137 e140 e109
  let e142 := k0_pay195 e134 e141 e126
  let e143 := k0_pay154 e3 e128 e129 e90
  let e144 := k0_pay166 e3 e131 e132 e90
  let e145 := k0_pay178 e143 e144 e109
  let e146 := k0_pay158 e3 e135 e136 e90
  let e147 := k0_pay162 e3 e138 e139 e90
  let e148 := k0_pay186 e146 e147 e109
  let e149 := k0_pay197 e145 e148 e126
  let e150 := k0_pay208 e2 e4
  let e151 := k0_pay209 e2 e4
  let e152 := k0_pay152 e3 e73 e89 e90
  let e153 := k0_pay164 e3 e98 e107 e90
  let e154 := k0_pay172 e152 e153 e109
  let e155 := k0_pay156 e3 e113 e116 e90
  let e156 := k0_pay160 e3 e120 e123 e90
  let e157 := k0_pay180 e155 e156 e109
  let e158 := k0_pay210 e2 e4 e154 e157 e126
  let e159 := k0_pay230 e2 e3 e127 e142 e149 e150 e151 e158
  let e160 := k0_pay232 e159
  let e161 := k0_pay213 e127 e149 e150 e151
  let e162 := k0_pay228 e2 e3
  let e163 := k0_pay231 e2 e3 e142 e151 e158
  let e164 := k0_pay233 e161 e162 e163
  let e165 := k0_pay191 e154 e157 e126
  let e166 := k0_pay212 e165 e142 e150 e151
  let e167 := k0_pay214 e127 e149 e150 e151
  let e168 := k0_pay229 e2 e3
  let e169 := k0_pay234 e166 e167 e162 e168
  let e170 := k0_pay235 e166 e167 e162 e168
  let e171 := k0_pay192 e154 e157 e126
  let e172 := k0_pay196 e134 e141 e126
  let e173 := k0_pay215 e171 e172 e150 e151
  let e174 := k0_pay194 e110 e125 e126
  let e175 := k0_pay198 e145 e148 e126
  let e176 := k0_pay217 e174 e175 e150 e151
  let e177 := k0_pay236 e173 e176 e162 e168
  let e178 := k0_pay237 e173 e176 e162 e168
  let e179 := k0_pay216 e171 e172 e150 e151
  let e180 := k0_pay218 e174 e175 e150 e151
  let e181 := k0_pay238 e179 e180 e162 e168
  let e182 := k0_pay239 e179 e180 e162 e168
  let e183 := k0_pay173 e152 e153 e109
  let e184 := k0_pay181 e155 e156 e109
  let e185 := k0_pay200 e183 e184 e126
  let e186 := k0_pay177 e130 e133 e109
  let e187 := k0_pay185 e137 e140 e109
  let e188 := k0_pay204 e186 e187 e126
  let e189 := k0_pay223 e185 e188 e150 e151
  let e190 := k0_pay175 e91 e108 e109
  let e191 := k0_pay183 e117 e124 e109
  let e192 := k0_pay202 e190 e191 e126
  let e193 := k0_pay179 e143 e144 e109
  let e194 := k0_pay187 e146 e147 e109
  let e195 := k0_pay206 e193 e194 e126
  let e196 := k0_pay225 e192 e195 e150 e151
  let e197 := k0_pay240 e189 e196 e162 e168
  let e198 := k0_pay241 e189 e196 e162 e168
  let e199 := k0_pay224 e185 e188 e150 e151
  let e200 := k0_pay226 e192 e195 e150 e151
  let e201 := k0_pay242 e199 e200 e162 e168
  let e202 := k0_pay243 e199 e200 e162 e168
  let e203 := k0_pay199 e183 e184 e126
  let e204 := k0_pay203 e186 e187 e126
  let e205 := k0_pay219 e203 e204 e150 e151
  let e206 := k0_pay201 e190 e191 e126
  let e207 := k0_pay205 e193 e194 e126
  let e208 := k0_pay221 e206 e207 e150 e151
  let e209 := k0_pay244 e205 e208 e162 e168
  let e210 := k0_pay245 e205 e208 e162 e168
  let e211 := k0_pay220 e203 e204 e150 e151
  let e212 := k0_pay222 e206 e207 e150 e151
  let e213 := k0_pay246 e211 e212 e162 e168
  let e214 := k0_pay247 e211 e212 e162 e168
  let e215 := k0_pay248 e160 e164 e169 e170 e177 e178 e181 e182 e197 e198 e201 e202 e209 e210 e213 e214
  let e216 := k0_pay249 e160 e164 e169 e170 e177 e178 e181 e182 e197 e198 e201 e202 e209 e210 e213 e214
  let e217 := k0_pay250 e160 e164 e169 e170 e177 e178 e181 e182 e197 e198 e201 e202 e209 e210 e213 e214
  let e218 := k0_pay251 e160 e164 e169 e170 e177 e178 e181 e182 e197 e198 e201 e202 e209 e210 e213 e214
  let e219 := k0_pay1 e1 e215 e216 e217 e218
  e219

set_option maxHeartbeats 0 in
theorem outChain_eq (e0 : Vec F S4x57344 .f32) (e2 : Vec F S3x4 .f32) : outChain e0 e2 = finalS e0 e2 := rfl

end Cert.KernelIdeal.Body

end
-- ==== Proof.Patches.lean ====
/-
  The arrangement of the image into 2×2 patches that both programs start from, and the shape of the
  result: sample n = 196·image + 14·(patch row) + (patch column) has the four features
  (row parity, column parity) = (0,0), (0,1), (1,0), (1,1) of its patch, and the result array
  [4096, 784] is the [802816, 4] array of per-sample results re-read row-major.
-/
import Idealize.ShloMosaic.PureOps.Ideal
import Idealize.ShloMosaic.Lib.ValueIdx

namespace Cert.Spec

open Idealize.ShloMosaic

abbrev SX : Shape := ⟨4, ![4096, 1, 28, 28]⟩
abbrev SA : Shape := ⟨3, ![4096, 28, 28]⟩
abbrev SB : Shape := ⟨5, ![4096, 14, 2, 14, 2]⟩
abbrev SC : Shape := ⟨5, ![4096, 14, 14, 2, 2]⟩
abbrev SP : Shape := ⟨2, ![802816, 4]⟩
abbrev SW : Shape := ⟨2, ![3, 4]⟩
abbrev SO : Shape := ⟨2, ![4096, 784]⟩

/-- The [802816, 4] array of patch features: the image with its unit axis dropped, each 28×28 plane cut
    into 14×2 × 14×2, the two parity axes moved last, and the result re-read as samples × features. -/
def patches {α : Type} (h1 : SX.ShapeCasts SA) (h2 : SA.ShapeCasts SB) (h3 : SB.Transposes [0, 1, 3, 2, 4] SC)
    (h4 : SC.ShapeCasts SP) (x : SX.Idx → α) : SP.Idx → α :=
  shapeCast SP (transpose SC [0, 1, 3, 2, 4] (shapeCast SB (shapeCast SA x h1) h2) h3) h4

/-- The result array from a per-sample function `B` of a sample's four features and the weights:
    entry (n, f) of the [802816, 4] array is `B (features of n) W f`, re-read as [4096, 784]. -/
def result {α : Type} (B : (Fin 4 → α) → (SW.Idx → α) → Fin 4 → α) (h : SP.ShapeCasts SO)
    (P : SP.Idx → α) (W : SW.Idx → α) : SO.Idx → α :=
  shapeCast SO (fun j : SP.Idx => B (fun k => P (ValueIdx.ix2 (j 0) k)) W (j 1)) h

end Cert.Spec
-- ==== Proof.Sample.lean ====
/-
  One sample of the circuit on the extended reals: the rotation angle of wire w in layer l is half the
  product of the sample's feature w and the weight (l, w); the state starts at |0000⟩, passes three
  layers, and the result for feature f is the observable on wire f plus the feature itself.
-/
import proofs.«106929_j65481071405125_1_alg».proof.Proof.Circuit
import proofs.«106929_j65481071405125_1_alg».proof.Proof.Patches

noncomputable section

namespace Cert.Sample

open Idealize.ShloMosaic Cert.Circuit Cert.Spec

/-- The constants the programs spell as float words: one half, zero and one (never evaluated: the same
    word stands on both sides). -/
def half : EReal := Ideal.ofBits .f32 0x3F000000#32
def zero : EReal := Ideal.ofBits .f32 0x00000000#32
def one : EReal := Ideal.ofBits .f32 0x3F800000#32

/-- Half the product of feature `w` and weight (l, w). -/
def theta (p : Fin 4 → EReal) (W : SW.Idx → EReal) (l : Fin 3) (w : Fin 4) : EReal :=
  half * (p w * W (ValueIdx.ix2 l w))

def cs (p : Fin 4 → EReal) (W : SW.Idx → EReal) (l : Fin 3) (w : Fin 4) : EReal := Ideal.cos (theta p W l w)
def sn (p : Fin 4 → EReal) (W : SW.Idx → EReal) (l : Fin 3) (w : Fin 4) : EReal := Ideal.sin (theta p W l w)

/-- Layer `l` at this sample. -/
def layerAt (p : Fin 4 → EReal) (W : SW.Idx → EReal) (l : Fin 3) (A : Amp EReal) : Amp EReal :=
  layer eOps (cs p W l 0) (sn p W l 0) (cs p W l 1) (sn p W l 1) (cs p W l 2) (sn p W l 2) (cs p W l 3) (sn p W l 3) A

/-- The state after the three layers. -/
def finalState (p : Fin 4 → EReal) (W : SW.Idx → EReal) : Amp EReal :=
  layerAt p W 2 (layerAt p W 1 (layerAt p W 0 (init zero one)))

/-- The four observables. -/
def obs (A : Amp EReal) : Fin 4 → EReal := ![z0 eOps A, z1 eOps A, z2 eOps A, z3 eOps A]

/-- The sample's four results: observable plus feature. -/
def out (p : Fin 4 → EReal) (W : SW.Idx → EReal) (f : Fin 4) : EReal := obs (finalState p W) f + p f

end Cert.Sample

end
-- ==== Proof.KernelBodyV.lean ====
/-
  The kernel body's stored value read at one sample.

  The body works on one block of 57344 samples at a time: row w of the input block holds feature w of every
  sample, and every operation of the body is a vector operation over the samples.  So the body is the circuit
  of Circuit.lean read on vectors: sixteen amplitude vectors, rotated and permuted layer by layer, squared and
  summed into the four observables, which are stacked, added to the input block and transposed.  Reading the
  result at sample n and feature f gives the scalar circuit at that sample, because reading a vector at a sample
  commutes with the vector operations.
-/
import proofs.«106929_j65481071405125_1_alg».proof.Proof.KernelCircuitI
import proofs.«106929_j65481071405125_1_alg».proof.Proof.Sample
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.ValueIdx Cert.Circuit

/-- A vector over the block's samples, at the ideal instance. -/
abbrev V := FVec Ideal S57344 .f32

/-! ## At one sample -/

/-- Reading a vector at sample `n` commutes with the vector operations. -/
theorem homV (n : Fin 57344) : Hom (vOps (F := Ideal)) eOps (fun v : V => v (ix1 n)) := ⟨fun _ _ => rfl, fun _ _ => rfl, fun _ _ => rfl⟩

/-- Row `k` of the block at sample `n`. -/
theorem row0 (L0 : Vec Ideal S4x57344 .f32) (n : Fin 57344) : k0_pay3 L0 (ix1 n) = L0 (ix2 0 n) := by
  unfold k0_pay3 k0_pay2
  refine (shapeCast_apply _ _ (ix1 n) (ix2 (0 : Fin 1) n) ?_).trans ?_
  · rw [Shape.rowMajor_val_two, Shape.rowMajor_val_one]
    show 0 * 57344 + n.val = n.val
    omega
  · rw [shapeCast_self]
    exact extractStridedSlice_apply _ L0 _ (ix2 (0 : Fin 1) n) (ix2 0 n) (fun i => match i with | ⟨0, _⟩ => by show 0 = 0 + 0; omega | ⟨1, _⟩ => by show n.val = 0 + n.val; omega)
theorem row1 (L0 : Vec Ideal S4x57344 .f32) (n : Fin 57344) : k0_pay4 L0 (ix1 n) = L0 (ix2 1 n) := by
  unfold k0_pay4 k0_pay2
  refine (shapeCast_apply _ _ (ix1 n) (ix2 (0 : Fin 1) n) ?_).trans ?_
  · rw [Shape.rowMajor_val_two, Shape.rowMajor_val_one]
    show 0 * 57344 + n.val = n.val
    omega
  · rw [shapeCast_self]
    exact extractStridedSlice_apply _ L0 _ (ix2 (0 : Fin 1) n) (ix2 1 n) (fun i => match i with | ⟨0, _⟩ => by show 1 = 1 + 0; omega | ⟨1, _⟩ => by show n.val = 0 + n.val; omega)
theorem row2 (L0 : Vec Ideal S4x57344 .f32) (n : Fin 57344) : k0_pay5 L0 (ix1 n) = L0 (ix2 2 n) := by
  unfold k0_pay5 k0_pay2
  refine (shapeCast_apply _ _ (ix1 n) (ix2 (0 : Fin 1) n) ?_).trans ?_
  · rw [Shape.rowMajor_val_two, Shape.rowMajor_val_one]
    show 0 * 57344 + n.val = n.val
    omega
  · rw [shapeCast_self]
    exact extractStridedSlice_apply _ L0 _ (ix2 (0 : Fin 1) n) (ix2 2 n) (fun i => match i with | ⟨0, _⟩ => by show 2 = 2 + 0; omega | ⟨1, _⟩ => by show n.val = 0 + n.val; omega)
theorem row3 (L0 : Vec Ideal S4x57344 .f32) (n : Fin 57344) : k0_pay6 L0 (ix1 n) = L0 (ix2 3 n) := by
  unfold k0_pay6 k0_pay2
  refine (shapeCast_apply _ _ (ix1 n) (ix2 (0 : Fin 1) n) ?_).trans ?_
  · rw [Shape.rowMajor_val_two, Shape.rowMajor_val_one]
    show 0 * 57344 + n.val = n.val
    omega
  · rw [shapeCast_self]
    exact extractStridedSlice_apply _ L0 _ (ix2 (0 : Fin 1) n) (ix2 3 n) (fun i => match i with | ⟨0, _⟩ => by show 3 = 3 + 0; omega | ⟨1, _⟩ => by show n.val = 0 + n.val; omega)

/-- The angle vector at sample `n`. -/
theorem thetaV_apply (row : V) (W : Vec Ideal S3x4 .f32) (l k : Nat) (hl : l < 3) (hk : k < 4) (hW : S3x4.Slices ![l, k] S1x1)
    (n : Fin 57344) :
    thetaV row W l k hW (ix1 n) = Sample.half * (row (ix1 n) * W (ix2 ⟨l, hl⟩ ⟨k, hk⟩)) := by
  unfold thetaV
  rw [mulf_apply, mulf_apply]
  refine congrArg (fun t => Sample.half * (row (ix1 n) * t)) ?_
  show extractStridedSlice S1x1 ![l, k] W hW (fun a => ⟨(![0, 0] : Fin 2 → Nat) a, inpos_S1x1_p0_0 a⟩) = _
  exact extractStridedSlice_apply _ W hW _ (ix2 ⟨l, hl⟩ ⟨k, hk⟩) (fun i => match i with | ⟨0, _⟩ => by show l = l + 0; omega | ⟨1, _⟩ => by show k = k + 0; omega)

theorem cosV_apply (θ : V) (n : Fin 57344) : (cos θ : V) (ix1 n) = Ideal.cos (θ (ix1 n)) := rfl
theorem sinV_apply (θ : V) (n : Fin 57344) : (sin θ : V) (ix1 n) = Ideal.sin (θ (ix1 n)) := rfl

/-- The amplitude vectors read at sample `n` are the sample's amplitudes. -/
theorem stateV_apply (L0 : Vec Ideal S4x57344 .f32) (W : Vec Ideal S3x4 .f32) (n : Fin 57344) :
    mapAmp (fun v : V => v (ix1 n)) (stateV L0 W) = Sample.finalState (fun k => L0 (ix2 k n)) W := by
  unfold stateV layerV Sample.finalState Sample.layerAt
  rw [(homV n).layer, (homV n).layer, (homV n).layer, mapAmp_init]
  simp only [cosV_apply, sinV_apply, thetaV_apply _ _ 0 0 (by decide) (by decide), thetaV_apply _ _ 0 1 (by decide) (by decide),
    thetaV_apply _ _ 0 2 (by decide) (by decide), thetaV_apply _ _ 0 3 (by decide) (by decide),
    thetaV_apply _ _ 1 0 (by decide) (by decide), thetaV_apply _ _ 1 1 (by decide) (by decide),
    thetaV_apply _ _ 1 2 (by decide) (by decide), thetaV_apply _ _ 1 3 (by decide) (by decide),
    thetaV_apply _ _ 2 0 (by decide) (by decide), thetaV_apply _ _ 2 1 (by decide) (by decide),
    thetaV_apply _ _ 2 2 (by decide) (by decide), thetaV_apply _ _ 2 3 (by decide) (by decide), row0, row1, row2, row3,
    Sample.cs, Sample.sn, Sample.theta]
  rfl

/-- The stored block at (sample n, feature f) is the sample's result for that feature. -/
theorem finalV_apply (L0 : Vec Ideal S4x57344 .f32) (W : Vec Ideal S3x4 .f32) (n : Fin 57344) (f : Fin 4) :
    finalV L0 W (ix2 n f) = Sample.out (fun k => L0 (ix2 k n)) W f := by
  unfold finalV k0_pay1
  refine (transpose_apply _ _ _ (ix2 n f) (ix2 f n) (fun i => match i with | ⟨0, _⟩ => rfl | ⟨1, _⟩ => rfl)).trans ?_
  rw [addf_apply]
  unfold Sample.out
  congr 1
  · rw [← stateV_apply]
    match f with
    | ⟨0, _⟩ =>
      refine (concatenate_apply_piece (0 : Fin 2) _ _ (ix2 (⟨0, by decide⟩ : Fin 4) n) 0 (by show 0 < 4; omega) S1x57344 _ rfl rfl 0 rfl (ix2 (0 : Fin 1) n)
        (fun i hi => match i, hi with | ⟨0, _⟩, hi => absurd rfl hi | ⟨1, _⟩, _ => rfl) rfl).trans ?_
      refine (shapeCast_apply _ _ (ix2 (0 : Fin 1) n) (ix1 n) ?_).trans ?_
      · rw [Shape.rowMajor_val_one, Shape.rowMajor_val_two]
        show n.val = 0 * 57344 + n.val
        omega
      · exact (homV n).z0 _
    | ⟨1, _⟩ =>
      refine (concatenate_apply_piece (0 : Fin 2) _ _ (ix2 (⟨1, by decide⟩ : Fin 4) n) 1 (by show 1 < 4; omega) S1x57344 _ rfl rfl 1 rfl (ix2 (0 : Fin 1) n)
        (fun i hi => match i, hi with | ⟨0, _⟩, hi => absurd rfl hi | ⟨1, _⟩, _ => rfl) rfl).trans ?_
      refine (shapeCast_apply _ _ (ix2 (0 : Fin 1) n) (ix1 n) ?_).trans ?_
      · rw [Shape.rowMajor_val_one, Shape.rowMajor_val_two]
        show n.val = 0 * 57344 + n.val
        omega
      · exact (homV n).z1 _
    | ⟨2, _⟩ =>
      refine (concatenate_apply_piece (0 : Fin 2) _ _ (ix2 (⟨2, by decide⟩ : Fin 4) n) 2 (by show 2 < 4; omega) S1x57344 _ rfl rfl 2 rfl (ix2 (0 : Fin 1) n)
        (fun i hi => match i, hi with | ⟨0, _⟩, hi => absurd rfl hi | ⟨1, _⟩, _ => rfl) rfl).trans ?_
      refine (shapeCast_apply _ _ (ix2 (0 : Fin 1) n) (ix1 n) ?_).trans ?_
      · rw [Shape.rowMajor_val_one, Shape.rowMajor_val_two]
        show n.val = 0 * 57344 + n.val
        omega
      · exact (homV n).z2 _
    | ⟨3, _⟩ =>
      refine (concatenate_apply_piece (0 : Fin 2) _ _ (ix2 (⟨3, by decide⟩ : Fin 4) n) 3 (by show 3 < 4; omega) S1x57344 _ rfl rfl 3 rfl (ix2 (0 : Fin 1) n)
        (fun i hi => match i, hi with | ⟨0, _⟩, hi => absurd rfl hi | ⟨1, _⟩, _ => rfl) rfl).trans ?_
      refine (shapeCast_apply _ _ (ix2 (0 : Fin 1) n) (ix1 n) ?_).trans ?_
      · rw [Shape.rowMajor_val_one, Shape.rowMajor_val_two]
        show n.val = 0 * 57344 + n.val
        omega
      · exact (homV n).z3 _
  · unfold k0_pay2; rw [shapeCast_self]

end Cert.KernelIdeal.Body

end
-- ==== Proof.KernelBody.lean ====
/-
  What the kernel body leaves in its output block, entry by entry: the stored block is the vector circuit's result
  of the two loaded blocks, so row y₀, feature y₁ of it is the result of the sample in column y₀ of the input block.
-/
import proofs.«106929_j65481071405125_1_alg».proof.Proof.FramePI
import proofs.«106929_j65481071405125_1_alg».proof.Proof.KernelChain
import proofs.«106929_j65481071405125_1_alg».proof.Proof.KernelBodyV

set_option maxRecDepth 1000000

noncomputable section

namespace Cert.KernelIdeal.Body

open Cert.KernelIdeal Cert.KernelIdeal.Gen Idealize.ShloMosaic Idealize.ShloMosaic.ValueIdx Cert.Circuit

theorem hz : (![0, 0] : Fin 2 → Nat) = fun _ => 0 := funext fun a => by fin_cases a <;> rfl

/-- The two spellings of the chain of named payloads are one term. -/
theorem chainP_eq (e0 : Vec Ideal S4x57344 .f32) (e2 : Vec Ideal S3x4 .f32) :
    GenP.outChainP (F := Ideal) e0 e2 = outChain e0 e2 := rfl

/-- Row y₀, feature y₁ of the output block is the result of the sample in column y₀ of the input block. -/
theorem out_apply (x0 : Vec Ideal S4x57344 .f32) (x1 : Vec Ideal S3x4 .f32) (y : S57344x4.Idx) :
    GenP.out0_2 (F := Ideal) x0 x1 y = Sample.out (fun k => x0 (ix2 k (y 0))) x1 (y 1) := by
  unfold GenP.out0_2
  rw [chainP_eq, outChain_eq, finalS_eq, View.canon_unit_zero hz, View.ld_unit_zero (S := S4x57344) hz, View.ld_unit_zero (S := S3x4) hz]
  obtain ⟨n, f, rfl⟩ : ∃ (n : Fin 57344) (f : Fin 4), y = ix2 n f := ⟨y 0, y 1, eq_ix2 y⟩
  exact finalV_apply x0 x1 n f

end Cert.KernelIdeal.Body

end
-- ==== Proof.KernelValueIdx.lean ====
/-
  The one piece of index arithmetic of the kernel's launch side: the [4, 802816] array the kernel reads
  (the image with its unit axis dropped, each 28×28 plane cut into 14×2 × 14×2, the two parity axes moved
  FIRST, re-read as features × samples) is the transpose of the [802816, 4] array of patch features:
  entry (k, n) of the one is entry (n, k) of the other: both are the cut image [4096, 14, 2, 14, 2] at
  (n / 196, (n % 196) / 14, k / 2, n % 14, k % 2).
-/
import proofs.«106929_j65481071405125_1_alg».proof.Proof.Patches
import Idealize.ShloMosaic.Lib.Pipeline.Value

namespace Cert.Spec

open Idealize.ShloMosaic Idealize.ShloMosaic.ValueIdx

/-- The parity axes first: [2, 2, 4096, 14, 14]. -/
abbrev ST : Shape := ⟨5, ![2, 2, 4096, 14, 14]⟩
/-- Features × samples: [4, 802816]. -/
abbrev SQ : Shape := ⟨2, ![4, 802816]⟩

/-- Entry (k, n) of the features × samples array is entry (n, k) of the samples × features array. -/
theorem patches_transposed {α : Type} (g1 : SX.ShapeCasts SA) (g2 : SA.ShapeCasts SB)
    (g3 : SB.Transposes [2, 4, 0, 1, 3] ST) (g4 : ST.ShapeCasts SQ)
    (h1 : SX.ShapeCasts SA) (h2 : SA.ShapeCasts SB) (h3 : SB.Transposes [0, 1, 3, 2, 4] SC) (h4 : SC.ShapeCasts SP)
    (x : SX.Idx → α) (k : Fin 4) (n : Fin 802816) :
    shapeCast SQ (transpose ST [2, 4, 0, 1, 3] (shapeCast SB (shapeCast SA x g1) g2) g3) g4 (ix2 k n)
      = patches h1 h2 h3 h4 x (ix2 n k) := by
  have hk : k.val < 4 := k.isLt
  have hn : n.val < 802816 := n.isLt
  -- the coordinates: parities a, b of the feature; image c, patch row d, patch column e of the sample
  let a : Fin 2 := ⟨k.val / 2, by omega⟩
  let b : Fin 2 := ⟨k.val % 2, by omega⟩
  let c : Fin 4096 := ⟨n.val / 196, by omega⟩
  let d : Fin 14 := ⟨n.val % 196 / 14, by omega⟩
  let e : Fin 14 := ⟨n.val % 14, by omega⟩
  have lhs : shapeCast SQ (transpose ST [2, 4, 0, 1, 3] (shapeCast SB (shapeCast SA x g1) g2) g3) g4 (ix2 k n)
      = shapeCast SB (shapeCast SA x g1) g2 (ix5 c d a e b) := by
    refine (shapeCast_apply _ g4 (ix2 k n) (ix5 a b c d e) ?_).trans ?_
    · rw [Shape.rowMajor_val_five, Shape.rowMajor_val_two]
      show (((k.val / 2 * 2 + k.val % 2) * 4096 + n.val / 196) * 14 + n.val % 196 / 14) * 14 + n.val % 14
        = k.val * 802816 + n.val
      omega
    · exact transpose_apply _ _ g3 (ix5 a b c d e) (ix5 c d a e b) fun i =>
        match i with | ⟨0, _⟩ => rfl | ⟨1, _⟩ => rfl | ⟨2, _⟩ => rfl | ⟨3, _⟩ => rfl | ⟨4, _⟩ => rfl
  have rhs : patches h1 h2 h3 h4 x (ix2 n k) = shapeCast SB (shapeCast SA x h1) h2 (ix5 c d a e b) := by
    unfold patches
    refine (shapeCast_apply _ h4 (ix2 n k) (ix5 c d e a b) ?_).trans ?_
    · rw [Shape.rowMajor_val_five, Shape.rowMajor_val_two]
      show (((n.val / 196 * 14 + n.val % 196 / 14) * 14 + n.val % 14) * 2 + k.val / 2) * 2 + k.val % 2
        = n.val * 4 + k.val
      omega
    · exact transpose_apply _ _ h3 (ix5 c d e a b) (ix5 c d a e b) fun i =>
        match i with | ⟨0, _⟩ => rfl | ⟨1, _⟩ => rfl | ⟨2, _⟩ => rfl | ⟨3, _⟩ => rfl | ⟨4, _⟩ => rfl
  -- the two chains now differ only in their witnesses of the same shape relations
  rw [lhs, rhs]

end Cert.Spec
-- ==== Proof.KernelValue.lean ====
/-
  The launch side of the idealized kernel's value.  The kernel's region runs over 14 grid points; point t reads
  columns 57344·t … 57344·t + 57343 of the features × samples array [4, 802816] (all four rows), the whole
  weight array [3, 4], and writes rows 57344·t … 57344·t + 57343 of the [802816, 4] result.  If the body
  computes row y of its output block from column y of its input block and the weights by a function `B`
  (hypothesis `hB`), then the result array ends holding, in row n, `B` of column n of the features × samples
  array; that column is row n of the array of patch features (KernelValueIdx), and the last host operation
  re-reads the [802816, 4] array row-major as [4096, 784].
-/
import proofs.«106929_j65481071405125_1_alg».proof.Proof.FramePI
import proofs.«106929_j65481071405125_1_alg».proof.Proof.KernelValueIdx
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.GenP

variable (B : (Fin 4 → EReal) → (Cert.Spec.SW.Idx → EReal) → Fin 4 → EReal)
variable (m : (ℓ : Loc nD τ sig) → Buf (Elt Ideal) ℓ) (ρ : Dev nD → PrngReg)

/-- `B` respects equality of each of its three arguments. -/
theorem B_congr {f f' : Fin 4 → EReal} {w w' : Cert.Spec.SW.Idx → EReal} {q q' : Fin 4}
    (hf : f = f') (hw : w = w') (hq : q = q') : B f w q = B f' w' q' := by
  rw [hf, hw, hq]

/-- The whole [802816, 4] array the region leaves: row n, feature f is `B` of column n of the
    features × samples array and of the weights, at f. -/
def Hk (c : Dev nD) : S802816x4.Idx → EReal :=
  fun j => B (fun k => (V m c main_v3 : S4x802816.Idx → EReal) (ix2 k (j 0)))
    (V m c main_arg1 : S3x4.Idx → EReal) (j 1)

/-- The block indices over the grid: at point t, window 0 is block (0, t), window 1 block (0, 0), window 2
    block (t, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t, entry (k, y), is the features × samples array at (k, 57344·t + y). -/
theorem iblk0_apply (c : Dev nD) (t : Fin cfg0.N) (k : Fin 4) (y : Fin 57344) (n : Fin 802816)
    (hn : n.val = t.val * 57344 + y.val) :
    (iblk m c 0 t : Vec Ideal S4x57344 .f32) (ix2 k y) = (V m c main_v3 : S4x802816.Idx → EReal) (ix2 k n) := by
  obtain ⟨e00, e01, -, -, -, -⟩ := idx_facts t
  show (V m c main_v3 : S4x802816.Idx → EReal) (((cfg0.win 0).blk t).view.emb (ix2 k y)) = _
  refine congrArg (V m c main_v3 : S4x802816.Idx → EReal) ?_
  funext a
  apply Fin.ext
  match a with
  | ⟨0, _⟩ => show win0_0.index t (0 : Fin 2) * 4 + 1 * k.val = k.val; omega
  | ⟨1, _⟩ => show win0_0.index t (1 : Fin 2) * 57344 + 1 * y.val = n.val; omega

/-- Window 1's block is the whole weight array at every point. -/
theorem iblk1_eq (c : Dev nD) (t : Fin cfg0.N) :
    (iblk m c 1 t : Vec Ideal S3x4 .f32) = (V m c main_arg1 : S3x4.Idx → EReal) := by
  obtain ⟨-, -, e10, e11, -, -⟩ := idx_facts t
  funext x
  show (V m c main_arg1 : S3x4.Idx → EReal) (((cfg0.win 1).blk t).view.emb x) = _
  refine congrArg (V m c main_arg1 : S3x4.Idx → EReal) ?_
  funext a
  apply Fin.ext
  match a with
  | ⟨0, _⟩ => show win0_1.index t (0 : Fin 2) * 3 + 1 * (x 0).val = (x 0).val; omega
  | ⟨1, _⟩ => show win0_1.index t (1 : Fin 2) * 4 + 1 * (x 1).val = (x 1).val; omega

/-- An index of the result array is in point t's block iff each coordinate is in the block's range. -/
theorem mem_blk (t : Fin cfg0.N) (i : S802816x4.Idx) :
    i ∈ ((cfg0.win 2).blk t).view.set ↔ ∀ a : Fin 2, win0_2.index t a * S57344x4.size a ≤ (i a).val
      ∧ (i a).val < win0_2.index t a * S57344x4.size a + S57344x4.size a := by
  show i ∈ ((View.whole main_v4).slice (win0_2.rect t)).set ↔ _
  rw [View.set_slice_whole, Rect.mem_set_unit]
  exact Iff.rfl

section
variable (hB : ∀ (x0 : Vec Ideal S4x57344 .f32) (x1 : Vec Ideal S3x4 .f32) (y : S57344x4.Idx),
    out0_2 (F := Ideal) x0 x1 y = B (fun k => x0 (ix2 k (y 0))) x1 (y 1))
include hB

/-- What point t writes back is block t of `Hk`: rows 57344·t … of the result from columns 57344·t … of
    the features × samples array. -/
theorem flushed_eq (c : Dev nD) (t : Fin cfg0.N) :
    (dats m 0 c).flushed 2 t = ((cfg0.win 2).blk t).view.read (Elt Ideal) (Hk B m c) := by
  show (cfg0.win 2).cut (grid0.coords t) ((dats m 0 c).after 2 t) = _
  rw [after0_2]
  obtain ⟨-, -, -, -, e20, e21⟩ := idx_facts t
  funext y
  refine (hB (iblk m c 0 t) (iblk m c 1 t) y).trans ?_
  show _ = Hk B m c (((cfg0.win 2).blk t).view.emb y)
  unfold Hk
  refine B_congr B (funext fun k => ?_) (iblk1_eq m c t) (Fin.ext ?_)
  · refine iblk0_apply m c t k (y 0) _ ?_
    show win0_2.index t (0 : Fin 2) * 57344 + 1 * (y 0).val = t.val * 57344 + (y 0).val
    omega
  · show (y 1).val = win0_2.index t (1 : Fin 2) * 4 + 1 * (y 1).val
    omega

/-- The result array after the run is `Hk`: row r lies in the block of point r / 57344. -/
theorem final (c : Dev nD) : (dats m 0 c).arrAt 2 cfg0.N = Hk B m c :=
  (dats m 0 c).arrAt_eq_of_cover 2 (Hk B m c) (fun t _ => flushed_eq B m hB c t) fun i => by
    have hN : cfg0.N = 14 := N_0
    have hi0 : (i 0).val < 802816 := (i 0).isLt
    have hi1 : (i 1).val < 4 := (i 1).isLt
    obtain ⟨t, ht⟩ : ∃ t : Fin cfg0.N, t.val = (i 0).val / 57344 := ⟨⟨(i 0).val / 57344, by rw [hN]; omega⟩, rfl⟩
    obtain ⟨-, -, -, -, e20, e21⟩ := idx_facts t
    refine ⟨t, flush0_2 t, ?_⟩
    rw [mem_blk]
    intro a
    match a with
    | ⟨0, _⟩ =>
      show win0_2.index t (0 : Fin 2) * 57344 ≤ (i 0).val ∧ (i 0).val < win0_2.index t (0 : Fin 2) * 57344 + 57344
      omega
    | ⟨1, _⟩ =>
      show win0_2.index t (1 : Fin 2) * 4 ≤ (i 1).val ∧ (i 1).val < win0_2.index t (1 : Fin 2) * 4 + 4
      omega

end

/-- The features × samples array the region finds is the four host operations' term of the image, and its
    entry (k, n) is entry (n, k) of the array of patch features. -/
theorem V_main_v3_apply (h1 : Spec.SX.ShapeCasts Spec.SA) (h2 : Spec.SA.ShapeCasts Spec.SB)
    (h3 : Spec.SB.Transposes [0, 1, 3, 2, 4] Spec.SC) (h4 : Spec.SC.ShapeCasts Spec.SP)
    (c : Dev nD) (k : Fin 4) (n : Fin 802816) :
    (V m c main_v3 : S4x802816.Idx → EReal) (ix2 k n)
      = Spec.patches h1 h2 h3 h4 (m ((c.tc : Thread nD τ).loc main_arg0)) (ix2 n k) := by
  have e : (V m c main_v3 : S4x802816.Idx → EReal)
      = shapeCast Spec.SQ (transpose Spec.ST [2, 4, 0, 1, 3]
          (shapeCast Spec.SB (shapeCast Spec.SA (m ((c.tc : Thread nD τ).loc main_arg0) : Spec.SX.Idx → EReal) h1) h2)
          Cert.KernelIdeal.Gen.transposes_S4096x14x2x14x2_S2x2x4096x14x14_2_4_0_1_3)
          Cert.KernelIdeal.Gen.shapeCasts_S2x2x4096x14x14_S4x802816 := by
    show StableHlo.after hostOps0 (fun b => m (c, b)) (Proc.devRef .tc main_v3) = _
    after_results
    rfl
  exact (congrFun e (ix2 k n)).trans (Spec.patches_transposed (α := EReal) h1 h2 _ _ h1 h2 h3 h4 _ k n)

/-- `Hk` in terms of the launch contents: row n is `B` of the patch features of sample n and the weights. -/
theorem Hk_eq (h1 : Spec.SX.ShapeCasts Spec.SA) (h2 : Spec.SA.ShapeCasts Spec.SB)
    (h3 : Spec.SB.Transposes [0, 1, 3, 2, 4] Spec.SC) (h4 : Spec.SC.ShapeCasts Spec.SP) (c : Dev nD) :
    Hk B m c = fun j : Spec.SP.Idx =>
      B (fun k => Spec.patches h1 h2 h3 h4 (m ((c.tc : Thread nD τ).loc main_arg0)) (ix2 (j 0) k))
        (m ((c.tc : Thread nD τ).loc main_arg1)) (j 1) := by
  funext j
  unfold Hk
  exact B_congr B (funext fun k => V_main_v3_apply m h1 h2 h3 h4 c k (j 0)) (V_main_arg1 m c) rfl

/-- THE RUN: from any memory with zero counters, @main on the idealized kernel terminates with its result
    array at `Spec.result B` of the patch features of the image and the weights, the two arguments unchanged. -/
theorem run_of_body
    (hB : ∀ (x0 : Vec Ideal S4x57344 .f32) (x1 : Vec Ideal S3x4 .f32) (y : S57344x4.Idx),
      out0_2 (F := Ideal) x0 x1 y = B (fun k => x0 (ix2 k (y 0))) x1 (y 1))
    (h1 : Spec.SX.ShapeCasts Spec.SA) (h2 : Spec.SA.ShapeCasts Spec.SB)
    (h3 : Spec.SB.Transposes [0, 1, 3, 2, 4] Spec.SC) (h4 : Spec.SC.ShapeCasts Spec.SP)
    (h : Spec.SP.ShapeCasts Spec.SO)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v5)
          = Spec.result B h (Spec.patches h1 h2 h3 h4 (m ((c.tc : Thread nD τ).loc main_arg0))) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r hr c =>
    ⟨((hr c).2 main_v5 (Pipeline.mem_restRefs_of main_v5 (by decide) (by decide))).trans (by
        -- the one host operation after the region re-reads the result array row-major
        unfold Pipeline.afterTail₀
        show StableHlo.after hostOps1 _ (Proc.devRef .tc main_v5) = _
        after_results
        have e := (Pipeline.withArrays_arr spec0 launch0.win.arr_inj c (V0 m c)
            (fun w => (dats m 0 c).arrAt w cfg0.N) 2).trans ((final B m hB c).trans (Hk_eq B m h1 h2 h3 h4 c))
        exact (congrArg (fun z : S802816x4.Idx → EReal => shapeCast S4096x784 z Cert.KernelIdeal.Gen.shapeCasts_S802816x4_S4096x784) e).trans rfl),
      ((hr c).2 main_arg0 (Pipeline.mem_restRefs_of main_arg0 (by decide) (by decide))).trans (W_main_arg0 m (dats m) c),
      ((hr c).1 1).trans (((dats m 0 c).arrAt_in 1 rfl _).trans ((A_eq m c 1).trans (V_main_arg1 m c)))⟩)
    (run_main m ρ)

end Cert.KernelIdeal.KValue

end
-- ==== Proof.RefOps.lean ====
/-
  The reference's tensor operations read at an index.

  The reference keeps the sixteen amplitudes of every sample in an array [802816, 2, 2, 2, 2] (sample, then
  the bits of wires 0–3, possibly with the axes permuted).  A rotation on the wire whose bit is the LAST axis
  cuts the array into its two halves along that axis, mixes them with the sample's cosine and sine, and
  stacks the two results again; a controlled NOT cuts along the control's axis and reverses the second half
  along the target's axis.  Each lemma here reads one such composite at an index given by coordinates.
-/
import proofs.«106929_j65481071405125_1_alg».proof.Proof.Gen.ReferenceIdeal.Run
import proofs.«106929_j65481071405125_1_alg».proof.Proof.Circuit
import Idealize.ShloMosaic.Lib.Pipeline.Value
import Idealize.ShloMosaic.Lib.ValueIdx

set_option maxRecDepth 16384

noncomputable section

namespace Cert.ReferenceIdeal.RefOps

open Cert.ReferenceIdeal Cert.ReferenceIdeal.Gen Idealize.ShloMosaic Idealize.ShloMosaic.ValueIdx Cert.Circuit

/-- A bit as a coordinate of an axis of extent 2. -/
def fin (b : Bool) : Fin 2 := cond b 1 0

theorem fin_false : fin false = 0 := rfl
theorem fin_true : fin true = 1 := rfl

abbrev T5 := FVec Ideal S802816x2x2x2x2 .f32
abbrev T4 := FVec Ideal S802816x2x2x2 .f32
abbrev T1 := FVec Ideal S802816 .f32

/-! ## The five axis permutations -/

theorem tr_0_4_1_2_3 (X : T5) (n : Fin 802816) (a b d e : Fin 2) :
    transpose S802816x2x2x2x2 [0, 4, 1, 2, 3] X transposes_S802816x2x2x2x2_S802816x2x2x2x2_0_4_1_2_3 (ix5 n a b d e) = X (ix5 n b d e a) :=
  transpose_apply _ X _ _ _ (fun i => match i with | ⟨0, _⟩ => rfl | ⟨1, _⟩ => rfl | ⟨2, _⟩ => rfl | ⟨3, _⟩ => rfl | ⟨4, _⟩ => rfl)

theorem tr_0_1_3_4_2 (X : T5) (n : Fin 802816) (a b d e : Fin 2) :
    transpose S802816x2x2x2x2 [0, 1, 3, 4, 2] X transposes_S802816x2x2x2x2_S802816x2x2x2x2_0_1_3_4_2 (ix5 n a b d e) = X (ix5 n a e b d) :=
  transpose_apply _ X _ _ _ (fun i => match i with | ⟨0, _⟩ => rfl | ⟨1, _⟩ => rfl | ⟨2, _⟩ => rfl | ⟨3, _⟩ => rfl | ⟨4, _⟩ => rfl)

theorem tr_0_1_4_2_3 (X : T5) (n : Fin 802816) (a b d e : Fin 2) :
    transpose S802816x2x2x2x2 [0, 1, 4, 2, 3] X transposes_S802816x2x2x2x2_S802816x2x2x2x2_0_1_4_2_3 (ix5 n a b d e) = X (ix5 n a d e b) :=
  transpose_apply _ X _ _ _ (fun i => match i with | ⟨0, _⟩ => rfl | ⟨1, _⟩ => rfl | ⟨2, _⟩ => rfl | ⟨3, _⟩ => rfl | ⟨4, _⟩ => rfl)

theorem tr_0_1_2_4_3 (X : T5) (n : Fin 802816) (a b d e : Fin 2) :
    transpose S802816x2x2x2x2 [0, 1, 2, 4, 3] X transposes_S802816x2x2x2x2_S802816x2x2x2x2_0_1_2_4_3 (ix5 n a b d e) = X (ix5 n a b e d) :=
  transpose_apply _ X _ _ _ (fun i => match i with | ⟨0, _⟩ => rfl | ⟨1, _⟩ => rfl | ⟨2, _⟩ => rfl | ⟨3, _⟩ => rfl | ⟨4, _⟩ => rfl)

theorem tr_0_2_3_4_1 (X : T5) (n : Fin 802816) (a b d e : Fin 2) :
    transpose S802816x2x2x2x2 [0, 2, 3, 4, 1] X transposes_S802816x2x2x2x2_S802816x2x2x2x2_0_2_3_4_1 (ix5 n a b d e) = X (ix5 n e a b d) :=
  transpose_apply _ X _ _ _ (fun i => match i with | ⟨0, _⟩ => rfl | ⟨1, _⟩ => rfl | ⟨2, _⟩ => rfl | ⟨3, _⟩ => rfl | ⟨4, _⟩ => rfl)

/-! ## The two halves along the last axis -/

/-- The half of the array whose last coordinate is 0, as an array of one axis less. -/
def lo (T : T5) : T4 :=
  shapeCast S802816x2x2x2 (extractStridedSlice S802816x2x2x2x1 ![0, 0, 0, 0, 0] T slices_S802816x2x2x2x2_S802816x2x2x2x1_0_0_0_0_0) shapeCasts_S802816x2x2x2x1_S802816x2x2x2
/-- The half whose last coordinate is 1. -/
def hi (T : T5) : T4 :=
  shapeCast S802816x2x2x2 (extractStridedSlice S802816x2x2x2x1 ![0, 0, 0, 0, 1] T slices_S802816x2x2x2x2_S802816x2x2x2x1_0_0_0_0_1) shapeCasts_S802816x2x2x2x1_S802816x2x2x2

theorem lo_apply (T : T5) (n : Fin 802816) (a b d : Fin 2) : lo T (ix4 n a b d) = T (ix5 n a b d 0) := by
  unfold lo
  refine (shapeCast_apply _ _ (ix4 n a b d) (ix5 n a b d (0 : Fin 1)) ?_).trans ?_
  · rw [Shape.rowMajor_val_five, Shape.rowMajor_val_four]
    show (((n.val * 2 + a.val) * 2 + b.val) * 2 + d.val) * 1 + 0 = ((n.val * 2 + a.val) * 2 + b.val) * 2 + d.val
    omega
  · exact extractStridedSlice_apply _ T _ (ix5 n a b d (0 : Fin 1)) (ix5 n a b d 0) (fun i => match i with | ⟨0, _⟩ => by show n.val = 0 + n.val; omega | ⟨1, _⟩ => by show a.val = 0 + a.val; omega | ⟨2, _⟩ => by show b.val = 0 + b.val; omega | ⟨3, _⟩ => by show d.val = 0 + d.val; omega | ⟨4, _⟩ => by show 0 = 0 + 0; omega)

theorem hi_apply (T : T5) (n : Fin 802816) (a b d : Fin 2) : hi T (ix4 n a b d) = T (ix5 n a b d 1) := by
  unfold hi
  refine (shapeCast_apply _ _ (ix4 n a b d) (ix5 n a b d (0 : Fin 1)) ?_).trans ?_
  · rw [Shape.rowMajor_val_five, Shape.rowMajor_val_four]
    show (((n.val * 2 + a.val) * 2 + b.val) * 2 + d.val) * 1 + 0 = ((n.val * 2 + a.val) * 2 + b.val) * 2 + d.val
    omega
  · exact extractStridedSlice_apply _ T _ (ix5 n a b d (0 : Fin 1)) (ix5 n a b d 1) (fun i => match i with | ⟨0, _⟩ => by show n.val = 0 + n.val; omega | ⟨1, _⟩ => by show a.val = 0 + a.val; omega | ⟨2, _⟩ => by show b.val = 0 + b.val; omega | ⟨3, _⟩ => by show d.val = 0 + d.val; omega | ⟨4, _⟩ => by show 1 = 1 + 0; omega)

/-! ## A sample's scalar spread over the amplitudes -/

/-- A per-sample vector as a column [802816, 1, 1, 1]. -/
def col (v : T1) : FVec Ideal S802816x1x1x1 .f32 := broadcastInDim S802816x1x1x1 ![0] bcast_S802816_S802816x1x1x1_0 v

theorem col_apply (v : T1) (n : Fin 802816) : col v (ix4 n 0 0 0) = v (ix1 n) :=
  broadcastInDim_apply _ _ v _ _ (fun i => match i with | ⟨0, _⟩ => rfl)

/-- The column repeated over the eight amplitudes of a half. -/
def spread (C : FVec Ideal S802816x1x1x1 .f32) : T4 :=
  broadcastInDim S802816x2x2x2 ![0, 1, 2, 3] bcast_S802816x1x1x1_S802816x2x2x2_0_1_2_3 C

theorem spread_apply (C : FVec Ideal S802816x1x1x1 .f32) (n : Fin 802816) (a b d : Fin 2) :
    spread C (ix4 n a b d) = C (ix4 n 0 0 0) :=
  broadcastInDim_apply _ _ C _ _ (fun i => match i with | ⟨0, _⟩ => rfl | ⟨1, _⟩ => rfl | ⟨2, _⟩ => rfl | ⟨3, _⟩ => rfl)

/-- A half given a last axis of extent one, to be stacked. -/
def unit5 (X : T4) : FVec Ideal S802816x2x2x2x1 .f32 :=
  broadcastInDim S802816x2x2x2x1 ![0, 1, 2, 3] bcast_S802816x2x2x2_S802816x2x2x2x1_0_1_2_3 X

theorem unit5_apply (X : T4) (n : Fin 802816) (a b d : Fin 2) (z : Fin 1) : unit5 X (ix5 n a b d z) = X (ix4 n a b d) :=
  broadcastInDim_apply _ _ X _ _ (fun i => match i with | ⟨0, _⟩ => rfl | ⟨1, _⟩ => rfl | ⟨2, _⟩ => rfl | ⟨3, _⟩ => rfl)

/-! ## The rotation on the last axis -/

/-- The two halves mixed by the columns `C` (cosines) and `S` (sines) and stacked along the last axis. -/
def core (C S : FVec Ideal S802816x1x1x1 .f32) (X0 X1 : T4) : T5 :=
  concatenate S802816x2x2x2x2 4 [⟨S802816x2x2x2x1, unit5 (subf (mulf (spread C) X0) (mulf (spread S) X1))⟩,
    ⟨S802816x2x2x2x1, unit5 (addf (mulf (spread S) X0) (mulf (spread C) X1))⟩] concatenates_S802816x2x2x2x1_S802816x2x2x2x1_S802816x2x2x2x2_d4

theorem core_apply (C S : FVec Ideal S802816x1x1x1 .f32) (X0 X1 : T4) (n : Fin 802816) (a b d : Fin 2) (e : Bool) :
    core C S X0 X1 (ix5 n a b d (fin e))
      = rot eOps (C (ix4 n 0 0 0)) (S (ix4 n 0 0 0)) (X0 (ix4 n a b d)) (X1 (ix4 n a b d)) e := by
  unfold core
  cases e
  · refine (concatenate_pair_apply_left (s₁ := S802816x2x2x2x1) (s₂ := S802816x2x2x2x1) (4 : Fin 5) _ _ _ (ix5 n a b d (fin false)) rfl (ix5 n a b d (0 : Fin 1))
      (fun i => match i with | ⟨0, _⟩ => rfl | ⟨1, _⟩ => rfl | ⟨2, _⟩ => rfl | ⟨3, _⟩ => rfl | ⟨4, _⟩ => rfl)).trans ?_
    rw [unit5_apply, subf_apply, mulf_apply, mulf_apply, spread_apply, spread_apply]; rfl
  · refine (concatenate_pair_apply_right (s₁ := S802816x2x2x2x1) (s₂ := S802816x2x2x2x1) (4 : Fin 5) _ _ _ (ix5 n a b d (fin true)) rfl rfl (ix5 n a b d (0 : Fin 1))
      (fun i hi => match i, hi with | ⟨0, _⟩, _ => rfl | ⟨1, _⟩, _ => rfl | ⟨2, _⟩, _ => rfl | ⟨3, _⟩, _ => rfl | ⟨4, _⟩, hi => absurd rfl hi) rfl).trans ?_
    rw [unit5_apply, addf_apply, mulf_apply, mulf_apply, spread_apply, spread_apply]; rfl

/-! ## The rotation angle -/

/-- Half the product of feature `k` of every sample and weight (l, k). -/
def angle (k l : Nat) (hP : S802816x4.Slices ![0, k] S802816x1) (hW : S3x4.Slices ![l, k] S1x1)
    (P : FVec Ideal S802816x4 .f32) (W : FVec Ideal S3x4 .f32) : T1 :=
  mulf (broadcastInDim S802816 ![] bcast_S_S802816 (constant S_ .f32 0x3F000000#32))
    (mulf (shapeCast S802816 (extractStridedSlice S802816x1 ![0, k] P hP) shapeCasts_S802816x1_S802816)
      (broadcastInDim S802816 ![] bcast_S_S802816 (shapeCast S_ (extractStridedSlice S1x1 ![l, k] W hW) shapeCasts_S1x1_S_)))

theorem angle_apply (k l : Nat) (hk : k < 4) (hl : l < 3) (hP : S802816x4.Slices ![0, k] S802816x1) (hW : S3x4.Slices ![l, k] S1x1)
    (P : FVec Ideal S802816x4 .f32) (W : FVec Ideal S3x4 .f32) (n : Fin 802816) :
    angle k l hP hW P W (ix1 n) = Ideal.ofBits .f32 0x3F000000#32 * (P (ix2 n ⟨k, hk⟩) * W (ix2 ⟨l, hl⟩ ⟨k, hk⟩)) := by
  unfold angle
  rw [mulf_apply, mulf_apply]
  refine congrArg₂ (· * ·) ?_ (congrArg₂ (· * ·) ?_ ?_)
  · exact (broadcastInDim_apply _ _ _ _ ix0 (fun i => i.elim0)).trans (constant_apply _ _)
  · refine (shapeCast_apply _ _ (ix1 n) (ix2 n (0 : Fin 1)) ?_).trans ?_
    · rw [Shape.rowMajor_val_two, Shape.rowMajor_val_one]
      show n.val * 1 + 0 = n.val
      omega
    · exact extractStridedSlice_apply _ P _ (ix2 n (0 : Fin 1)) (ix2 n ⟨k, hk⟩) (fun i => match i with | ⟨0, _⟩ => by show n.val = 0 + n.val; omega | ⟨1, _⟩ => by show k = k + 0; omega)
  · refine (broadcastInDim_apply _ _ _ _ ix0 (fun i => i.elim0)).trans ?_
    refine (shapeCast_apply _ _ ix0 (ix2 (0 : Fin 1) (0 : Fin 1)) ?_).trans ?_
    · rw [Shape.rowMajor_val_two]
      show 0 * 1 + 0 = _
      exact (Nat.lt_one_iff.mp (S_.rowMajor ix0).isLt).symm
    · exact extractStridedSlice_apply _ W _ (ix2 (0 : Fin 1) (0 : Fin 1)) (ix2 ⟨l, hl⟩ ⟨k, hk⟩) (fun i => match i with | ⟨0, _⟩ => by show l = l + 0; omega | ⟨1, _⟩ => by show k = k + 0; omega)

/-- One rotation on the wire whose bit is the last axis. -/
def ryStep (θ : T1) (T : T5) : T5 := core (col (Host.cos θ)) (col (Host.sin θ)) (lo T) (hi T)

theorem ryStep_apply (θ : T1) (T : T5) (n : Fin 802816) (a b d : Fin 2) (e : Bool) :
    ryStep θ T (ix5 n a b d (fin e))
      = rot eOps (Ideal.cos (θ (ix1 n))) (Ideal.sin (θ (ix1 n))) (T (ix5 n a b d 0)) (T (ix5 n a b d 1)) e := by
  unfold ryStep
  rw [core_apply, col_apply, col_apply, lo_apply, hi_apply]; rfl

/-! ## The two controlled NOTs -/

/-- Control on axis 1, target on axis 2: the half with coordinate 1 on axis 1 is reversed along axis 2. -/
def cnotA (T : T5) : T5 :=
  concatenate S802816x2x2x2x2 1 [⟨S802816x1x2x2x2, (broadcastInDim S802816x1x2x2x2 ![0, 2, 3, 4] bcast_S802816x2x2x2_S802816x1x2x2x2_0_2_3_4 (shapeCast S802816x2x2x2 (extractStridedSlice S802816x1x2x2x2 ![0, 0, 0, 0, 0] T slices_S802816x2x2x2x2_S802816x1x2x2x2_0_0_0_0_0) shapeCasts_S802816x1x2x2x2_S802816x2x2x2))⟩,
    ⟨S802816x1x2x2x2, (broadcastInDim S802816x1x2x2x2 ![0, 2, 3, 4] bcast_S802816x2x2x2_S802816x1x2x2x2_0_2_3_4 (shapeCast S802816x2x2x2 (Host.reverse [2] (extractStridedSlice S802816x1x2x2x2 ![0, 1, 0, 0, 0] T slices_S802816x2x2x2x2_S802816x1x2x2x2_0_1_0_0_0)) shapeCasts_S802816x1x2x2x2_S802816x2x2x2))⟩] concatenates_S802816x1x2x2x2_S802816x1x2x2x2_S802816x2x2x2x2_d1

/-- Control on axis 3, target on axis 4. -/
def cnotB (T : T5) : T5 :=
  concatenate S802816x2x2x2x2 3 [⟨S802816x2x2x1x2, (broadcastInDim S802816x2x2x1x2 ![0, 1, 2, 4] bcast_S802816x2x2x2_S802816x2x2x1x2_0_1_2_4 (shapeCast S802816x2x2x2 (extractStridedSlice S802816x2x2x1x2 ![0, 0, 0, 0, 0] T slices_S802816x2x2x2x2_S802816x2x2x1x2_0_0_0_0_0) shapeCasts_S802816x2x2x1x2_S802816x2x2x2))⟩,
    ⟨S802816x2x2x1x2, (broadcastInDim S802816x2x2x1x2 ![0, 1, 2, 4] bcast_S802816x2x2x2_S802816x2x2x1x2_0_1_2_4 (shapeCast S802816x2x2x2 (Host.reverse [4] (extractStridedSlice S802816x2x2x1x2 ![0, 0, 0, 1, 0] T slices_S802816x2x2x2x2_S802816x2x2x1x2_0_0_0_1_0)) shapeCasts_S802816x2x2x1x2_S802816x2x2x2))⟩] concatenates_S802816x2x2x1x2_S802816x2x2x1x2_S802816x2x2x2x2_d3

theorem reverse2 (X : FVec Ideal S802816x1x2x2x2 .f32) (n : Fin 802816) (z : Fin 1) (b d e : Fin 2) :
    Host.reverse [2] X (ix5 n z b d e) = X (ix5 n z b.rev d e) := by
  unfold Host.reverse
  congr 1; funext i
  match i with | ⟨0, _⟩ => rfl | ⟨1, _⟩ => rfl | ⟨2, _⟩ => rfl | ⟨3, _⟩ => rfl | ⟨4, _⟩ => rfl

theorem reverse4 (X : FVec Ideal S802816x2x2x1x2 .f32) (n : Fin 802816) (a b : Fin 2) (z : Fin 1) (e : Fin 2) :
    Host.reverse [4] X (ix5 n a b z e) = X (ix5 n a b z e.rev) := by
  unfold Host.reverse
  congr 1; funext i
  match i with | ⟨0, _⟩ => rfl | ⟨1, _⟩ => rfl | ⟨2, _⟩ => rfl | ⟨3, _⟩ => rfl | ⟨4, _⟩ => rfl

theorem cnotA_apply (T : T5) (n : Fin 802816) (a : Bool) (b d e : Fin 2) :
    cnotA T (ix5 n (fin a) b d e) = T (ix5 n (fin a) (cond a b.rev b) d e) := by
  unfold cnotA
  cases a
  · refine (concatenate_pair_apply_left (s₁ := S802816x1x2x2x2) (s₂ := S802816x1x2x2x2) (1 : Fin 5) _ _ _ (ix5 n (fin false) b d e) rfl (ix5 n (0 : Fin 1) b d e)
      (fun i => match i with | ⟨0, _⟩ => rfl | ⟨1, _⟩ => rfl | ⟨2, _⟩ => rfl | ⟨3, _⟩ => rfl | ⟨4, _⟩ => rfl)).trans ?_
    refine (broadcastInDim_apply _ _ _ _ (ix4 n b d e) (fun i => match i with | ⟨0, _⟩ => rfl | ⟨1, _⟩ => rfl | ⟨2, _⟩ => rfl | ⟨3, _⟩ => rfl)).trans ?_
    refine (shapeCast_apply _ _ (ix4 n b d e) (ix5 n (0 : Fin 1) b d e) ?_).trans ?_
    · rw [Shape.rowMajor_val_five, Shape.rowMajor_val_four]
      show (((n.val * 1 + 0) * 2 + b.val) * 2 + d.val) * 2 + e.val = ((n.val * 2 + b.val) * 2 + d.val) * 2 + e.val
      omega
    · exact extractStridedSlice_apply _ T _ (ix5 n (0 : Fin 1) b d e) (ix5 n 0 b d e) (fun i => match i with | ⟨0, _⟩ => by show n.val = 0 + n.val; omega | ⟨1, _⟩ => by show 0 = 0 + 0; omega | ⟨2, _⟩ => by show b.val = 0 + b.val; omega | ⟨3, _⟩ => by show d.val = 0 + d.val; omega | ⟨4, _⟩ => by show e.val = 0 + e.val; omega)
  · refine (concatenate_pair_apply_right (s₁ := S802816x1x2x2x2) (s₂ := S802816x1x2x2x2) (1 : Fin 5) _ _ _ (ix5 n (fin true) b d e) rfl rfl (ix5 n (0 : Fin 1) b d e)
      (fun i hi => match i, hi with | ⟨0, _⟩, _ => rfl | ⟨1, _⟩, hi => absurd rfl hi | ⟨2, _⟩, _ => rfl | ⟨3, _⟩, _ => rfl | ⟨4, _⟩, _ => rfl) rfl).trans ?_
    refine (broadcastInDim_apply _ _ _ _ (ix4 n b d e) (fun i => match i with | ⟨0, _⟩ => rfl | ⟨1, _⟩ => rfl | ⟨2, _⟩ => rfl | ⟨3, _⟩ => rfl)).trans ?_
    refine (shapeCast_apply _ _ (ix4 n b d e) (ix5 n (0 : Fin 1) b d e) ?_).trans ?_
    · rw [Shape.rowMajor_val_five, Shape.rowMajor_val_four]
      show (((n.val * 1 + 0) * 2 + b.val) * 2 + d.val) * 2 + e.val = ((n.val * 2 + b.val) * 2 + d.val) * 2 + e.val
      omega
    · rw [reverse2]
      exact extractStridedSlice_apply _ T _ (ix5 n (0 : Fin 1) b.rev d e) (ix5 n 1 b.rev d e) (fun i => match i with | ⟨0, _⟩ => by show n.val = 0 + n.val; omega | ⟨1, _⟩ => by show 1 = 1 + 0; omega | ⟨2, _⟩ => by show b.rev.val = 0 + b.rev.val; omega | ⟨3, _⟩ => by show d.val = 0 + d.val; omega | ⟨4, _⟩ => by show e.val = 0 + e.val; omega)

theorem cnotB_apply (T : T5) (n : Fin 802816) (a b : Fin 2) (d : Bool) (e : Fin 2) :
    cnotB T (ix5 n a b (fin d) e) = T (ix5 n a b (fin d) (cond d e.rev e)) := by
  unfold cnotB
  cases d
  · refine (concatenate_pair_apply_left (s₁ := S802816x2x2x1x2) (s₂ := S802816x2x2x1x2) (3 : Fin 5) _ _ _ (ix5 n a b (fin false) e) rfl (ix5 n a b (0 : Fin 1) e)
      (fun i => match i with | ⟨0, _⟩ => rfl | ⟨1, _⟩ => rfl | ⟨2, _⟩ => rfl | ⟨3, _⟩ => rfl | ⟨4, _⟩ => rfl)).trans ?_
    refine (broadcastInDim_apply _ _ _ _ (ix4 n a b e) (fun i => match i with | ⟨0, _⟩ => rfl | ⟨1, _⟩ => rfl | ⟨2, _⟩ => rfl | ⟨3, _⟩ => rfl)).trans ?_
    refine (shapeCast_apply _ _ (ix4 n a b e) (ix5 n a b (0 : Fin 1) e) ?_).trans ?_
    · rw [Shape.rowMajor_val_five, Shape.rowMajor_val_four]
      show (((n.val * 2 + a.val) * 2 + b.val) * 1 + 0) * 2 + e.val = ((n.val * 2 + a.val) * 2 + b.val) * 2 + e.val
      omega
    · exact extractStridedSlice_apply _ T _ (ix5 n a b (0 : Fin 1) e) (ix5 n a b 0 e) (fun i => match i with | ⟨0, _⟩ => by show n.val = 0 + n.val; omega | ⟨1, _⟩ => by show a.val = 0 + a.val; omega | ⟨2, _⟩ => by show b.val = 0 + b.val; omega | ⟨3, _⟩ => by show 0 = 0 + 0; omega | ⟨4, _⟩ => by show e.val = 0 + e.val; omega)
  · refine (concatenate_pair_apply_right (s₁ := S802816x2x2x1x2) (s₂ := S802816x2x2x1x2) (3 : Fin 5) _ _ _ (ix5 n a b (fin true) e) rfl rfl (ix5 n a b (0 : Fin 1) e)
      (fun i hi => match i, hi with | ⟨0, _⟩, _ => rfl | ⟨1, _⟩, _ => rfl | ⟨2, _⟩, _ => rfl | ⟨3, _⟩, hi => absurd rfl hi | ⟨4, _⟩, _ => rfl) rfl).trans ?_
    refine (broadcastInDim_apply _ _ _ _ (ix4 n a b e) (fun i => match i with | ⟨0, _⟩ => rfl | ⟨1, _⟩ => rfl | ⟨2, _⟩ => rfl | ⟨3, _⟩ => rfl)).trans ?_
    refine (shapeCast_apply _ _ (ix4 n a b e) (ix5 n a b (0 : Fin 1) e) ?_).trans ?_
    · rw [Shape.rowMajor_val_five, Shape.rowMajor_val_four]
      show (((n.val * 2 + a.val) * 2 + b.val) * 1 + 0) * 2 + e.val = ((n.val * 2 + a.val) * 2 + b.val) * 2 + e.val
      omega
    · rw [reverse4]
      exact extractStridedSlice_apply _ T _ (ix5 n a b (0 : Fin 1) e.rev) (ix5 n a b 1 e.rev) (fun i => match i with | ⟨0, _⟩ => by show n.val = 0 + n.val; omega | ⟨1, _⟩ => by show a.val = 0 + a.val; omega | ⟨2, _⟩ => by show b.val = 0 + b.val; omega | ⟨3, _⟩ => by show 1 = 1 + 0; omega | ⟨4, _⟩ => by show e.rev.val = 0 + e.rev.val; omega)

theorem fin_rev (b : Bool) : (fin b).rev = fin (!b) := by cases b <;> rfl

/-! ## One layer on the array -/

/-- The rotation on wire 0: its bit is the last axis on entry; on exit wire 1's bit is. -/
def step0 (θ : T1) (T : T5) : T5 :=
  transpose S802816x2x2x2x2 [0, 1, 3, 4, 2] (transpose S802816x2x2x2x2 [0, 4, 1, 2, 3] (ryStep θ T) transposes_S802816x2x2x2x2_S802816x2x2x2x2_0_4_1_2_3) transposes_S802816x2x2x2x2_S802816x2x2x2x2_0_1_3_4_2
/-- The rotation on wire 1; on exit wire 2's bit is the last axis. -/
def step1 (θ : T1) (T : T5) : T5 :=
  transpose S802816x2x2x2x2 [0, 1, 2, 4, 3] (transpose S802816x2x2x2x2 [0, 1, 4, 2, 3] (ryStep θ T) transposes_S802816x2x2x2x2_S802816x2x2x2x2_0_1_4_2_3) transposes_S802816x2x2x2x2_S802816x2x2x2x2_0_1_2_4_3
/-- The rotation on wire 2; on exit the axes are in wire order. -/
def step2 (θ : T1) (T : T5) : T5 :=
  transpose S802816x2x2x2x2 [0, 1, 2, 4, 3] (ryStep θ T) transposes_S802816x2x2x2x2_S802816x2x2x2x2_0_1_2_4_3

/-- One layer: the four rotations and the two controlled NOTs; wire 0's bit is the last axis on entry, the axes are in
    wire order on exit. -/
def layerT (θ0 θ1 θ2 θ3 : T1) (T : T5) : T5 := cnotB (cnotA (ryStep θ3 (step2 θ2 (step1 θ1 (step0 θ0 T)))))

theorem cond_rev (a b : Bool) : cond a (fin b).rev (fin b) = fin (xor a b) := by cases a <;> cases b <;> rfl

/-- If the entry array holds the amplitudes `A` of sample `n` (wire 0's bit last), the exit array holds the layer's. -/
theorem layerT_apply (θ0 θ1 θ2 θ3 : T1) (T : T5) (n : Fin 802816) (A : Amp EReal)
    (hT : ∀ a b d e : Bool, T (ix5 n (fin b) (fin d) (fin e) (fin a)) = A a b d e) (a b d e : Bool) :
    layerT θ0 θ1 θ2 θ3 T (ix5 n (fin a) (fin b) (fin d) (fin e))
      = layer eOps (Ideal.cos (θ0 (ix1 n))) (Ideal.sin (θ0 (ix1 n))) (Ideal.cos (θ1 (ix1 n))) (Ideal.sin (θ1 (ix1 n)))
          (Ideal.cos (θ2 (ix1 n))) (Ideal.sin (θ2 (ix1 n))) (Ideal.cos (θ3 (ix1 n))) (Ideal.sin (θ3 (ix1 n))) A a b d e := by
  have h0 : ∀ a b d e : Bool, step0 θ0 T (ix5 n (fin a) (fin d) (fin e) (fin b))
      = ry0 eOps (Ideal.cos (θ0 (ix1 n))) (Ideal.sin (θ0 (ix1 n))) A a b d e := by
    intro a b d e
    unfold step0
    rw [tr_0_1_3_4_2, tr_0_4_1_2_3, ryStep_apply,
      show T (ix5 n (fin b) (fin d) (fin e) 0) = A false b d e from hT false b d e,
      show T (ix5 n (fin b) (fin d) (fin e) 1) = A true b d e from hT true b d e]
    rfl
  have h1 : ∀ a b d e : Bool, step1 θ1 (step0 θ0 T) (ix5 n (fin a) (fin b) (fin e) (fin d))
      = ry1 eOps (Ideal.cos (θ1 (ix1 n))) (Ideal.sin (θ1 (ix1 n))) (ry0 eOps (Ideal.cos (θ0 (ix1 n))) (Ideal.sin (θ0 (ix1 n))) A) a b d e := by
    intro a b d e
    unfold step1
    rw [tr_0_1_2_4_3, tr_0_1_4_2_3, ryStep_apply,
      show step0 θ0 T (ix5 n (fin a) (fin d) (fin e) 0) = _ from h0 a false d e,
      show step0 θ0 T (ix5 n (fin a) (fin d) (fin e) 1) = _ from h0 a true d e]
    rfl
  have h2 : ∀ a b d e : Bool, step2 θ2 (step1 θ1 (step0 θ0 T)) (ix5 n (fin a) (fin b) (fin d) (fin e))
      = ry2 eOps (Ideal.cos (θ2 (ix1 n))) (Ideal.sin (θ2 (ix1 n))) (ry1 eOps (Ideal.cos (θ1 (ix1 n))) (Ideal.sin (θ1 (ix1 n))) (ry0 eOps (Ideal.cos (θ0 (ix1 n))) (Ideal.sin (θ0 (ix1 n))) A)) a b d e := by
    intro a b d e
    unfold step2
    rw [tr_0_1_2_4_3, ryStep_apply,
      show step1 θ1 (step0 θ0 T) (ix5 n (fin a) (fin b) (fin e) 0) = _ from h1 a b false e,
      show step1 θ1 (step0 θ0 T) (ix5 n (fin a) (fin b) (fin e) 1) = _ from h1 a b true e]
    rfl
  have h3 : ∀ a b d e : Bool, ryStep θ3 (step2 θ2 (step1 θ1 (step0 θ0 T))) (ix5 n (fin a) (fin b) (fin d) (fin e))
      = ry3 eOps (Ideal.cos (θ3 (ix1 n))) (Ideal.sin (θ3 (ix1 n))) (ry2 eOps (Ideal.cos (θ2 (ix1 n))) (Ideal.sin (θ2 (ix1 n))) (ry1 eOps (Ideal.cos (θ1 (ix1 n))) (Ideal.sin (θ1 (ix1 n))) (ry0 eOps (Ideal.cos (θ0 (ix1 n))) (Ideal.sin (θ0 (ix1 n))) A))) a b d e := by
    intro a b d e
    rw [ryStep_apply,
      show step2 θ2 (step1 θ1 (step0 θ0 T)) (ix5 n (fin a) (fin b) (fin d) 0) = _ from h2 a b d false,
      show step2 θ2 (step1 θ1 (step0 θ0 T)) (ix5 n (fin a) (fin b) (fin d) 1) = _ from h2 a b d true]
    rfl
  unfold layerT
  rw [cnotB_apply, cond_rev, cnotA_apply, cond_rev, h3]
  rfl

end Cert.ReferenceIdeal.RefOps

end
-- ==== Proof.LibHostRead.lean ====
/-
  General lemmas: three host operations read at an index (reverse, a sum over three axes, a one-row scatter).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

open scoped BigOperators
open Idealize.ShloMosaic Idealize.ShloMosaic.ValueIdx

namespace Cert.LibHostRead

/-! ## Reverse -/

/-- Reversing a rank-5 array of extents `[N,1,2,2,2]` along axis 2 reads the operand with the third coordinate
    mirrored (`b ↦ 1 - b`) and the other coordinates unchanged. -/
theorem reverse_axis2_apply {N : Nat} {α : Type} (x : (⟨5, ![N, 1, 2, 2, 2]⟩ : Shape).Idx → α)
    (n : Fin N) (a : Fin 1) (b c e : Fin 2) :
    Host.reverse (s := ⟨5, ![N, 1, 2, 2, 2]⟩) [2] x (ix5 n a b c e) = x (ix5 n a b.rev c e) := by
  unfold Host.reverse
  congr 1
  funext f
  match f with
  | ⟨0, _⟩ => rfl
  | ⟨1, _⟩ => rfl
  | ⟨2, _⟩ => rfl
  | ⟨3, _⟩ => rfl
  | ⟨4, _⟩ => rfl

/-- Reversing a rank-5 array of extents `[N,2,2,1,2]` along axis 4 reads the operand with the last coordinate
    mirrored (`e ↦ 1 - e`) and the other coordinates unchanged. -/
theorem reverse_axis4_apply {N : Nat} {α : Type} (x : (⟨5, ![N, 2, 2, 1, 2]⟩ : Shape).Idx → α)
    (n : Fin N) (a b : Fin 2) (c : Fin 1) (e : Fin 2) :
    Host.reverse (s := ⟨5, ![N, 2, 2, 1, 2]⟩) [4] x (ix5 n a b c e) = x (ix5 n a b c e.rev) := by
  unfold Host.reverse
  congr 1
  funext f
  match f with
  | ⟨0, _⟩ => rfl
  | ⟨1, _⟩ => rfl
  | ⟨2, _⟩ => rfl
  | ⟨3, _⟩ => rfl
  | ⟨4, _⟩ => rfl

/-! ## A host sum over the three trailing axes -/

/-- Summing an `[N,2,2,2]` array over its three trailing axes: the result at `n` is the initial value plus
    the eight elements of row `n`, in lexicographic order. -/
theorem hostReduceAdd_axes123 {N : Nat}
    (h : (⟨4, ![N, 2, 2, 2]⟩ : Shape).ReducesTo [1, 2, 3] ⟨1, ![N]⟩)
    (x : (⟨4, ![N, 2, 2, 2]⟩ : Shape).Idx → EReal) (init : EReal) (n : Fin N) :
    Ideal.hostReduceAdd h x init (ix1 n)
      = init + (x (ix4 n 0 0 0) + x (ix4 n 0 0 1) + x (ix4 n 0 1 0) + x (ix4 n 0 1 1)
          + x (ix4 n 1 0 0) + x (ix4 n 1 0 1) + x (ix4 n 1 1 0) + x (ix4 n 1 1 1)) := by
  unfold Ideal.hostReduceAdd
  congr 1
  -- an index reduces to `n` exactly when its leading coordinate is `n`
  have hset : ∀ i : (⟨4, ![N, 2, 2, 2]⟩ : Shape).Idx, h.drop i = ix1 n ↔ i 0 = n := by
    intro i
    have hd : (h.drop i 0 : Nat) = i 0 := rfl
    constructor
    · intro hh
      apply Fin.ext
      rw [← hd, hh]
      rfl
    · intro hh
      funext b
      match b with
      | ⟨0, _⟩ => exact Fin.ext (hd.trans (by rw [hh]))
  -- the indices reducing to `n` are in bijection with the triples of trailing coordinates
  have hsum : ∑ i ∈ Finset.univ.filter (fun i => h.drop i = ix1 n), x i
      = ∑ p : Fin 2 × Fin 2 × Fin 2, x (ix4 n p.1 p.2.1 p.2.2) := by
    refine Finset.sum_nbij' (fun i => (i 1, i 2, i 3)) (fun p => ix4 n p.1 p.2.1 p.2.2) ?_ ?_ ?_ ?_ ?_
    · intro i _; exact Finset.mem_univ _
    · intro p _
      simp only [Finset.mem_filter, Finset.mem_univ, true_and]
      exact (hset _).2 rfl
    · intro i hi
      simp only [Finset.mem_filter, Finset.mem_univ, true_and] at hi
      have h0 : i 0 = n := (hset i).1 hi
      subst h0
      exact (eq_ix4 i).symm
    · intro p _; rfl
    · intro i hi
      simp only [Finset.mem_filter, Finset.mem_univ, true_and] at hi
      have h0 : i 0 = n := (hset i).1 hi
      subst h0
      exact congrArg x (eq_ix4 i)
  rw [hsum]
  simp only [Fintype.sum_prod_type, Fin.sum_univ_two, add_assoc]

/-- The same sum in the program's spelling: the host's float `reduce` with `add` from a rank-0 initial array
    `v`, at the ideal instance, is `v`'s element plus the eight elements of row `n`. -/
theorem reduceAdd_axes123 {N : Nat} {φ : FTy} (x : FVec Ideal ⟨4, ![N, 2, 2, 2]⟩ φ)
    (v : (⟨0, ![]⟩ : Shape).Idx → Ideal φ)
    (h : (⟨4, ![N, 2, 2, 2]⟩ : Shape).ReducesTo [1, 2, 3] ⟨1, ![N]⟩)
    (hu : 0 < (⟨0, ![]⟩ : Shape).numel) (n : Fin N) :
    Host.reduceAdd (F := Ideal) x v h hu (ix1 n)
      = v ix0 + (x (ix4 n 0 0 0) + x (ix4 n 0 0 1) + x (ix4 n 0 1 0) + x (ix4 n 0 1 1)
          + x (ix4 n 1 0 0) + x (ix4 n 1 0 1) + x (ix4 n 1 1 0) + x (ix4 n 1 1 1)) := by
  change Ideal.hostReduceAdd h x (v (Shape.Idx.first hu)) (ix1 n) = _
  rw [eq_ix0 (Shape.Idx.first hu)]
  exact hostReduceAdd_axes123 h x (v ix0) n

/-! ## A scatter that sets one row -/

/-- A left fold of point updates `r ↦ (i' ↦ if i' = tgt n then upd n else r i')` leaves a position that no update
    targets at its initial value. -/
theorem foldl_set_apply_of_not_mem {ι κ α : Type} [DecidableEq ι] (tgt : κ → ι) (upd : κ → α) (x : ι → α)
    (l : List κ) (i' : ι) (h : ∀ m ∈ l, tgt m ≠ i') :
    l.foldl (fun r n => fun i'' => if i'' = tgt n then upd n else r i'') x i' = x i' := by
  induction l using List.reverseRecOn with
  | nil => rfl
  | append_singleton l n ih =>
    rw [List.foldl_append, List.foldl_cons, List.foldl_nil]
    have hn : i' ≠ tgt n := fun e => h n (by simp) e.symm
    show (if i' = tgt n then upd n else _) = x i'
    rw [if_neg hn]
    exact ih (fun m hm => h m (by simp [hm]))

/-- When the targets are pairwise distinct (the target map is injective), the fold's value at the target of an
    update in the list is that update. -/
theorem foldl_set_apply_of_mem {ι κ α : Type} [DecidableEq ι] (tgt : κ → ι) (hinj : Function.Injective tgt)
    (upd : κ → α) (x : ι → α) (l : List κ) (m : κ) (hm : m ∈ l) :
    l.foldl (fun r n => fun i'' => if i'' = tgt n then upd n else r i'') x (tgt m) = upd m := by
  induction l using List.reverseRecOn with
  | nil => cases hm
  | append_singleton l n ih =>
    rw [List.foldl_append, List.foldl_cons, List.foldl_nil]
    show (if tgt m = tgt n then upd n else _) = upd m
    by_cases hmn : m = n
    · subst hmn; rw [if_pos rfl]
    · rw [if_neg (fun e => hmn (hinj e))]
      refine ih ?_
      rcases List.mem_append.1 hm with h | h
      · exact h
      · exact absurd (List.mem_singleton.1 h) hmn

/-- With window axis 0 of the updates going to operand axis 0, the four trailing operand axes inserted and every
    start index zero, update index `j` lands at `(j, 0, 0, 0, 0)`. -/
theorem resultIdx_row {N : Nat}
    (hwf : ScatterDims.WF ⟨5, ![N, 2, 2, 2, 2]⟩ ⟨1, ![4]⟩ ⟨1, ![N]⟩ [0] [1, 2, 3, 4] [1, 2, 3, 4] 0)
    (idx : IVec ⟨1, ![4]⟩ 32) (hidx : ∀ k, idx k = 0#32) (j : (⟨1, ![N]⟩ : Shape).Idx) :
    ScatterDims.resultIdx? (s := ⟨5, ![N, 2, 2, 2, 2]⟩) (si := ⟨1, ![4]⟩) (u := ⟨1, ![N]⟩)
      { updateWindowDims := [0], insertedWindowDims := [1, 2, 3, 4], scatterDimsToOperandDims := [1, 2, 3, 4],
        indexVectorDim := 0, wf := hwf } j idx
      = some (ix5 (n0 := N) (j 0) 0 0 0 0) := by
  have hstart : ∀ a, ScatterDims.start (s := ⟨5, ![N, 2, 2, 2, 2]⟩) (si := ⟨1, ![4]⟩) (u := ⟨1, ![N]⟩)
      { updateWindowDims := [0], insertedWindowDims := [1, 2, 3, 4], scatterDimsToOperandDims := [1, 2, 3, 4],
        indexVectorDim := 0, wf := hwf } j idx a = 0 := by
    intro a
    unfold ScatterDims.start
    split_ifs with ha
    · rw [hidx]; rfl
    · rfl
  have hwin : ∀ a : Fin 5, ScatterDims.window (s := ⟨5, ![N, 2, 2, 2, 2]⟩) (si := ⟨1, ![4]⟩) (u := ⟨1, ![N]⟩)
      { updateWindowDims := [0], insertedWindowDims := [1, 2, 3, 4], scatterDimsToOperandDims := [1, 2, 3, 4],
        indexVectorDim := 0, wf := hwf } j a = if a = 0 then (j 0).val else 0 := by
    intro a
    match a with
    | ⟨0, _⟩ => rfl
    | ⟨1, _⟩ => rfl
    | ⟨2, _⟩ => rfl
    | ⟨3, _⟩ => rfl
    | ⟨4, _⟩ => rfl
  unfold ScatterDims.resultIdx?
  have hj : (j 0).val < N := (j 0).isLt
  rw [dif_pos (by
    intro a
    rw [hstart, hwin]
    match a with
    | ⟨0, _⟩ => exact ⟨by simp, by simpa using hj⟩
    | ⟨1, _⟩ => exact ⟨by simp, by simp⟩
    | ⟨2, _⟩ => exact ⟨by simp, by simp⟩
    | ⟨3, _⟩ => exact ⟨by simp, by simp⟩
    | ⟨4, _⟩ => exact ⟨by simp, by simp⟩)]
  congr 1
  funext a
  apply Fin.ext
  simp only [hstart, hwin]
  match a with
  | ⟨0, _⟩ => simp
  | ⟨1, _⟩ => simp
  | ⟨2, _⟩ => simp
  | ⟨3, _⟩ => simp
  | ⟨4, _⟩ => simp

/-- A scatter whose body keeps the update, when every update index lands inside the operand, at `tgt j`, and
    distinct update indices land at distinct positions: the result is the update `upd j` at `tgt j`, and the
    operand at every position that is no update's target. -/
theorem scatter_set_apply_of_total {s si u : Shape} {w : Nat} {α : Type} (d : ScatterDims s si u)
    (x : s.Idx → α) (idx : IVec si w) (upd : u.Idx → α) (tgt : u.Idx → s.Idx)
    (htgt : ∀ j, d.resultIdx? j idx = some (tgt j)) (hinj : Function.Injective tgt) :
    (∀ j, Host.scatter d (fun _ b => b) x idx upd (tgt j) = upd j)
      ∧ (∀ i', (∀ j, tgt j ≠ i') → Host.scatter d (fun _ b => b) x idx upd i' = x i') := by
  have hfold : Host.scatter d (fun _ b => b) x idx upd
      = (List.finRange u.numel).foldl (fun r m => fun i'' =>
          if i'' = tgt (u.rowMajor.symm m) then upd (u.rowMajor.symm m) else r i'') x := by
    unfold Host.scatter
    refine congrArg (fun F => List.foldl F x (List.finRange u.numel)) ?_
    funext r m
    rw [htgt]
  constructor
  · intro j
    rw [hfold]
    have h1 := foldl_set_apply_of_mem (fun m => tgt (u.rowMajor.symm m))
      (hinj.comp u.rowMajor.symm.injective) (fun m => upd (u.rowMajor.symm m)) x
      (List.finRange u.numel) (u.rowMajor j) (List.mem_finRange _)
    simp only [Equiv.symm_apply_apply] at h1
    exact h1
  · intro i' hi'
    rw [hfold]
    exact foldl_set_apply_of_not_mem (fun m => tgt (u.rowMajor.symm m)) (fun m => upd (u.rowMajor.symm m)) x
      (List.finRange u.numel) i' (fun m _ => hi' _)

/-- Setting the row `[:, 0, 0, 0, 0]` of an `[N,2,2,2,2]` array to the length-`N` update (window axis 0 onto operand
    axis 0, the four trailing axes inserted at start index zero): the result is the update's element `n` at
    `(n, 0, 0, 0, 0)` and the operand everywhere else. -/
theorem scatter_row_apply {N : Nat} {α : Type}
    (hwf : ScatterDims.WF ⟨5, ![N, 2, 2, 2, 2]⟩ ⟨1, ![4]⟩ ⟨1, ![N]⟩ [0] [1, 2, 3, 4] [1, 2, 3, 4] 0)
    (x : (⟨5, ![N, 2, 2, 2, 2]⟩ : Shape).Idx → α) (idx : IVec ⟨1, ![4]⟩ 32) (hidx : ∀ k, idx k = 0#32)
    (upd : (⟨1, ![N]⟩ : Shape).Idx → α) (n : Fin N) (a b c e : Fin 2) :
    Host.scatter (s := ⟨5, ![N, 2, 2, 2, 2]⟩) (si := ⟨1, ![4]⟩) (u := ⟨1, ![N]⟩)
      { updateWindowDims := [0], insertedWindowDims := [1, 2, 3, 4], scatterDimsToOperandDims := [1, 2, 3, 4],
        indexVectorDim := 0, wf := hwf } (fun _ b => b) x idx upd (ix5 n a b c e)
      = if a = 0 ∧ b = 0 ∧ c = 0 ∧ e = 0 then upd (ix1 n) else x (ix5 n a b c e) := by
  have hinj : Function.Injective
      (fun j : (⟨1, ![N]⟩ : Shape).Idx => ix5 (n0 := N) (n1 := 2) (n2 := 2) (n3 := 2) (n4 := 2) (j 0) 0 0 0 0) := by
    intro j j' hjj
    have h0 : j 0 = j' 0 := congrFun hjj 0
    rw [eq_ix1 j, eq_ix1 j', h0]
  obtain ⟨hhit, hmiss⟩ := scatter_set_apply_of_total
    (s := ⟨5, ![N, 2, 2, 2, 2]⟩) (si := ⟨1, ![4]⟩) (u := ⟨1, ![N]⟩)
    { updateWindowDims := [0], insertedWindowDims := [1, 2, 3, 4], scatterDimsToOperandDims := [1, 2, 3, 4],
      indexVectorDim := 0, wf := hwf } x idx upd _ (resultIdx_row hwf idx hidx) hinj
  split_ifs with hz
  · obtain ⟨rfl, rfl, rfl, rfl⟩ := hz
    exact hhit (ix1 n)
  · refine hmiss _ (fun j hj => hz ?_)
    exact ⟨(congrFun hj 1).symm, (congrFun hj 2).symm, (congrFun hj 3).symm, (congrFun hj 4).symm⟩

/-- The same for any dimension numbers with these four fields. -/
theorem scatter_row_apply' {N : Nat} {α : Type}
    (d : ScatterDims ⟨5, ![N, 2, 2, 2, 2]⟩ ⟨1, ![4]⟩ ⟨1, ![N]⟩)
    (hw : d.updateWindowDims = [0]) (hi : d.insertedWindowDims = [1, 2, 3, 4])
    (hs : d.scatterDimsToOperandDims = [1, 2, 3, 4]) (hv : d.indexVectorDim = 0)
    (x : (⟨5, ![N, 2, 2, 2, 2]⟩ : Shape).Idx → α) (idx : IVec ⟨1, ![4]⟩ 32) (hidx : ∀ k, idx k = 0#32)
    (upd : (⟨1, ![N]⟩ : Shape).Idx → α) (n : Fin N) (a b c e : Fin 2) :
    Host.scatter d (fun _ b => b) x idx upd (ix5 n a b c e)
      = if a = 0 ∧ b = 0 ∧ c = 0 ∧ e = 0 then upd (ix1 n) else x (ix5 n a b c e) := by
  obtain ⟨uw, iw, sd, iv, wf⟩ := d
  simp only at hw hi hs hv
  subst hw hi hs hv
  exact scatter_row_apply wf x idx hidx upd n a b c e

end Cert.LibHostRead
-- ==== Proof.RefInit.lean ====
/-
  The reference's initial state read at an index: the scatter that sets the row of amplitude 0000 to one in an array
  of zeros, seen through the axis permutation that moves wire 0's bit to the last axis.
-/
import proofs.«106929_j65481071405125_1_alg».proof.Proof.Gen.ReferenceIdeal.Run
import proofs.«106929_j65481071405125_1_alg».proof.Proof.RefOps
import proofs.«106929_j65481071405125_1_alg».proof.Proof.LibHostRead
import proofs.«106929_j65481071405125_1_alg».proof.Proof.Sample

set_option maxRecDepth 16384

noncomputable section

namespace Cert.ReferenceIdeal.RefInit

open Cert.ReferenceIdeal Cert.ReferenceIdeal.Gen Cert.ReferenceIdeal.Value Idealize.ShloMosaic Idealize.ShloMosaic.ValueIdx

/-- The scatter's index vector, four zero words side by side, is zero at every position. -/
theorem idx_zero (k : S4.Idx) :
    concatenate S4 0 [⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩] concatenates_S1_S1_S1_S1_S4_d0 k = 0#32 := by
  have hpiece : ∀ (w : Nat) (hw : w < 4) (k : S4.Idx), (k 0).val = w →
      concatenate S4 0 [⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩] concatenates_S1_S1_S1_S1_S4_d0 k = 0#32 := by
    intro w hw k hkw
    refine (concatenate_apply_piece (α := BitVec 32) (t := S4) (0 : Fin 1)
      [⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩, ⟨S1, (broadcastInDim S1 ![] bcast_S_S1 (constantI S_ 32 0#32))⟩]
      concatenates_S1_S1_S1_S1_S4_d0 k w hw S1 (broadcastInDim S1 ![] bcast_S_S1 (constantI S_ 32 0#32)) ?_ rfl w ?_
      (ix1 0) (fun b hb => absurd (Subsingleton.elim _ _) hb) ?_).trans rfl
    · match w, hw with
      | 0, _ => rfl
      | 1, _ => rfl
      | 2, _ => rfl
      | 3, _ => rfl
    · match w, hw with
      | 0, _ => rfl
      | 1, _ => rfl
      | 2, _ => rfl
      | 3, _ => rfl
    · show w + 0 = (k 0).val
      omega
  exact hpiece (k 0).val (k 0).isLt k rfl

/-- The reference's initial state: one at amplitude 0000 of every sample, zero at the other fifteen. The array's last
    axis is wire 0's bit, its axes 1 to 3 the bits of wires 1 to 3. -/
theorem res18_apply (V0 : Valuation τ sig (Elt Ideal)) (n : Fin 802816) (a b d e : Bool) :
    res_main_v18 (F := Ideal) V0 (ix5 n (RefOps.fin b) (RefOps.fin d) (RefOps.fin e) (RefOps.fin a))
      = Cert.Circuit.init Cert.Sample.zero Cert.Sample.one a b d e := by
  unfold res_main_v18
  rw [RefOps.tr_0_2_3_4_1]
  refine (Cert.LibHostRead.scatter_row_apply' scatter_S802816x2x2x2x2_S4_S802816_0_1234_1234_0 rfl rfl rfl rfl
    _ _ idx_zero _ n _ _ _ _).trans ?_
  cases a <;> cases b <;> cases d <;> cases e
  · rw [if_pos ⟨rfl, rfl, rfl, rfl⟩]; rfl
  all_goals (rw [if_neg (by decide)]; rfl)

end Cert.ReferenceIdeal.RefInit
-- ==== Proof.LibObservable.lean ====
/-
  The reference's last stage read at an index: each wire's column (the difference of the two slices of the squared
  amplitudes along that wire's axis, summed over the other three wires) and the four columns side by side plus `P`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«106929_j65481071405125_1_alg».proof.Proof.LibHostRead

open scoped BigOperators
open Idealize.ShloMosaic Idealize.ShloMosaic.ValueIdx

namespace Cert.LibObservable

/-! ## A slice of one wire's axis, with the unit axis dropped, read at an index -/

section SliceCast
variable {N : Nat} {α : Type}

/-- The slice of `Q` at coordinate `a` of axis 1, its unit axis dropped, reads `Q` at `(n, a, b, d, e)`. -/
theorem sliceCast0_apply (a : Fin 2) (off : Fin 5 → Nat) (hoff : off = ![0, a.val, 0, 0, 0])
    (Q : (⟨5, ![N, 2, 2, 2, 2]⟩ : Shape).Idx → α)
    (hs : (⟨5, ![N, 2, 2, 2, 2]⟩ : Shape).Slices off ⟨5, ![N, 1, 2, 2, 2]⟩)
    (hc : (⟨5, ![N, 1, 2, 2, 2]⟩ : Shape).ShapeCasts ⟨4, ![N, 2, 2, 2]⟩) (n : Fin N) (b d e : Fin 2) :
    shapeCast ⟨4, ![N, 2, 2, 2]⟩ (extractStridedSlice ⟨5, ![N, 1, 2, 2, 2]⟩ off Q hs) hc (ix4 n b d e)
      = Q (ix5 n a b d e) := by
  subst hoff
  refine (shapeCast_apply _ hc (ix4 n b d e) (ix5 n 0 b d e) ?_).trans ?_
  · rw [Shape.rowMajor_val_five, Shape.rowMajor_val_four]
    show (((n.val * 1 + 0) * 2 + b.val) * 2 + d.val) * 2 + e.val = ((n.val * 2 + b.val) * 2 + d.val) * 2 + e.val
    omega
  · refine extractStridedSlice_apply _ Q hs (ix5 n 0 b d e) (ix5 n a b d e) (fun i => ?_)
    match i with
    | ⟨0, _⟩ => show n.val = 0 + n.val; omega
    | ⟨1, _⟩ => show a.val = a.val + 0; omega
    | ⟨2, _⟩ => show b.val = 0 + b.val; omega
    | ⟨3, _⟩ => show d.val = 0 + d.val; omega
    | ⟨4, _⟩ => show e.val = 0 + e.val; omega

/-- The slice of `Q` at coordinate `b` of axis 2, its unit axis dropped, reads `Q` at `(n, a, b, d, e)`. -/
theorem sliceCast1_apply (b : Fin 2) (off : Fin 5 → Nat) (hoff : off = ![0, 0, b.val, 0, 0])
    (Q : (⟨5, ![N, 2, 2, 2, 2]⟩ : Shape).Idx → α)
    (hs : (⟨5, ![N, 2, 2, 2, 2]⟩ : Shape).Slices off ⟨5, ![N, 2, 1, 2, 2]⟩)
    (hc : (⟨5, ![N, 2, 1, 2, 2]⟩ : Shape).ShapeCasts ⟨4, ![N, 2, 2, 2]⟩) (n : Fin N) (a d e : Fin 2) :
    shapeCast ⟨4, ![N, 2, 2, 2]⟩ (extractStridedSlice ⟨5, ![N, 2, 1, 2, 2]⟩ off Q hs) hc (ix4 n a d e)
      = Q (ix5 n a b d e) := by
  subst hoff
  refine (shapeCast_apply _ hc (ix4 n a d e) (ix5 n a 0 d e) ?_).trans ?_
  · rw [Shape.rowMajor_val_five, Shape.rowMajor_val_four]
    show (((n.val * 2 + a.val) * 1 + 0) * 2 + d.val) * 2 + e.val = ((n.val * 2 + a.val) * 2 + d.val) * 2 + e.val
    omega
  · refine extractStridedSlice_apply _ Q hs (ix5 n a 0 d e) (ix5 n a b d e) (fun i => ?_)
    match i with
    | ⟨0, _⟩ => show n.val = 0 + n.val; omega
    | ⟨1, _⟩ => show a.val = 0 + a.val; omega
    | ⟨2, _⟩ => show b.val = b.val + 0; omega
    | ⟨3, _⟩ => show d.val = 0 + d.val; omega
    | ⟨4, _⟩ => show e.val = 0 + e.val; omega

/-- The slice of `Q` at coordinate `d` of axis 3, its unit axis dropped, reads `Q` at `(n, a, b, d, e)`. -/
theorem sliceCast2_apply (d : Fin 2) (off : Fin 5 → Nat) (hoff : off = ![0, 0, 0, d.val, 0])
    (Q : (⟨5, ![N, 2, 2, 2, 2]⟩ : Shape).Idx → α)
    (hs : (⟨5, ![N, 2, 2, 2, 2]⟩ : Shape).Slices off ⟨5, ![N, 2, 2, 1, 2]⟩)
    (hc : (⟨5, ![N, 2, 2, 1, 2]⟩ : Shape).ShapeCasts ⟨4, ![N, 2, 2, 2]⟩) (n : Fin N) (a b e : Fin 2) :
    shapeCast ⟨4, ![N, 2, 2, 2]⟩ (extractStridedSlice ⟨5, ![N, 2, 2, 1, 2]⟩ off Q hs) hc (ix4 n a b e)
      = Q (ix5 n a b d e) := by
  subst hoff
  refine (shapeCast_apply _ hc (ix4 n a b e) (ix5 n a b 0 e) ?_).trans ?_
  · rw [Shape.rowMajor_val_five, Shape.rowMajor_val_four]
    show (((n.val * 2 + a.val) * 2 + b.val) * 1 + 0) * 2 + e.val = ((n.val * 2 + a.val) * 2 + b.val) * 2 + e.val
    omega
  · refine extractStridedSlice_apply _ Q hs (ix5 n a b 0 e) (ix5 n a b d e) (fun i => ?_)
    match i with
    | ⟨0, _⟩ => show n.val = 0 + n.val; omega
    | ⟨1, _⟩ => show a.val = 0 + a.val; omega
    | ⟨2, _⟩ => show b.val = 0 + b.val; omega
    | ⟨3, _⟩ => show d.val = d.val + 0; omega
    | ⟨4, _⟩ => show e.val = 0 + e.val; omega

/-- The slice of `Q` at coordinate `e` of axis 4, its unit axis dropped, reads `Q` at `(n, a, b, d, e)`. -/
theorem sliceCast3_apply (e : Fin 2) (off : Fin 5 → Nat) (hoff : off = ![0, 0, 0, 0, e.val])
    (Q : (⟨5, ![N, 2, 2, 2, 2]⟩ : Shape).Idx → α)
    (hs : (⟨5, ![N, 2, 2, 2, 2]⟩ : Shape).Slices off ⟨5, ![N, 2, 2, 2, 1]⟩)
    (hc : (⟨5, ![N, 2, 2, 2, 1]⟩ : Shape).ShapeCasts ⟨4, ![N, 2, 2, 2]⟩) (n : Fin N) (a b d : Fin 2) :
    shapeCast ⟨4, ![N, 2, 2, 2]⟩ (extractStridedSlice ⟨5, ![N, 2, 2, 2, 1]⟩ off Q hs) hc (ix4 n a b d)
      = Q (ix5 n a b d e) := by
  subst hoff
  refine (shapeCast_apply _ hc (ix4 n a b d) (ix5 n a b d 0) ?_).trans ?_
  · rw [Shape.rowMajor_val_five, Shape.rowMajor_val_four]
    show (((n.val * 2 + a.val) * 2 + b.val) * 2 + d.val) * 1 + 0 = ((n.val * 2 + a.val) * 2 + b.val) * 2 + d.val
    omega
  · refine extractStridedSlice_apply _ Q hs (ix5 n a b d 0) (ix5 n a b d e) (fun i => ?_)
    match i with
    | ⟨0, _⟩ => show n.val = 0 + n.val; omega
    | ⟨1, _⟩ => show a.val = 0 + a.val; omega
    | ⟨2, _⟩ => show b.val = 0 + b.val; omega
    | ⟨3, _⟩ => show d.val = 0 + d.val; omega
    | ⟨4, _⟩ => show e.val = e.val + 0; omega

end SliceCast

/-! ## One wire's column and the last stage, read at an index -/

section Columns
variable {N : Nat}

noncomputable section

/-- One wire's column: the slices of `Q` at coordinates 0 and 1 of that wire's axis (offsets `off0`, `off1`, sliced
    shape `Sw`), their unit axis dropped, subtracted, summed over the three remaining wire axes from the constant
    zero, and the length-`N` result written as an `N × 1` column. -/
def zcol (Sw : Shape) (off0 off1 : Fin 5 → Nat) (Q : FVec Ideal ⟨5, ![N, 2, 2, 2, 2]⟩ .f32)
    (hs0 : (⟨5, ![N, 2, 2, 2, 2]⟩ : Shape).Slices off0 Sw) (hs1 : (⟨5, ![N, 2, 2, 2, 2]⟩ : Shape).Slices off1 Sw)
    (hc : Sw.ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) : FVec Ideal ⟨2, ![N, 1]⟩ .f32 :=
  broadcastInDim ⟨2, ![N, 1]⟩ ![0] hb
    (Host.reduceAdd
      (subf (shapeCast ⟨4, ![N, 2, 2, 2]⟩ (extractStridedSlice Sw off0 Q hs0) hc)
        (shapeCast ⟨4, ![N, 2, 2, 2]⟩ (extractStridedSlice Sw off1 Q hs1) hc))
      (constant ⟨0, ![]⟩ .f32 0x00000000#32) hred hS)

/-- The last stage: the four wires' columns side by side, plus `P`. -/
def finalT (Q : FVec Ideal ⟨5, ![N, 2, 2, 2, 2]⟩ .f32) (P : FVec Ideal ⟨2, ![N, 4]⟩ .f32)
    (hs00 : (⟨5, ![N, 2, 2, 2, 2]⟩ : Shape).Slices ![0, 0, 0, 0, 0] ⟨5, ![N, 1, 2, 2, 2]⟩) (hs01 : (⟨5, ![N, 2, 2, 2, 2]⟩ : Shape).Slices ![0, 1, 0, 0, 0] ⟨5, ![N, 1, 2, 2, 2]⟩)
    (hc0 : (⟨5, ![N, 1, 2, 2, 2]⟩ : Shape).ShapeCasts ⟨4, ![N, 2, 2, 2]⟩)
    (hs10 : (⟨5, ![N, 2, 2, 2, 2]⟩ : Shape).Slices ![0, 0, 0, 0, 0] ⟨5, ![N, 2, 1, 2, 2]⟩) (hs11 : (⟨5, ![N, 2, 2, 2, 2]⟩ : Shape).Slices ![0, 0, 1, 0, 0] ⟨5, ![N, 2, 1, 2, 2]⟩)
    (hc1 : (⟨5, ![N, 2, 1, 2, 2]⟩ : Shape).ShapeCasts ⟨4, ![N, 2, 2, 2]⟩)
    (hs20 : (⟨5, ![N, 2, 2, 2, 2]⟩ : Shape).Slices ![0, 0, 0, 0, 0] ⟨5, ![N, 2, 2, 1, 2]⟩) (hs21 : (⟨5, ![N, 2, 2, 2, 2]⟩ : Shape).Slices ![0, 0, 0, 1, 0] ⟨5, ![N, 2, 2, 1, 2]⟩)
    (hc2 : (⟨5, ![N, 2, 2, 1, 2]⟩ : Shape).ShapeCasts ⟨4, ![N, 2, 2, 2]⟩)
    (hs30 : (⟨5, ![N, 2, 2, 2, 2]⟩ : Shape).Slices ![0, 0, 0, 0, 0] ⟨5, ![N, 2, 2, 2, 1]⟩) (hs31 : (⟨5, ![N, 2, 2, 2, 2]⟩ : Shape).Slices ![0, 0, 0, 0, 1] ⟨5, ![N, 2, 2, 2, 1]⟩)
    (hc3 : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank))
    (hcat : Shape.Concatenates [⟨2, ![N, 1]⟩, ⟨2, ![N, 1]⟩, ⟨2, ![N, 1]⟩, ⟨2, ![N, 1]⟩] ⟨2, ![N, 4]⟩ 1) :
    FVec Ideal ⟨2, ![N, 4]⟩ .f32 :=
  addf (concatenate ⟨2, ![N, 4]⟩ 1
    [⟨⟨2, ![N, 1]⟩, zcol ⟨5, ![N, 1, 2, 2, 2]⟩ ![0, 0, 0, 0, 0] ![0, 1, 0, 0, 0] Q hs00 hs01 hc0 hred hS hb⟩,
     ⟨⟨2, ![N, 1]⟩, zcol ⟨5, ![N, 2, 1, 2, 2]⟩ ![0, 0, 0, 0, 0] ![0, 0, 1, 0, 0] Q hs10 hs11 hc1 hred hS hb⟩,
     ⟨⟨2, ![N, 1]⟩, zcol ⟨5, ![N, 2, 2, 1, 2]⟩ ![0, 0, 0, 0, 0] ![0, 0, 0, 1, 0] Q hs20 hs21 hc2 hred hS hb⟩,
     ⟨⟨2, ![N, 1]⟩, zcol ⟨5, ![N, 2, 2, 2, 1]⟩ ![0, 0, 0, 0, 0] ![0, 0, 0, 0, 1] Q hs30 hs31 hc3 hred hS hb⟩] hcat) P

/-- A length-`N` sum over the three trailing axes from the constant zero, written as an `N × 1` column, reads at
    row `n` the eight elements of row `n` added in lexicographic order. -/
theorem bcastReduce_apply (X : FVec Ideal ⟨4, ![N, 2, 2, 2]⟩ .f32)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) (n : Fin N) (z : Fin 1) :
    broadcastInDim ⟨2, ![N, 1]⟩ ![0] hb (Host.reduceAdd X (constant ⟨0, ![]⟩ .f32 0x00000000#32) hred hS) (ix2 n z)
      = X (ix4 n 0 0 0) + X (ix4 n 0 0 1) + X (ix4 n 0 1 0) + X (ix4 n 0 1 1)
          + X (ix4 n 1 0 0) + X (ix4 n 1 0 1) + X (ix4 n 1 1 0) + X (ix4 n 1 1 1) := by
  refine (broadcastInDim_apply _ hb _ (ix2 n z) (ix1 n) (fun i => ?_)).trans ?_
  · match i with
    | ⟨0, _⟩ =>
      show n.val = if N = 1 then 0 else n.val
      split_ifs with h1
      · have := n.isLt; omega
      · rfl
  · rw [Cert.LibHostRead.reduceAdd_axes123, constant_apply, Ideal.ofBits_zero_f32, zero_add]

/-- The column of axis 1 (wire 0) at row `n`: the eight differences `Q` at coordinate 0 minus `Q` at coordinate 1 of
    that axis, the other three coordinates running over `{0,1}³` in lexicographic order. -/
theorem zcol0_apply (Q : FVec Ideal ⟨5, ![N, 2, 2, 2, 2]⟩ .f32)
    (hs0 : (⟨5, ![N, 2, 2, 2, 2]⟩ : Shape).Slices ![0, 0, 0, 0, 0] ⟨5, ![N, 1, 2, 2, 2]⟩) (hs1 : (⟨5, ![N, 2, 2, 2, 2]⟩ : Shape).Slices ![0, 1, 0, 0, 0] ⟨5, ![N, 1, 2, 2, 2]⟩)
    (hc : (⟨5, ![N, 1, 2, 2, 2]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) (n : Fin N) (z : Fin 1) :
    zcol ⟨5, ![N, 1, 2, 2, 2]⟩ ![0, 0, 0, 0, 0] ![0, 1, 0, 0, 0] Q hs0 hs1 hc hred hS hb (ix2 n z)
      = (Q (ix5 n 0 0 0 0) - Q (ix5 n 1 0 0 0))
        + (Q (ix5 n 0 0 0 1) - Q (ix5 n 1 0 0 1))
        + (Q (ix5 n 0 0 1 0) - Q (ix5 n 1 0 1 0))
        + (Q (ix5 n 0 0 1 1) - Q (ix5 n 1 0 1 1))
        + (Q (ix5 n 0 1 0 0) - Q (ix5 n 1 1 0 0))
        + (Q (ix5 n 0 1 0 1) - Q (ix5 n 1 1 0 1))
        + (Q (ix5 n 0 1 1 0) - Q (ix5 n 1 1 1 0))
        + (Q (ix5 n 0 1 1 1) - Q (ix5 n 1 1 1 1)) := by
  unfold zcol
  rw [bcastReduce_apply]
  simp only [subf_apply, sliceCast0_apply 0 ![0, 0, 0, 0, 0] rfl Q hs0 hc, sliceCast0_apply 1 ![0, 1, 0, 0, 0] rfl Q hs1 hc]

/-- The column of axis 2 (wire 1) at row `n`: the eight differences `Q` at coordinate 0 minus `Q` at coordinate 1 of
    that axis, the other three coordinates running over `{0,1}³` in lexicographic order. -/
theorem zcol1_apply (Q : FVec Ideal ⟨5, ![N, 2, 2, 2, 2]⟩ .f32)
    (hs0 : (⟨5, ![N, 2, 2, 2, 2]⟩ : Shape).Slices ![0, 0, 0, 0, 0] ⟨5, ![N, 2, 1, 2, 2]⟩) (hs1 : (⟨5, ![N, 2, 2, 2, 2]⟩ : Shape).Slices ![0, 0, 1, 0, 0] ⟨5, ![N, 2, 1, 2, 2]⟩)
    (hc : (⟨5, ![N, 2, 1, 2, 2]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) (n : Fin N) (z : Fin 1) :
    zcol ⟨5, ![N, 2, 1, 2, 2]⟩ ![0, 0, 0, 0, 0] ![0, 0, 1, 0, 0] Q hs0 hs1 hc hred hS hb (ix2 n z)
      = (Q (ix5 n 0 0 0 0) - Q (ix5 n 0 1 0 0))
        + (Q (ix5 n 0 0 0 1) - Q (ix5 n 0 1 0 1))
        + (Q (ix5 n 0 0 1 0) - Q (ix5 n 0 1 1 0))
        + (Q (ix5 n 0 0 1 1) - Q (ix5 n 0 1 1 1))
        + (Q (ix5 n 1 0 0 0) - Q (ix5 n 1 1 0 0))
        + (Q (ix5 n 1 0 0 1) - Q (ix5 n 1 1 0 1))
        + (Q (ix5 n 1 0 1 0) - Q (ix5 n 1 1 1 0))
        + (Q (ix5 n 1 0 1 1) - Q (ix5 n 1 1 1 1)) := by
  unfold zcol
  rw [bcastReduce_apply]
  simp only [subf_apply, sliceCast1_apply 0 ![0, 0, 0, 0, 0] rfl Q hs0 hc, sliceCast1_apply 1 ![0, 0, 1, 0, 0] rfl Q hs1 hc]

/-- The column of axis 3 (wire 2) at row `n`: the eight differences `Q` at coordinate 0 minus `Q` at coordinate 1 of
    that axis, the other three coordinates running over `{0,1}³` in lexicographic order. -/
theorem zcol2_apply (Q : FVec Ideal ⟨5, ![N, 2, 2, 2, 2]⟩ .f32)
    (hs0 : (⟨5, ![N, 2, 2, 2, 2]⟩ : Shape).Slices ![0, 0, 0, 0, 0] ⟨5, ![N, 2, 2, 1, 2]⟩) (hs1 : (⟨5, ![N, 2, 2, 2, 2]⟩ : Shape).Slices ![0, 0, 0, 1, 0] ⟨5, ![N, 2, 2, 1, 2]⟩)
    (hc : (⟨5, ![N, 2, 2, 1, 2]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) (n : Fin N) (z : Fin 1) :
    zcol ⟨5, ![N, 2, 2, 1, 2]⟩ ![0, 0, 0, 0, 0] ![0, 0, 0, 1, 0] Q hs0 hs1 hc hred hS hb (ix2 n z)
      = (Q (ix5 n 0 0 0 0) - Q (ix5 n 0 0 1 0))
        + (Q (ix5 n 0 0 0 1) - Q (ix5 n 0 0 1 1))
        + (Q (ix5 n 0 1 0 0) - Q (ix5 n 0 1 1 0))
        + (Q (ix5 n 0 1 0 1) - Q (ix5 n 0 1 1 1))
        + (Q (ix5 n 1 0 0 0) - Q (ix5 n 1 0 1 0))
        + (Q (ix5 n 1 0 0 1) - Q (ix5 n 1 0 1 1))
        + (Q (ix5 n 1 1 0 0) - Q (ix5 n 1 1 1 0))
        + (Q (ix5 n 1 1 0 1) - Q (ix5 n 1 1 1 1)) := by
  unfold zcol
  rw [bcastReduce_apply]
  simp only [subf_apply, sliceCast2_apply 0 ![0, 0, 0, 0, 0] rfl Q hs0 hc, sliceCast2_apply 1 ![0, 0, 0, 1, 0] rfl Q hs1 hc]

/-- The column of axis 4 (wire 3) at row `n`: the eight differences `Q` at coordinate 0 minus `Q` at coordinate 1 of
    that axis, the other three coordinates running over `{0,1}³` in lexicographic order. -/
theorem zcol3_apply (Q : FVec Ideal ⟨5, ![N, 2, 2, 2, 2]⟩ .f32)
    (hs0 : (⟨5, ![N, 2, 2, 2, 2]⟩ : Shape).Slices ![0, 0, 0, 0, 0] ⟨5, ![N, 2, 2, 2, 1]⟩) (hs1 : (⟨5, ![N, 2, 2, 2, 2]⟩ : Shape).Slices ![0, 0, 0, 0, 1] ⟨5, ![N, 2, 2, 2, 1]⟩)
    (hc : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank)) (n : Fin N) (z : Fin 1) :
    zcol ⟨5, ![N, 2, 2, 2, 1]⟩ ![0, 0, 0, 0, 0] ![0, 0, 0, 0, 1] Q hs0 hs1 hc hred hS hb (ix2 n z)
      = (Q (ix5 n 0 0 0 0) - Q (ix5 n 0 0 0 1))
        + (Q (ix5 n 0 0 1 0) - Q (ix5 n 0 0 1 1))
        + (Q (ix5 n 0 1 0 0) - Q (ix5 n 0 1 0 1))
        + (Q (ix5 n 0 1 1 0) - Q (ix5 n 0 1 1 1))
        + (Q (ix5 n 1 0 0 0) - Q (ix5 n 1 0 0 1))
        + (Q (ix5 n 1 0 1 0) - Q (ix5 n 1 0 1 1))
        + (Q (ix5 n 1 1 0 0) - Q (ix5 n 1 1 0 1))
        + (Q (ix5 n 1 1 1 0) - Q (ix5 n 1 1 1 1)) := by
  unfold zcol
  rw [bcastReduce_apply]
  simp only [subf_apply, sliceCast3_apply 0 ![0, 0, 0, 0, 0] rfl Q hs0 hc, sliceCast3_apply 1 ![0, 0, 0, 0, 1] rfl Q hs1 hc]

/-- The last stage at column 0 of row `n`: the column of axis 1 (wire 0) plus `P` there. -/
theorem finalT_apply0 (Q : FVec Ideal ⟨5, ![N, 2, 2, 2, 2]⟩ .f32) (P : FVec Ideal ⟨2, ![N, 4]⟩ .f32)
    (hs00 : (⟨5, ![N, 2, 2, 2, 2]⟩ : Shape).Slices ![0, 0, 0, 0, 0] ⟨5, ![N, 1, 2, 2, 2]⟩) (hs01 : (⟨5, ![N, 2, 2, 2, 2]⟩ : Shape).Slices ![0, 1, 0, 0, 0] ⟨5, ![N, 1, 2, 2, 2]⟩)
    (hc0 : (⟨5, ![N, 1, 2, 2, 2]⟩ : Shape).ShapeCasts ⟨4, ![N, 2, 2, 2]⟩)
    (hs10 : (⟨5, ![N, 2, 2, 2, 2]⟩ : Shape).Slices ![0, 0, 0, 0, 0] ⟨5, ![N, 2, 1, 2, 2]⟩) (hs11 : (⟨5, ![N, 2, 2, 2, 2]⟩ : Shape).Slices ![0, 0, 1, 0, 0] ⟨5, ![N, 2, 1, 2, 2]⟩)
    (hc1 : (⟨5, ![N, 2, 1, 2, 2]⟩ : Shape).ShapeCasts ⟨4, ![N, 2, 2, 2]⟩)
    (hs20 : (⟨5, ![N, 2, 2, 2, 2]⟩ : Shape).Slices ![0, 0, 0, 0, 0] ⟨5, ![N, 2, 2, 1, 2]⟩) (hs21 : (⟨5, ![N, 2, 2, 2, 2]⟩ : Shape).Slices ![0, 0, 0, 1, 0] ⟨5, ![N, 2, 2, 1, 2]⟩)
    (hc2 : (⟨5, ![N, 2, 2, 1, 2]⟩ : Shape).ShapeCasts ⟨4, ![N, 2, 2, 2]⟩)
    (hs30 : (⟨5, ![N, 2, 2, 2, 2]⟩ : Shape).Slices ![0, 0, 0, 0, 0] ⟨5, ![N, 2, 2, 2, 1]⟩) (hs31 : (⟨5, ![N, 2, 2, 2, 2]⟩ : Shape).Slices ![0, 0, 0, 0, 1] ⟨5, ![N, 2, 2, 2, 1]⟩)
    (hc3 : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank))
    (hcat : Shape.Concatenates [⟨2, ![N, 1]⟩, ⟨2, ![N, 1]⟩, ⟨2, ![N, 1]⟩, ⟨2, ![N, 1]⟩] ⟨2, ![N, 4]⟩ 1)
    (n : Fin N) :
    finalT Q P hs00 hs01 hc0 hs10 hs11 hc1 hs20 hs21 hc2 hs30 hs31 hc3 hred hS hb hcat (ix2 n 0)
      = ((Q (ix5 n 0 0 0 0) - Q (ix5 n 1 0 0 0))
        + (Q (ix5 n 0 0 0 1) - Q (ix5 n 1 0 0 1))
        + (Q (ix5 n 0 0 1 0) - Q (ix5 n 1 0 1 0))
        + (Q (ix5 n 0 0 1 1) - Q (ix5 n 1 0 1 1))
        + (Q (ix5 n 0 1 0 0) - Q (ix5 n 1 1 0 0))
        + (Q (ix5 n 0 1 0 1) - Q (ix5 n 1 1 0 1))
        + (Q (ix5 n 0 1 1 0) - Q (ix5 n 1 1 1 0))
        + (Q (ix5 n 0 1 1 1) - Q (ix5 n 1 1 1 1)))
        + P (ix2 n 0) := by
  unfold finalT
  rw [addf_apply]
  congr 1
  refine (concatenate_apply_piece (α := EReal) (t := ⟨2, ![N, 4]⟩) (1 : Fin 2)
    [⟨⟨2, ![N, 1]⟩, zcol ⟨5, ![N, 1, 2, 2, 2]⟩ ![0, 0, 0, 0, 0] ![0, 1, 0, 0, 0] Q hs00 hs01 hc0 hred hS hb⟩,
     ⟨⟨2, ![N, 1]⟩, zcol ⟨5, ![N, 2, 1, 2, 2]⟩ ![0, 0, 0, 0, 0] ![0, 0, 1, 0, 0] Q hs10 hs11 hc1 hred hS hb⟩,
     ⟨⟨2, ![N, 1]⟩, zcol ⟨5, ![N, 2, 2, 1, 2]⟩ ![0, 0, 0, 0, 0] ![0, 0, 0, 1, 0] Q hs20 hs21 hc2 hred hS hb⟩,
     ⟨⟨2, ![N, 1]⟩, zcol ⟨5, ![N, 2, 2, 2, 1]⟩ ![0, 0, 0, 0, 0] ![0, 0, 0, 0, 1] Q hs30 hs31 hc3 hred hS hb⟩]
    hcat (ix2 n 0) 0 (by show (0 : Nat) < 4; omega) ⟨2, ![N, 1]⟩ _ rfl rfl
    0 rfl (ix2 n 0) (fun b hb' => ?_) rfl).trans ?_
  · match b with
    | ⟨0, _⟩ => rfl
    | ⟨1, _⟩ => exact absurd rfl hb'
  · exact zcol0_apply Q hs00 hs01 hc0 hred hS hb n 0

/-- The last stage at column 1 of row `n`: the column of axis 2 (wire 1) plus `P` there. -/
theorem finalT_apply1 (Q : FVec Ideal ⟨5, ![N, 2, 2, 2, 2]⟩ .f32) (P : FVec Ideal ⟨2, ![N, 4]⟩ .f32)
    (hs00 : (⟨5, ![N, 2, 2, 2, 2]⟩ : Shape).Slices ![0, 0, 0, 0, 0] ⟨5, ![N, 1, 2, 2, 2]⟩) (hs01 : (⟨5, ![N, 2, 2, 2, 2]⟩ : Shape).Slices ![0, 1, 0, 0, 0] ⟨5, ![N, 1, 2, 2, 2]⟩)
    (hc0 : (⟨5, ![N, 1, 2, 2, 2]⟩ : Shape).ShapeCasts ⟨4, ![N, 2, 2, 2]⟩)
    (hs10 : (⟨5, ![N, 2, 2, 2, 2]⟩ : Shape).Slices ![0, 0, 0, 0, 0] ⟨5, ![N, 2, 1, 2, 2]⟩) (hs11 : (⟨5, ![N, 2, 2, 2, 2]⟩ : Shape).Slices ![0, 0, 1, 0, 0] ⟨5, ![N, 2, 1, 2, 2]⟩)
    (hc1 : (⟨5, ![N, 2, 1, 2, 2]⟩ : Shape).ShapeCasts ⟨4, ![N, 2, 2, 2]⟩)
    (hs20 : (⟨5, ![N, 2, 2, 2, 2]⟩ : Shape).Slices ![0, 0, 0, 0, 0] ⟨5, ![N, 2, 2, 1, 2]⟩) (hs21 : (⟨5, ![N, 2, 2, 2, 2]⟩ : Shape).Slices ![0, 0, 0, 1, 0] ⟨5, ![N, 2, 2, 1, 2]⟩)
    (hc2 : (⟨5, ![N, 2, 2, 1, 2]⟩ : Shape).ShapeCasts ⟨4, ![N, 2, 2, 2]⟩)
    (hs30 : (⟨5, ![N, 2, 2, 2, 2]⟩ : Shape).Slices ![0, 0, 0, 0, 0] ⟨5, ![N, 2, 2, 2, 1]⟩) (hs31 : (⟨5, ![N, 2, 2, 2, 2]⟩ : Shape).Slices ![0, 0, 0, 0, 1] ⟨5, ![N, 2, 2, 2, 1]⟩)
    (hc3 : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank))
    (hcat : Shape.Concatenates [⟨2, ![N, 1]⟩, ⟨2, ![N, 1]⟩, ⟨2, ![N, 1]⟩, ⟨2, ![N, 1]⟩] ⟨2, ![N, 4]⟩ 1)
    (n : Fin N) :
    finalT Q P hs00 hs01 hc0 hs10 hs11 hc1 hs20 hs21 hc2 hs30 hs31 hc3 hred hS hb hcat (ix2 n 1)
      = ((Q (ix5 n 0 0 0 0) - Q (ix5 n 0 1 0 0))
        + (Q (ix5 n 0 0 0 1) - Q (ix5 n 0 1 0 1))
        + (Q (ix5 n 0 0 1 0) - Q (ix5 n 0 1 1 0))
        + (Q (ix5 n 0 0 1 1) - Q (ix5 n 0 1 1 1))
        + (Q (ix5 n 1 0 0 0) - Q (ix5 n 1 1 0 0))
        + (Q (ix5 n 1 0 0 1) - Q (ix5 n 1 1 0 1))
        + (Q (ix5 n 1 0 1 0) - Q (ix5 n 1 1 1 0))
        + (Q (ix5 n 1 0 1 1) - Q (ix5 n 1 1 1 1)))
        + P (ix2 n 1) := by
  unfold finalT
  rw [addf_apply]
  congr 1
  refine (concatenate_apply_piece (α := EReal) (t := ⟨2, ![N, 4]⟩) (1 : Fin 2)
    [⟨⟨2, ![N, 1]⟩, zcol ⟨5, ![N, 1, 2, 2, 2]⟩ ![0, 0, 0, 0, 0] ![0, 1, 0, 0, 0] Q hs00 hs01 hc0 hred hS hb⟩,
     ⟨⟨2, ![N, 1]⟩, zcol ⟨5, ![N, 2, 1, 2, 2]⟩ ![0, 0, 0, 0, 0] ![0, 0, 1, 0, 0] Q hs10 hs11 hc1 hred hS hb⟩,
     ⟨⟨2, ![N, 1]⟩, zcol ⟨5, ![N, 2, 2, 1, 2]⟩ ![0, 0, 0, 0, 0] ![0, 0, 0, 1, 0] Q hs20 hs21 hc2 hred hS hb⟩,
     ⟨⟨2, ![N, 1]⟩, zcol ⟨5, ![N, 2, 2, 2, 1]⟩ ![0, 0, 0, 0, 0] ![0, 0, 0, 0, 1] Q hs30 hs31 hc3 hred hS hb⟩]
    hcat (ix2 n 1) 1 (by show (1 : Nat) < 4; omega) ⟨2, ![N, 1]⟩ _ rfl rfl
    1 rfl (ix2 n 0) (fun b hb' => ?_) rfl).trans ?_
  · match b with
    | ⟨0, _⟩ => rfl
    | ⟨1, _⟩ => exact absurd rfl hb'
  · exact zcol1_apply Q hs10 hs11 hc1 hred hS hb n 0

/-- The last stage at column 2 of row `n`: the column of axis 3 (wire 2) plus `P` there. -/
theorem finalT_apply2 (Q : FVec Ideal ⟨5, ![N, 2, 2, 2, 2]⟩ .f32) (P : FVec Ideal ⟨2, ![N, 4]⟩ .f32)
    (hs00 : (⟨5, ![N, 2, 2, 2, 2]⟩ : Shape).Slices ![0, 0, 0, 0, 0] ⟨5, ![N, 1, 2, 2, 2]⟩) (hs01 : (⟨5, ![N, 2, 2, 2, 2]⟩ : Shape).Slices ![0, 1, 0, 0, 0] ⟨5, ![N, 1, 2, 2, 2]⟩)
    (hc0 : (⟨5, ![N, 1, 2, 2, 2]⟩ : Shape).ShapeCasts ⟨4, ![N, 2, 2, 2]⟩)
    (hs10 : (⟨5, ![N, 2, 2, 2, 2]⟩ : Shape).Slices ![0, 0, 0, 0, 0] ⟨5, ![N, 2, 1, 2, 2]⟩) (hs11 : (⟨5, ![N, 2, 2, 2, 2]⟩ : Shape).Slices ![0, 0, 1, 0, 0] ⟨5, ![N, 2, 1, 2, 2]⟩)
    (hc1 : (⟨5, ![N, 2, 1, 2, 2]⟩ : Shape).ShapeCasts ⟨4, ![N, 2, 2, 2]⟩)
    (hs20 : (⟨5, ![N, 2, 2, 2, 2]⟩ : Shape).Slices ![0, 0, 0, 0, 0] ⟨5, ![N, 2, 2, 1, 2]⟩) (hs21 : (⟨5, ![N, 2, 2, 2, 2]⟩ : Shape).Slices ![0, 0, 0, 1, 0] ⟨5, ![N, 2, 2, 1, 2]⟩)
    (hc2 : (⟨5, ![N, 2, 2, 1, 2]⟩ : Shape).ShapeCasts ⟨4, ![N, 2, 2, 2]⟩)
    (hs30 : (⟨5, ![N, 2, 2, 2, 2]⟩ : Shape).Slices ![0, 0, 0, 0, 0] ⟨5, ![N, 2, 2, 2, 1]⟩) (hs31 : (⟨5, ![N, 2, 2, 2, 2]⟩ : Shape).Slices ![0, 0, 0, 0, 1] ⟨5, ![N, 2, 2, 2, 1]⟩)
    (hc3 : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank))
    (hcat : Shape.Concatenates [⟨2, ![N, 1]⟩, ⟨2, ![N, 1]⟩, ⟨2, ![N, 1]⟩, ⟨2, ![N, 1]⟩] ⟨2, ![N, 4]⟩ 1)
    (n : Fin N) :
    finalT Q P hs00 hs01 hc0 hs10 hs11 hc1 hs20 hs21 hc2 hs30 hs31 hc3 hred hS hb hcat (ix2 n 2)
      = ((Q (ix5 n 0 0 0 0) - Q (ix5 n 0 0 1 0))
        + (Q (ix5 n 0 0 0 1) - Q (ix5 n 0 0 1 1))
        + (Q (ix5 n 0 1 0 0) - Q (ix5 n 0 1 1 0))
        + (Q (ix5 n 0 1 0 1) - Q (ix5 n 0 1 1 1))
        + (Q (ix5 n 1 0 0 0) - Q (ix5 n 1 0 1 0))
        + (Q (ix5 n 1 0 0 1) - Q (ix5 n 1 0 1 1))
        + (Q (ix5 n 1 1 0 0) - Q (ix5 n 1 1 1 0))
        + (Q (ix5 n 1 1 0 1) - Q (ix5 n 1 1 1 1)))
        + P (ix2 n 2) := by
  unfold finalT
  rw [addf_apply]
  congr 1
  refine (concatenate_apply_piece (α := EReal) (t := ⟨2, ![N, 4]⟩) (1 : Fin 2)
    [⟨⟨2, ![N, 1]⟩, zcol ⟨5, ![N, 1, 2, 2, 2]⟩ ![0, 0, 0, 0, 0] ![0, 1, 0, 0, 0] Q hs00 hs01 hc0 hred hS hb⟩,
     ⟨⟨2, ![N, 1]⟩, zcol ⟨5, ![N, 2, 1, 2, 2]⟩ ![0, 0, 0, 0, 0] ![0, 0, 1, 0, 0] Q hs10 hs11 hc1 hred hS hb⟩,
     ⟨⟨2, ![N, 1]⟩, zcol ⟨5, ![N, 2, 2, 1, 2]⟩ ![0, 0, 0, 0, 0] ![0, 0, 0, 1, 0] Q hs20 hs21 hc2 hred hS hb⟩,
     ⟨⟨2, ![N, 1]⟩, zcol ⟨5, ![N, 2, 2, 2, 1]⟩ ![0, 0, 0, 0, 0] ![0, 0, 0, 0, 1] Q hs30 hs31 hc3 hred hS hb⟩]
    hcat (ix2 n 2) 2 (by show (2 : Nat) < 4; omega) ⟨2, ![N, 1]⟩ _ rfl rfl
    2 rfl (ix2 n 0) (fun b hb' => ?_) rfl).trans ?_
  · match b with
    | ⟨0, _⟩ => rfl
    | ⟨1, _⟩ => exact absurd rfl hb'
  · exact zcol2_apply Q hs20 hs21 hc2 hred hS hb n 0

/-- The last stage at column 3 of row `n`: the column of axis 4 (wire 3) plus `P` there. -/
theorem finalT_apply3 (Q : FVec Ideal ⟨5, ![N, 2, 2, 2, 2]⟩ .f32) (P : FVec Ideal ⟨2, ![N, 4]⟩ .f32)
    (hs00 : (⟨5, ![N, 2, 2, 2, 2]⟩ : Shape).Slices ![0, 0, 0, 0, 0] ⟨5, ![N, 1, 2, 2, 2]⟩) (hs01 : (⟨5, ![N, 2, 2, 2, 2]⟩ : Shape).Slices ![0, 1, 0, 0, 0] ⟨5, ![N, 1, 2, 2, 2]⟩)
    (hc0 : (⟨5, ![N, 1, 2, 2, 2]⟩ : Shape).ShapeCasts ⟨4, ![N, 2, 2, 2]⟩)
    (hs10 : (⟨5, ![N, 2, 2, 2, 2]⟩ : Shape).Slices ![0, 0, 0, 0, 0] ⟨5, ![N, 2, 1, 2, 2]⟩) (hs11 : (⟨5, ![N, 2, 2, 2, 2]⟩ : Shape).Slices ![0, 0, 1, 0, 0] ⟨5, ![N, 2, 1, 2, 2]⟩)
    (hc1 : (⟨5, ![N, 2, 1, 2, 2]⟩ : Shape).ShapeCasts ⟨4, ![N, 2, 2, 2]⟩)
    (hs20 : (⟨5, ![N, 2, 2, 2, 2]⟩ : Shape).Slices ![0, 0, 0, 0, 0] ⟨5, ![N, 2, 2, 1, 2]⟩) (hs21 : (⟨5, ![N, 2, 2, 2, 2]⟩ : Shape).Slices ![0, 0, 0, 1, 0] ⟨5, ![N, 2, 2, 1, 2]⟩)
    (hc2 : (⟨5, ![N, 2, 2, 1, 2]⟩ : Shape).ShapeCasts ⟨4, ![N, 2, 2, 2]⟩)
    (hs30 : (⟨5, ![N, 2, 2, 2, 2]⟩ : Shape).Slices ![0, 0, 0, 0, 0] ⟨5, ![N, 2, 2, 2, 1]⟩) (hs31 : (⟨5, ![N, 2, 2, 2, 2]⟩ : Shape).Slices ![0, 0, 0, 0, 1] ⟨5, ![N, 2, 2, 2, 1]⟩)
    (hc3 : (⟨5, ![N, 2, 2, 2, 1]⟩ : Shape).ShapeCasts ⟨4, ![N, 2, 2, 2]⟩)
    (hred : (⟨4, ![N, 2, 2, 2]⟩ : Shape).ReducesTo [1, 2, 3] ⟨1, ![N]⟩) (hS : 0 < (⟨0, ![]⟩ : Shape).numel)
    (hb : (⟨1, ![N]⟩ : Shape).BroadcastsInDim ⟨2, ![N, 1]⟩ (![0] : Fin 1 → Fin (⟨2, ![N, 1]⟩ : Shape).rank))
    (hcat : Shape.Concatenates [⟨2, ![N, 1]⟩, ⟨2, ![N, 1]⟩, ⟨2, ![N, 1]⟩, ⟨2, ![N, 1]⟩] ⟨2, ![N, 4]⟩ 1)
    (n : Fin N) :
    finalT Q P hs00 hs01 hc0 hs10 hs11 hc1 hs20 hs21 hc2 hs30 hs31 hc3 hred hS hb hcat (ix2 n 3)
      = ((Q (ix5 n 0 0 0 0) - Q (ix5 n 0 0 0 1))
        + (Q (ix5 n 0 0 1 0) - Q (ix5 n 0 0 1 1))
        + (Q (ix5 n 0 1 0 0) - Q (ix5 n 0 1 0 1))
        + (Q (ix5 n 0 1 1 0) - Q (ix5 n 0 1 1 1))
        + (Q (ix5 n 1 0 0 0) - Q (ix5 n 1 0 0 1))
        + (Q (ix5 n 1 0 1 0) - Q (ix5 n 1 0 1 1))
        + (Q (ix5 n 1 1 0 0) - Q (ix5 n 1 1 0 1))
        + (Q (ix5 n 1 1 1 0) - Q (ix5 n 1 1 1 1)))
        + P (ix2 n 3) := by
  unfold finalT
  rw [addf_apply]
  congr 1
  refine (concatenate_apply_piece (α := EReal) (t := ⟨2, ![N, 4]⟩) (1 : Fin 2)
    [⟨⟨2, ![N, 1]⟩, zcol ⟨5, ![N, 1, 2, 2, 2]⟩ ![0, 0, 0, 0, 0] ![0, 1, 0, 0, 0] Q hs00 hs01 hc0 hred hS hb⟩,
     ⟨⟨2, ![N, 1]⟩, zcol ⟨5, ![N, 2, 1, 2, 2]⟩ ![0, 0, 0, 0, 0] ![0, 0, 1, 0, 0] Q hs10 hs11 hc1 hred hS hb⟩,
     ⟨⟨2, ![N, 1]⟩, zcol ⟨5, ![N, 2, 2, 1, 2]⟩ ![0, 0, 0, 0, 0] ![0, 0, 0, 1, 0] Q hs20 hs21 hc2 hred hS hb⟩,
     ⟨⟨2, ![N, 1]⟩, zcol ⟨5, ![N, 2, 2, 2, 1]⟩ ![0, 0, 0, 0, 0] ![0, 0, 0, 0, 1] Q hs30 hs31 hc3 hred hS hb⟩]
    hcat (ix2 n 3) 3 (by show (3 : Nat) < 4; omega) ⟨2, ![N, 1]⟩ _ rfl rfl
    3 rfl (ix2 n 0) (fun b hb' => ?_) rfl).trans ?_
  · match b with
    | ⟨0, _⟩ => rfl
    | ⟨1, _⟩ => exact absurd rfl hb'
  · exact zcol3_apply Q hs30 hs31 hc3 hred hS hb n 0

end

end Columns

end Cert.LibObservable
-- ==== Proof.RefValue.lean ====
/-
  The reference's result, index by index.

  The reference's array of amplitudes passes the three layers (each: four rotations and two controlled NOTs,
  with the axes permuted so that the rotated wire's bit is last); then the amplitudes are squared and, for each
  wire, the differences "bit clear minus bit set" are summed over the other three bits and the feature added.
  On the extended reals that sum of differences is the difference of the two sums (squares are never −∞), which is
  the observable as Circuit.lean states it.
-/
import proofs.«106929_j65481071405125_1_alg».proof.Proof.RefOps
import proofs.«106929_j65481071405125_1_alg».proof.Proof.RefInit
import proofs.«106929_j65481071405125_1_alg».proof.Proof.Sample
import proofs.«106929_j65481071405125_1_alg».proof.Proof.LibObservable

set_option maxRecDepth 16384

noncomputable section

namespace Cert.ReferenceIdeal.RefValue

open Cert.ReferenceIdeal Cert.ReferenceIdeal.Gen Cert.ReferenceIdeal.Value Idealize.ShloMosaic Idealize.ShloMosaic.ValueIdx
open Cert.Circuit Cert.ReferenceIdeal.RefOps Idealize.SL.Sem Idealize.ShloMosaic.StableHlo

variable (V0 : Valuation τ sig (Elt Ideal))

/-- The weights as launched. -/
abbrev wts : FVec Ideal S3x4 .f32 := V0 (Proc.devRef .tc main_arg1)
/-- The four features of sample `n`. -/
abbrev feat (n : Fin 802816) : Fin 4 → EReal := fun k => res_main_v3 (F := Ideal) V0 (ix2 n k)

/-! ## The rotation angles -/

theorem th20 (n : Fin 802816) : res_main_v20 (F := Ideal) V0 (ix1 n) = Sample.theta (feat V0 n) (wts V0) 0 0 :=
  (angle_apply 0 0 (by decide) (by decide) slices_S802816x4_S802816x1_0_0 slices_S3x4_S1x1_0_0 (res_main_v3 V0) (wts V0) n)
theorem th51 (n : Fin 802816) : res_main_v51 (F := Ideal) V0 (ix1 n) = Sample.theta (feat V0 n) (wts V0) 0 1 :=
  (angle_apply 1 0 (by decide) (by decide) slices_S802816x4_S802816x1_0_1 slices_S3x4_S1x1_0_1 (res_main_v3 V0) (wts V0) n)
theorem th82 (n : Fin 802816) : res_main_v82 (F := Ideal) V0 (ix1 n) = Sample.theta (feat V0 n) (wts V0) 0 2 :=
  (angle_apply 2 0 (by decide) (by decide) slices_S802816x4_S802816x1_0_2 slices_S3x4_S1x1_0_2 (res_main_v3 V0) (wts V0) n)
theorem th112 (n : Fin 802816) : res_main_v112 (F := Ideal) V0 (ix1 n) = Sample.theta (feat V0 n) (wts V0) 0 3 :=
  (angle_apply 3 0 (by decide) (by decide) slices_S802816x4_S802816x1_0_3 slices_S3x4_S1x1_0_3 (res_main_v3 V0) (wts V0) n)
theorem th158 (n : Fin 802816) : res_main_v158 (F := Ideal) V0 (ix1 n) = Sample.theta (feat V0 n) (wts V0) 1 0 :=
  (angle_apply 0 1 (by decide) (by decide) slices_S802816x4_S802816x1_0_0 slices_S3x4_S1x1_1_0 (res_main_v3 V0) (wts V0) n)
theorem th189 (n : Fin 802816) : res_main_v189 (F := Ideal) V0 (ix1 n) = Sample.theta (feat V0 n) (wts V0) 1 1 :=
  (angle_apply 1 1 (by decide) (by decide) slices_S802816x4_S802816x1_0_1 slices_S3x4_S1x1_1_1 (res_main_v3 V0) (wts V0) n)
theorem th220 (n : Fin 802816) : res_main_v220 (F := Ideal) V0 (ix1 n) = Sample.theta (feat V0 n) (wts V0) 1 2 :=
  (angle_apply 2 1 (by decide) (by decide) slices_S802816x4_S802816x1_0_2 slices_S3x4_S1x1_1_2 (res_main_v3 V0) (wts V0) n)
theorem th250 (n : Fin 802816) : res_main_v250 (F := Ideal) V0 (ix1 n) = Sample.theta (feat V0 n) (wts V0) 1 3 :=
  (angle_apply 3 1 (by decide) (by decide) slices_S802816x4_S802816x1_0_3 slices_S3x4_S1x1_1_3 (res_main_v3 V0) (wts V0) n)
theorem th296 (n : Fin 802816) : res_main_v296 (F := Ideal) V0 (ix1 n) = Sample.theta (feat V0 n) (wts V0) 2 0 :=
  (angle_apply 0 2 (by decide) (by decide) slices_S802816x4_S802816x1_0_0 slices_S3x4_S1x1_2_0 (res_main_v3 V0) (wts V0) n)
theorem th327 (n : Fin 802816) : res_main_v327 (F := Ideal) V0 (ix1 n) = Sample.theta (feat V0 n) (wts V0) 2 1 :=
  (angle_apply 1 2 (by decide) (by decide) slices_S802816x4_S802816x1_0_1 slices_S3x4_S1x1_2_1 (res_main_v3 V0) (wts V0) n)
theorem th358 (n : Fin 802816) : res_main_v358 (F := Ideal) V0 (ix1 n) = Sample.theta (feat V0 n) (wts V0) 2 2 :=
  (angle_apply 2 2 (by decide) (by decide) slices_S802816x4_S802816x1_0_2 slices_S3x4_S1x1_2_2 (res_main_v3 V0) (wts V0) n)
theorem th388 (n : Fin 802816) : res_main_v388 (F := Ideal) V0 (ix1 n) = Sample.theta (feat V0 n) (wts V0) 2 3 :=
  (angle_apply 3 2 (by decide) (by decide) slices_S802816x4_S802816x1_0_3 slices_S3x4_S1x1_2_3 (res_main_v3 V0) (wts V0) n)

/-! ## The three layers -/

theorem v156_eq : res_main_v156 (F := Ideal) V0 = transpose S802816x2x2x2x2 [0, 2, 3, 4, 1]
    (layerT (res_main_v20 V0) (res_main_v51 V0) (res_main_v82 V0) (res_main_v112 V0) (res_main_v18 V0)) transposes_S802816x2x2x2x2_S802816x2x2x2x2_0_2_3_4_1 := rfl

theorem v294_eq : res_main_v294 (F := Ideal) V0 = transpose S802816x2x2x2x2 [0, 2, 3, 4, 1]
    (layerT (res_main_v158 V0) (res_main_v189 V0) (res_main_v220 V0) (res_main_v250 V0) (res_main_v156 V0)) transposes_S802816x2x2x2x2_S802816x2x2x2x2_0_2_3_4_1 := rfl

theorem v425_eq : res_main_v425 (F := Ideal) V0
    = layerT (res_main_v296 V0) (res_main_v327 V0) (res_main_v358 V0) (res_main_v388 V0) (res_main_v294 V0) := rfl

/-- After the first layer (wire 0's bit on the last axis). -/
theorem inv156 (n : Fin 802816) (a b d e : Bool) :
    res_main_v156 (F := Ideal) V0 (ix5 n (fin b) (fin d) (fin e) (fin a))
      = Sample.layerAt (feat V0 n) (wts V0) 0 (init Sample.zero Sample.one) a b d e := by
  rw [v156_eq, tr_0_2_3_4_1, layerT_apply _ _ _ _ _ n _ (RefInit.res18_apply V0 n), th20, th51, th82, th112]
  rfl

/-- After the second layer. -/
theorem inv294 (n : Fin 802816) (a b d e : Bool) :
    res_main_v294 (F := Ideal) V0 (ix5 n (fin b) (fin d) (fin e) (fin a))
      = Sample.layerAt (feat V0 n) (wts V0) 1 (Sample.layerAt (feat V0 n) (wts V0) 0 (init Sample.zero Sample.one)) a b d e := by
  rw [v294_eq, tr_0_2_3_4_1, layerT_apply _ _ _ _ _ n _ (inv156 V0 n), th158, th189, th220, th250]
  rfl

/-- After the third layer (axes in wire order). -/
theorem inv425 (n : Fin 802816) (a b d e : Bool) :
    res_main_v425 (F := Ideal) V0 (ix5 n (fin a) (fin b) (fin d) (fin e)) = Sample.finalState (feat V0 n) (wts V0) a b d e := by
  rw [v425_eq, layerT_apply _ _ _ _ _ n _ (inv294 V0 n), th296, th327, th358, th388]
  rfl

/-- The squared amplitudes. -/
theorem sq426 (n : Fin 802816) (a b d e : Bool) :
    res_main_v426 (F := Ideal) V0 (ix5 n (fin a) (fin b) (fin d) (fin e)) = sq eOps (Sample.finalState (feat V0 n) (wts V0) a b d e) := by
  show mulf (res_main_v425 V0) (res_main_v425 V0) _ = _
  rw [mulf_apply, inv425]
  rfl

/-! ## The observables -/

/-- The difference of the two sums of squares, written as the sum of the eight differences. -/
theorem z0_eq (A : Amp EReal) : z0 eOps A
    = (sq eOps (A false false false false) - sq eOps (A true false false false)) + (sq eOps (A false false false true) - sq eOps (A true false false true))
      + (sq eOps (A false false true false) - sq eOps (A true false true false)) + (sq eOps (A false false true true) - sq eOps (A true false true true))
      + (sq eOps (A false true false false) - sq eOps (A true true false false)) + (sq eOps (A false true false true) - sq eOps (A true true false true))
      + (sq eOps (A false true true false) - sq eOps (A true true true false)) + (sq eOps (A false true true true) - sq eOps (A true true true true)) :=
  sub_sum8 (fun b d e => sq eOps (A false b d e)) (fun b d e => sq eOps (A true b d e)) (fun _ _ _ => sq_nonneg' _)

theorem z1_eq (A : Amp EReal) : z1 eOps A
    = (sq eOps (A false false false false) - sq eOps (A false true false false)) + (sq eOps (A false false false true) - sq eOps (A false true false true))
      + (sq eOps (A false false true false) - sq eOps (A false true true false)) + (sq eOps (A false false true true) - sq eOps (A false true true true))
      + (sq eOps (A true false false false) - sq eOps (A true true false false)) + (sq eOps (A true false false true) - sq eOps (A true true false true))
      + (sq eOps (A true false true false) - sq eOps (A true true true false)) + (sq eOps (A true false true true) - sq eOps (A true true true true)) :=
  sub_sum8 (fun a d e => sq eOps (A a false d e)) (fun a d e => sq eOps (A a true d e)) (fun _ _ _ => sq_nonneg' _)

theorem z2_eq (A : Amp EReal) : z2 eOps A
    = (sq eOps (A false false false false) - sq eOps (A false false true false)) + (sq eOps (A false false false true) - sq eOps (A false false true true))
      + (sq eOps (A false true false false) - sq eOps (A false true true false)) + (sq eOps (A false true false true) - sq eOps (A false true true true))
      + (sq eOps (A true false false false) - sq eOps (A true false true false)) + (sq eOps (A true false false true) - sq eOps (A true false true true))
      + (sq eOps (A true true false false) - sq eOps (A true true true false)) + (sq eOps (A true true false true) - sq eOps (A true true true true)) :=
  sub_sum8 (fun a b e => sq eOps (A a b false e)) (fun a b e => sq eOps (A a b true e)) (fun _ _ _ => sq_nonneg' _)

theorem z3_eq (A : Amp EReal) : z3 eOps A
    = (sq eOps (A false false false false) - sq eOps (A false false false true)) + (sq eOps (A false false true false) - sq eOps (A false false true true))
      + (sq eOps (A false true false false) - sq eOps (A false true false true)) + (sq eOps (A false true true false) - sq eOps (A false true true true))
      + (sq eOps (A true false false false) - sq eOps (A true false false true)) + (sq eOps (A true false true false) - sq eOps (A true false true true))
      + (sq eOps (A true true false false) - sq eOps (A true true false true)) + (sq eOps (A true true true false) - sq eOps (A true true true true)) :=
  sub_sum8 (fun a b d => sq eOps (A a b d false)) (fun a b d => sq eOps (A a b d true)) (fun _ _ _ => sq_nonneg' _)

/-- The last stage: the four columns of summed differences, stacked, plus the features. -/
abbrev lastStage : FVec Ideal S802816x4 .f32 :=
  LibObservable.finalT (res_main_v426 (F := Ideal) V0) (res_main_v3 (F := Ideal) V0) slices_S802816x2x2x2x2_S802816x1x2x2x2_0_0_0_0_0 slices_S802816x2x2x2x2_S802816x1x2x2x2_0_1_0_0_0 shapeCasts_S802816x1x2x2x2_S802816x2x2x2 slices_S802816x2x2x2x2_S802816x2x1x2x2_0_0_0_0_0 slices_S802816x2x2x2x2_S802816x2x1x2x2_0_0_1_0_0 shapeCasts_S802816x2x1x2x2_S802816x2x2x2 slices_S802816x2x2x2x2_S802816x2x2x1x2_0_0_0_0_0 slices_S802816x2x2x2x2_S802816x2x2x1x2_0_0_0_1_0 shapeCasts_S802816x2x2x1x2_S802816x2x2x2 slices_S802816x2x2x2x2_S802816x2x2x2x1_0_0_0_0_0 slices_S802816x2x2x2x2_S802816x2x2x2x1_0_0_0_0_1 shapeCasts_S802816x2x2x2x1_S802816x2x2x2 reducesTo_S802816x2x2x2_S802816_d1_2_3 h_S_ bcast_S802816_S802816x1_0 concatenates_S802816x1_S802816x1_S802816x1_S802816x1_S802816x4_d1

/-- The reference's [802816, 4] array at (sample, feature) is the sample's result. -/
theorem lastStage_apply (n : Fin 802816) (f : Fin 4) : lastStage V0 (ix2 n f) = Sample.out (feat V0 n) (wts V0) f := by
  have hQ := fun a b d e => (sq426 V0 n a b d e).symm
  match f with
  | ⟨0, _⟩ =>
    refine (LibObservable.finalT_apply0 _ _ slices_S802816x2x2x2x2_S802816x1x2x2x2_0_0_0_0_0 slices_S802816x2x2x2x2_S802816x1x2x2x2_0_1_0_0_0 shapeCasts_S802816x1x2x2x2_S802816x2x2x2 slices_S802816x2x2x2x2_S802816x2x1x2x2_0_0_0_0_0 slices_S802816x2x2x2x2_S802816x2x1x2x2_0_0_1_0_0 shapeCasts_S802816x2x1x2x2_S802816x2x2x2 slices_S802816x2x2x2x2_S802816x2x2x1x2_0_0_0_0_0 slices_S802816x2x2x2x2_S802816x2x2x1x2_0_0_0_1_0 shapeCasts_S802816x2x2x1x2_S802816x2x2x2 slices_S802816x2x2x2x2_S802816x2x2x2x1_0_0_0_0_0 slices_S802816x2x2x2x2_S802816x2x2x2x1_0_0_0_0_1 shapeCasts_S802816x2x2x2x1_S802816x2x2x2 reducesTo_S802816x2x2x2_S802816_d1_2_3 h_S_ bcast_S802816_S802816x1_0 concatenates_S802816x1_S802816x1_S802816x1_S802816x1_S802816x4_d1 n).trans ?_
    show _ = z0 eOps (Sample.finalState (feat V0 n) (wts V0)) + _
    rw [z0_eq]; simp only [hQ]; rfl
  | ⟨1, _⟩ =>
    refine (LibObservable.finalT_apply1 _ _ slices_S802816x2x2x2x2_S802816x1x2x2x2_0_0_0_0_0 slices_S802816x2x2x2x2_S802816x1x2x2x2_0_1_0_0_0 shapeCasts_S802816x1x2x2x2_S802816x2x2x2 slices_S802816x2x2x2x2_S802816x2x1x2x2_0_0_0_0_0 slices_S802816x2x2x2x2_S802816x2x1x2x2_0_0_1_0_0 shapeCasts_S802816x2x1x2x2_S802816x2x2x2 slices_S802816x2x2x2x2_S802816x2x2x1x2_0_0_0_0_0 slices_S802816x2x2x2x2_S802816x2x2x1x2_0_0_0_1_0 shapeCasts_S802816x2x2x1x2_S802816x2x2x2 slices_S802816x2x2x2x2_S802816x2x2x2x1_0_0_0_0_0 slices_S802816x2x2x2x2_S802816x2x2x2x1_0_0_0_0_1 shapeCasts_S802816x2x2x2x1_S802816x2x2x2 reducesTo_S802816x2x2x2_S802816_d1_2_3 h_S_ bcast_S802816_S802816x1_0 concatenates_S802816x1_S802816x1_S802816x1_S802816x1_S802816x4_d1 n).trans ?_
    show _ = z1 eOps (Sample.finalState (feat V0 n) (wts V0)) + _
    rw [z1_eq]; simp only [hQ]; rfl
  | ⟨2, _⟩ =>
    refine (LibObservable.finalT_apply2 _ _ slices_S802816x2x2x2x2_S802816x1x2x2x2_0_0_0_0_0 slices_S802816x2x2x2x2_S802816x1x2x2x2_0_1_0_0_0 shapeCasts_S802816x1x2x2x2_S802816x2x2x2 slices_S802816x2x2x2x2_S802816x2x1x2x2_0_0_0_0_0 slices_S802816x2x2x2x2_S802816x2x1x2x2_0_0_1_0_0 shapeCasts_S802816x2x1x2x2_S802816x2x2x2 slices_S802816x2x2x2x2_S802816x2x2x1x2_0_0_0_0_0 slices_S802816x2x2x2x2_S802816x2x2x1x2_0_0_0_1_0 shapeCasts_S802816x2x2x1x2_S802816x2x2x2 slices_S802816x2x2x2x2_S802816x2x2x2x1_0_0_0_0_0 slices_S802816x2x2x2x2_S802816x2x2x2x1_0_0_0_0_1 shapeCasts_S802816x2x2x2x1_S802816x2x2x2 reducesTo_S802816x2x2x2_S802816_d1_2_3 h_S_ bcast_S802816_S802816x1_0 concatenates_S802816x1_S802816x1_S802816x1_S802816x1_S802816x4_d1 n).trans ?_
    show _ = z2 eOps (Sample.finalState (feat V0 n) (wts V0)) + _
    rw [z2_eq]; simp only [hQ]; rfl
  | ⟨3, _⟩ =>
    refine (LibObservable.finalT_apply3 _ _ slices_S802816x2x2x2x2_S802816x1x2x2x2_0_0_0_0_0 slices_S802816x2x2x2x2_S802816x1x2x2x2_0_1_0_0_0 shapeCasts_S802816x1x2x2x2_S802816x2x2x2 slices_S802816x2x2x2x2_S802816x2x1x2x2_0_0_0_0_0 slices_S802816x2x2x2x2_S802816x2x1x2x2_0_0_1_0_0 shapeCasts_S802816x2x1x2x2_S802816x2x2x2 slices_S802816x2x2x2x2_S802816x2x2x1x2_0_0_0_0_0 slices_S802816x2x2x2x2_S802816x2x2x1x2_0_0_0_1_0 shapeCasts_S802816x2x2x1x2_S802816x2x2x2 slices_S802816x2x2x2x2_S802816x2x2x2x1_0_0_0_0_0 slices_S802816x2x2x2x2_S802816x2x2x2x1_0_0_0_0_1 shapeCasts_S802816x2x2x2x1_S802816x2x2x2 reducesTo_S802816x2x2x2_S802816_d1_2_3 h_S_ bcast_S802816_S802816x1_0 concatenates_S802816x1_S802816x1_S802816x1_S802816x1_S802816x4_d1 n).trans ?_
    show _ = z3 eOps (Sample.finalState (feat V0 n) (wts V0)) + _
    rw [z3_eq]; simp only [hQ]; rfl

/-- So the last stage is the specification's [802816, 4] array. -/
theorem lastStage_eq : lastStage V0
    = fun j : S802816x4.Idx => Sample.out (fun k => res_main_v3 (F := Ideal) V0 (ix2 (j 0) k)) (wts V0) (j 1) := by
  funext j
  obtain ⟨n, f, rfl⟩ : ∃ (n : Fin 802816) (f : Fin 4), j = ix2 n f := ⟨j 0, j 1, eq_ix2 j⟩
  exact lastStage_apply V0 n f

/-! ## The run -/

/-- Every execution of the reference ends with its result at the specification's array of the launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v457)
          = Spec.result Sample.out shapeCasts_S802816x4_S4096x784
              (Spec.patches shapeCasts_S4096x1x28x28_S4096x28x28 shapeCasts_S4096x28x28_S4096x14x2x14x2
                transposes_S4096x14x2x14x2_S4096x14x14x2x2_0_1_3_2_4 shapeCasts_S4096x14x14x2x2_S802816x4 (m ((c.tc : Thread nD τ).loc main_arg0)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      show shapeCast _ (lastStage (launchContents m c)) _ = _
      rw [lastStage_eq]
      rfl), (h c).2⟩) (Value.run (F := Ideal) m ρ)

end Cert.ReferenceIdeal.RefValue

end
-- ==== Proof.lean ====
/-
  Two programs for one four-qubit circuit per 2×2 image patch — a Pallas kernel working on blocks of samples with
  sixteen amplitude vectors, and a jnp reference working on an array [samples, 2, 2, 2, 2] — end with equal results
  on the extended reals.

  Both start from the same arrangement of the image into samples × four features (Patches.lean).  For one sample
  both apply three layers of four plane rotations (angle = half of feature × weight) and two controlled NOTs to the
  state |0000⟩, literally the same expressions amplitude by amplitude (Circuit.lean, Sample.lean); they differ only in
  the last step: the kernel subtracts the sum of the eight squared amplitudes with a wire's bit set from the sum
  of the eight with it clear, the reference sums the eight differences.  On the extended reals the two agree because
  a square is never −∞, so negation distributes over the subtracted sum (Circuit.lean `sub_sum8`); the precondition is
  not needed.  The kernel's side is read off its frame run block by block (KernelBody*.lean, KernelValue*.lean), the
  reference's off its run stage by stage (RefOps.lean, RefInit.lean, RefValue.lean).  No operation of the kernel is
  rewritten by its idealization, so nothing is to be preserved.
-/
import proofs.«106929_j65481071405125_1_alg».proof.Defs
import proofs.«106929_j65481071405125_1_alg».proof.Proof.Gen.Kernel
import proofs.«106929_j65481071405125_1_alg».proof.Proof.Gen.KernelIdeal
import proofs.«106929_j65481071405125_1_alg».proof.Proof.Gen.ReferenceIdeal
import proofs.«106929_j65481071405125_1_alg».proof.Proof.Gen.Pre_finite_inputs
import proofs.«106929_j65481071405125_1_alg».proof.Proof.FramePK
import proofs.«106929_j65481071405125_1_alg».proof.Proof.FramePI
import proofs.«106929_j65481071405125_1_alg».proof.Proof.KernelBody
import proofs.«106929_j65481071405125_1_alg».proof.Proof.KernelValue
import proofs.«106929_j65481071405125_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end with the result at one and the same function of the argument arrays: the per-sample circuit of
    Sample.lean over the patches of Patches.lean. -/
theorem algebraic : Cert.algebraic_KernelIdeal_ReferenceIdeal := by
  intro m ρ m' ρ' _ hagree
  refine ⟨_, Cert.KernelIdeal.KValue.run_of_body Cert.Sample.out Cert.KernelIdeal.Body.out_apply
    Cert.ReferenceIdeal.Gen.shapeCasts_S4096x1x28x28_S4096x28x28 Cert.ReferenceIdeal.Gen.shapeCasts_S4096x28x28_S4096x14x2x14x2
    Cert.ReferenceIdeal.Gen.transposes_S4096x14x2x14x2_S4096x14x14x2x2_0_1_3_2_4 Cert.ReferenceIdeal.Gen.shapeCasts_S4096x14x14x2x2_S802816x4
    Cert.ReferenceIdeal.Gen.shapeCasts_S802816x4_S4096x784 m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
